-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x40 : S_.BroadcastsInDim S256x40 (![] : Fin 0 → Fin S256x40.rank)
  reducesTo_S256x40_S_d0_1 : S256x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg6 : FVec F S40 .f32) (main_v13 : IVec S_ 1) (main_v16 : IVec S256x40 1) : IVec S_ 1 :=
  let main_c_5 : IVec S_ 1 := constantI S_ 1 1#1
  let main_v17 : IVec S_ 1 := (fun x v => Host.reduce IntOp.andi x v reducesTo_S256x40_S_d0_1 h_S_) main_v16 main_c_5
  let main_v18 : IVec S_ 1 := andi main_v13 main_v17
  let main_v19 : FVec F S40 .f32 := Host.absf main_arg6
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x512 .f32) (main_arg1 : IVec S800000 32) (main_arg2 : IVec S800000 32) (main_arg3 : FVec F S512x256 .f32) (main_arg4 : FVec F S256 .f32) (main_arg5 : FVec F S256x40 .f32) (main_arg6 : FVec F S40 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg3
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg4
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x40 .f32 := Host.absf main_arg5
  let main_cst_4 : FVec F S_ .f32 := constant S_ .f32 0x7F800000#32
  let main_v15 : FVec F S256x40 .f32 := broadcastInDim S256x40 ![] bcast_S_S256x40 main_cst_4
  let main_v16 : IVec S256x40 1 := cmpf .olt main_v14 main_v15
  fn_part1 (F := F) main_arg6 main_v13 main_v16
-- ==== Kernel.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S2000x512 : Shape := ⟨2, ![2000, 512]⟩
abbrev S2000x1 : Shape := ⟨2, ![2000, 1]⟩
abbrev S2000x256 : Shape := ⟨2, ![2000, 256]⟩
abbrev S800000x256 : Shape := ⟨2, ![800000, 256]⟩
abbrev S1x256 : Shape := ⟨2, ![1, 256]⟩
abbrev S50000x40 : Shape := ⟨2, ![50000, 40]⟩
abbrev S2000x40 : Shape := ⟨2, ![2000, 40]⟩
abbrev S800000x40 : Shape := ⟨2, ![800000, 40]⟩
abbrev S1x40 : Shape := ⟨2, ![1, 40]⟩
abbrev S2000 : Shape := ⟨1, ![2000]⟩

abbrev nBuf : Space → Nat
  | .hbm => 76
  | .vmem => 24
  | .smem => 0
  | _ => 0

abbrev bufTy : (tb : Table) → Fin (tcTables nBuf tb) → BufTy
  | .hbm, ⟨0, _⟩ => ⟨S50000x512, .f32⟩
  | .hbm, ⟨1, _⟩ => ⟨S800000, .i32⟩
  | .hbm, ⟨2, _⟩ => ⟨S800000, .i32⟩
  | .hbm, ⟨3, _⟩ => ⟨S512x256, .f32⟩
  | .hbm, ⟨4, _⟩ => ⟨S256, .f32⟩
  | .hbm, ⟨5, _⟩ => ⟨S256x40, .f32⟩
  | .hbm, ⟨6, _⟩ => ⟨S40, .f32⟩
  | .hbm, ⟨7, _⟩ => ⟨S_, .i32⟩
  | .hbm, ⟨8, _⟩ => ⟨S800000, .i32⟩
  | .hbm, ⟨9, _⟩ => ⟨S_, .i32⟩
  | .hbm, ⟨10, _⟩ => ⟨S50000, .i32⟩
  | .hbm, ⟨11, _⟩ => ⟨S800000x1, .i32⟩
  | .hbm, ⟨12, _⟩ => ⟨S50000, .i32⟩
  | .hbm, ⟨13, _⟩ => ⟨S50000, .f32⟩
  | .hbm, ⟨14, _⟩ => ⟨S_, .i32⟩
  | .hbm, ⟨15, _⟩ => ⟨S50000, .i32⟩
  | .hbm, ⟨16, _⟩ => ⟨S800000x1, .i32⟩
  | .hbm, ⟨17, _⟩ => ⟨S50000, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S_, .f32⟩
  | .hbm, ⟨28, _⟩ => ⟨S50000, .f32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .i1⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000, .f32⟩
  | .hbm, ⟨37, _⟩ => ⟨S_, .f32⟩
  | .hbm, ⟨38, _⟩ => ⟨S_, .f32⟩
  | .hbm, ⟨39, _⟩ => ⟨S50000, .f32⟩
  | .hbm, ⟨40, _⟩ => ⟨S50000, .f32⟩
  | .hbm, ⟨41, _⟩ => ⟨S50000x1, .f32⟩
  | .hbm, ⟨42, _⟩ => ⟨S50000x256, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S_, .f32⟩
  | .hbm, ⟨53, _⟩ => ⟨S50000x256, .f32⟩
  | .hbm, ⟨54, _⟩ => ⟨S800000x1, .i32⟩
  | .hbm, ⟨55, _⟩ => ⟨S50000x256, .f32⟩
  | .hbm, ⟨56, _⟩ => ⟨S50000x1, .f32⟩
  | .hbm, ⟨57, _⟩ => ⟨S50000x1, .f32⟩
  | .hbm, ⟨58, _⟩ => ⟨S1x256, .f32⟩
  | .hbm, ⟨59, _⟩ => ⟨S50000x40, .f32⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x40, .f32⟩
  | .hbm, ⟨69, _⟩ => ⟨S_, .f32⟩
  | .hbm, ⟨70, _⟩ => ⟨S50000x40, .f32⟩
  | .hbm, ⟨71, _⟩ => ⟨S800000x1, .i32⟩
  | .hbm, ⟨72, _⟩ => ⟨S50000x40, .f32⟩
  | .hbm, ⟨73, _⟩ => ⟨S50000x1, .f32⟩
  | .hbm, ⟨74, _⟩ => ⟨S1x40, .f32⟩
  | .hbm, ⟨75, _⟩ => ⟨S50000x40, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x1, .f32⟩
  | .local _ .vmem, ⟨4, _⟩ => ⟨S2000x1, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S256x40, .f32⟩
  | .local _ .vmem, ⟨13, _⟩ => ⟨S2000x1, .f32⟩
  | .local _ .vmem, ⟨14, _⟩ => ⟨S2000x1, .f32⟩
  | .local _ .vmem, ⟨15, _⟩ => ⟨S2000x40, .f32⟩
  | .local _ .vmem, ⟨16, _⟩ => ⟨S2000x40, .f32⟩
  | .local _ .vmem, ⟨17, _⟩ => ⟨S2000x40, .f32⟩
  | .local _ .vmem, ⟨18, _⟩ => ⟨S2000x40, .f32⟩
  | .local _ .vmem, ⟨19, _⟩ => ⟨S2000x1, .f32⟩
  | .local _ .vmem, ⟨20, _⟩ => ⟨S2000x1, .f32⟩
  | .local _ .vmem, ⟨21, _⟩ => ⟨S1x40, .f32⟩
  | .local _ .vmem, ⟨22, _⟩ => ⟨S2000x40, .f32⟩
  | .local _ .vmem, ⟨23, _⟩ => ⟨S2000x40, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_c_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v14 : Ref sig .tc := ⟨.hbm, 29, rfl⟩
abbrev main_cst_4 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_call1_v0 : Ref sig .tc := ⟨.hbm, 38, rfl⟩
abbrev main_call1_v1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_7 : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_c_10 : Ref sig .tc := ⟨.hbm, 60, rfl⟩
abbrev main_v37 : Ref sig .tc := ⟨.hbm, 61, rfl⟩
abbrev main_v38 : Ref sig .tc := ⟨.hbm, 62, rfl⟩
abbrev main_c_11 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_12 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x40 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x40 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x40_S256x40_0_0 : ∀ a, (![0, 0] : Fin 2 → Nat) a + S256x40.size a ≤ S256x40.size a
  h_S256x40 : 0 < S256x40.numel
  broadcasts_S2000x1_S2000x40 : S2000x1.Broadcasts S2000x40
  inb_S2000x40_S2000x40_0_0 : ∀ a, (![0, 0] : Fin 2 → Nat) a + S2000x40.size a ≤ S2000x40.size a
  h_S2000x40 : 0 < S2000x40.numel
  bcast_S_S50000x40 : S_.BroadcastsInDim S50000x40 (![] : Fin 0 → Fin S50000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  scatter_S50000_S800000x1_S800000_n_0_0_1_wf : ScatterDims.WF S50000 S800000x1 S800000 [] [0] [0] 1
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x40_S2000x40_1_0_0_1_n_n_wf : DotDims.WF S2000x256 S256x40 S2000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x256.size a ≤ S50000x256.size a
  hwx0_3 : ∀ i : grid0.Coords, EltTy.bits .f32 = 32 ∨ (Rect.block (s := S50000x256) S2000x256.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x40.size a ≤ S256x40.size a
  hwx1_3 : ∀ i : grid1.Coords, EltTy.bits .f32 = 32 ∨ (Rect.block (s := S256x40) S256x40.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S50000x1.size a
  hwx1_4 : ∀ i : grid1.Coords, EltTy.bits .f32 = 32 ∨ (Rect.block (s := S50000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x40.size a ≤ S50000x40.size a
  hwx1_5 : ∀ i : grid1.Coords, EltTy.bits .f32 = 32 ∨ (Rect.block (s := S50000x40) S2000x40.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x40.size a ≤ S50000x40.size a
  hwx2_0 : ∀ i : grid2.Coords, EltTy.bits .f32 = 32 ∨ (Rect.block (s := S50000x40) S2000x40.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x40.size a ≤ S50000x40.size a
  hwx2_3 : ∀ i : grid2.Coords, EltTy.bits .f32 = 32 ∨ (Rect.block (s := S50000x40) S2000x40.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x40_S2000x40_1_0_0_1_n_n : DotDims S2000x256 S256x40 S2000x40 where
  lhsContracting := [1]
  rhsContracting := [0]
  lhsNonContracting := [0]
  rhsNonContracting := [1]
  lhsBatch := []
  rhsBatch := []
  wf := dot_S2000x256_S256x40_S2000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v21) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S2000x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v32) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S256x40.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v34) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v36) S2000x40.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v46) S2000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v47) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S2000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x512 : Shape := ⟨2, ![50000, 512]⟩
abbrev S800000 : Shape := ⟨1, ![800000]⟩
abbrev S512x256 : Shape := ⟨2, ![512, 256]⟩
abbrev S256 : Shape := ⟨1, ![256]⟩
abbrev S256x40 : Shape := ⟨2, ![256, 40]⟩
abbrev S40 : Shape := ⟨1, ![40]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S50000x1 : Shape := ⟨2, ![50000, 1]⟩
abbrev S800000x256 : Shape := ⟨2, ![800000, 256]⟩
abbrev S1x256 : Shape := ⟨2, ![1, 256]⟩
abbrev S50000x40 : Shape := ⟨2, ![50000, 40]⟩
abbrev S800000x40 : Shape := ⟨2, ![800000, 40]⟩
abbrev S1x40 : Shape := ⟨2, ![1, 40]⟩

abbrev nBuf : Space → Nat
  | .hbm => 138
  | .vmem => 0
  | .smem => 0
  | _ => 0

abbrev hbmTy0_0 (i : Nat) : BufTy := match i % 128 with
  | 0 => ⟨S50000x512, .f32⟩
  | 1 => ⟨S800000, .i32⟩
  | 2 => ⟨S800000, .i32⟩
  | 3 => ⟨S512x256, .f32⟩
  | 4 => ⟨S256, .f32⟩
  | 5 => ⟨S256x40, .f32⟩
  | 6 => ⟨S40, .f32⟩
  | 7 => ⟨S_, .f32⟩
  | 8 => ⟨S800000, .f32⟩
  | 9 => ⟨S_, .f32⟩
  | 10 => ⟨S50000, .f32⟩
  | 11 => ⟨S800000x1, .i32⟩
  | 12 => ⟨S50000, .f32⟩
  | 13 => ⟨S_, .f32⟩
  | 14 => ⟨S50000, .f32⟩
  | 15 => ⟨S800000x1, .i32⟩
  | 16 => ⟨S50000, .f32⟩
  | 17 => ⟨S_, .f32⟩
  | 18 => ⟨S50000, .f32⟩
  | 19 => ⟨S50000, .i1⟩
  | 20 => ⟨S_, .f32⟩
  | 21 => ⟨S50000, .f32⟩
  | 22 => ⟨S50000, .f32⟩
  | 23 => ⟨S50000, .f32⟩
  | 24 => ⟨S_, .f32⟩
  | 25 => ⟨S_, .f32⟩
  | 26 => ⟨S50000, .f32⟩
  | 27 => ⟨S50000, .f32⟩
  | 28 => ⟨S_, .f32⟩
  | 29 => ⟨S50000, .f32⟩
  | 30 => ⟨S50000, .i1⟩
  | 31 => ⟨S_, .f32⟩
  | 32 => ⟨S50000, .f32⟩
  | 33 => ⟨S50000, .f32⟩
  | 34 => ⟨S50000, .f32⟩
  | 35 => ⟨S_, .f32⟩
  | 36 => ⟨S_, .f32⟩
  | 37 => ⟨S50000, .f32⟩
  | 38 => ⟨S50000, .f32⟩
  | 39 => ⟨S50000x256, .f32⟩
  | 40 => ⟨S50000x1, .f32⟩
  | 41 => ⟨S50000x256, .f32⟩
  | 42 => ⟨S50000x256, .f32⟩
  | 43 => ⟨S_, .i32⟩
  | 44 => ⟨S800000, .i32⟩
  | 45 => ⟨S800000, .i1⟩
  | 46 => ⟨S_, .i32⟩
  | 47 => ⟨S800000, .i32⟩
  | 48 => ⟨S800000, .i32⟩
  | 49 => ⟨S800000, .i32⟩
  | 50 => ⟨S800000x1, .i32⟩
  | 51 => ⟨S800000x256, .f32⟩
  | 52 => ⟨S_, .f32⟩
  | 53 => ⟨S50000x256, .f32⟩
  | 54 => ⟨S800000x1, .i32⟩
  | 55 => ⟨S50000x256, .f32⟩
  | 56 => ⟨S50000x1, .f32⟩
  | 57 => ⟨S50000x256, .f32⟩
  | 58 => ⟨S50000x256, .f32⟩
  | 59 => ⟨S1x256, .f32⟩
  | 60 => ⟨S50000x256, .f32⟩
  | 61 => ⟨S50000x256, .f32⟩
  | 62 => ⟨S_, .f32⟩
  | 63 => ⟨S50000x256, .f32⟩
  | 64 => ⟨S50000x256, .f32⟩
  | 65 => ⟨S_, .f32⟩
  | 66 => ⟨S800000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S50000, .f32⟩
  | 73 => ⟨S800000x1, .i32⟩
  | 74 => ⟨S50000, .f32⟩
  | 75 => ⟨S_, .f32⟩
  | 76 => ⟨S50000, .f32⟩
  | 77 => ⟨S50000, .i1⟩
  | 78 => ⟨S_, .f32⟩
  | 79 => ⟨S50000, .f32⟩
  | 80 => ⟨S50000, .f32⟩
  | 81 => ⟨S50000, .f32⟩
  | 82 => ⟨S_, .f32⟩
  | 83 => ⟨S_, .f32⟩
  | 84 => ⟨S50000, .f32⟩
  | 85 => ⟨S50000, .f32⟩
  | 86 => ⟨S_, .f32⟩
  | 87 => ⟨S50000, .f32⟩
  | 88 => ⟨S50000, .i1⟩
  | 89 => ⟨S_, .f32⟩
  | 90 => ⟨S50000, .f32⟩
  | 91 => ⟨S50000, .f32⟩
  | 92 => ⟨S50000, .f32⟩
  | 93 => ⟨S_, .f32⟩
  | 94 => ⟨S_, .f32⟩
  | 95 => ⟨S50000, .f32⟩
  | 96 => ⟨S50000, .f32⟩
  | 97 => ⟨S50000x40, .f32⟩
  | 98 => ⟨S50000x1, .f32⟩
  | 99 => ⟨S50000x40, .f32⟩
  | 100 => ⟨S50000x40, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000x40, .f32⟩
  | 110 => ⟨S_, .f32⟩
  | 111 => ⟨S50000x40, .f32⟩
  | 112 => ⟨S800000x1, .i32⟩
  | 113 => ⟨S50000x40, .f32⟩
  | 114 => ⟨S50000x1, .f32⟩
  | 115 => ⟨S50000x40, .f32⟩
  | 116 => ⟨S50000x40, .f32⟩
  | 117 => ⟨S1x40, .f32⟩
  | 118 => ⟨S50000x40, .f32⟩
  | 119 => ⟨S50000x40, .f32⟩
  | 120 => ⟨S_, .f32⟩
  | 121 => ⟨S50000x40, .f32⟩
  | 122 => ⟨S50000x40, .f32⟩
  | 123 => ⟨S_, .f32⟩
  | 124 => ⟨S50000, .f32⟩
  | 125 => ⟨S_, .f32⟩
  | 126 => ⟨S50000, .f32⟩
  | 127 => ⟨S50000, .f32⟩
  | _ => ⟨S50000x512, .f32⟩

abbrev hbmTy0_1 (i : Nat) : BufTy := match i % 128 with
  | 0 => ⟨S50000x1, .f32⟩
  | 1 => ⟨S50000x40, .f32⟩
  | 2 => ⟨S50000x40, .f32⟩
  | 3 => ⟨S50000x40, .f32⟩
  | 4 => ⟨S_, .f32⟩
  | 5 => ⟨S50000, .f32⟩
  | 6 => ⟨S50000x1, .f32⟩
  | 7 => ⟨S50000x1, .f32⟩
  | 8 => ⟨S50000x40, .f32⟩
  | 9 => ⟨S50000x40, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_cst_6 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_7 : Ref sig .tc := ⟨.hbm, 35, rfl⟩
abbrev main_call1_v0 : Ref sig .tc := ⟨.hbm, 36, rfl⟩
abbrev main_call1_v1 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c : Ref sig .tc := ⟨.hbm, 43, rfl⟩
abbrev main_v23 : Ref sig .tc := ⟨.hbm, 44, rfl⟩
abbrev main_v24 : Ref sig .tc := ⟨.hbm, 45, rfl⟩
abbrev main_c_8 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_call2_cst : Ref sig .tc := ⟨.hbm, 62, rfl⟩
abbrev main_call2_v0 : Ref sig .tc := ⟨.hbm, 63, rfl⟩
abbrev main_v39 : Ref sig .tc := ⟨.hbm, 64, rfl⟩
abbrev main_cst_10 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩
abbrev main_cst_14 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_15 : Ref sig .tc := ⟨.hbm, 82, rfl⟩
abbrev main_call3_v0 : Ref sig .tc := ⟨.hbm, 83, rfl⟩
abbrev main_call3_v1 : Ref sig .tc := ⟨.hbm, 84, rfl⟩
abbrev main_v52 : Ref sig .tc := ⟨.hbm, 85, rfl⟩
abbrev main_cst_16 : Ref sig .tc := ⟨.hbm, 86, rfl⟩
abbrev main_v53 : Ref sig .tc := ⟨.hbm, 87, rfl⟩
abbrev main_v54 : Ref sig .tc := ⟨.hbm, 88, rfl⟩
abbrev main_cst_17 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_18 : Ref sig .tc := ⟨.hbm, 93, rfl⟩
abbrev main_call4_v0 : Ref sig .tc := ⟨.hbm, 94, rfl⟩
abbrev main_call4_v1 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_c_19 : Ref sig .tc := ⟨.hbm, 101, rfl⟩
abbrev main_v63 : Ref sig .tc := ⟨.hbm, 102, rfl⟩
abbrev main_v64 : Ref sig .tc := ⟨.hbm, 103, rfl⟩
abbrev main_c_20 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_cst_21 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_call5_cst : Ref sig .tc := ⟨.hbm, 120, rfl⟩
abbrev main_call5_v0 : Ref sig .tc := ⟨.hbm, 121, rfl⟩
abbrev main_v79 : Ref sig .tc := ⟨.hbm, 122, rfl⟩
abbrev main_call6_cst : Ref sig .tc := ⟨.hbm, 123, rfl⟩
abbrev main_call6_v0 : Ref sig .tc := ⟨.hbm, 124, rfl⟩
abbrev main_call6_cst_0 : Ref sig .tc := ⟨.hbm, 125, rfl⟩
abbrev main_call6_v1 : Ref sig .tc := ⟨.hbm, 126, rfl⟩
abbrev main_call6_v2 : Ref sig .tc := ⟨.hbm, 127, rfl⟩
abbrev main_call6_v3 : Ref sig .tc := ⟨.hbm, 128, rfl⟩
abbrev main_call6_v4 : Ref sig .tc := ⟨.hbm, 129, rfl⟩
abbrev main_call6_v5 : Ref sig .tc := ⟨.hbm, 130, rfl⟩
abbrev main_call6_v6 : Ref sig .tc := ⟨.hbm, 131, rfl⟩
abbrev main_call6_cst_1 : Ref sig .tc := ⟨.hbm, 132, rfl⟩
abbrev main_call6_v7 : Ref sig .tc := ⟨.hbm, 133, rfl⟩
abbrev main_call6_v8 : Ref sig .tc := ⟨.hbm, 134, rfl⟩
abbrev main_call6_v9 : Ref sig .tc := ⟨.hbm, 135, rfl⟩
abbrev main_call6_v10 : Ref sig .tc := ⟨.hbm, 136, rfl⟩
abbrev main_v80 : Ref sig .tc := ⟨.hbm, 137, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S50000x1_S50000x40_0_1 : S50000x1.BroadcastsInDim S50000x40 (![0, 1] : Fin 2 → Fin S50000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  scatter_S50000_S800000x1_S800000_n_0_0_1_wf : ScatterDims.WF S50000 S800000x1 S800000 [] [0] [0] 1
  dot_S50000x512_S512x256_S50000x256_1_0_0_1_n_n_wf : DotDims.WF S50000x512 S512x256 S50000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x40_S50000x40_1_0_0_1_n_n_wf : DotDims.WF S50000x256 S256x40 S50000x40 [1] [0] [0] [1] [] []
  gather_S50000x40_S800000x1_S800000x40_1_0_n_n_0_1_140_wf : GatherDims.WF S50000x40 S800000x1 S800000x40 [1] [0] [] [0] [] 1 ![1, 40]
  scatter_S50000x40_S800000x1_S800000x40_1_0_0_1_wf : ScatterDims.WF S50000x40 S800000x1 S800000x40 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x40_S50000x40_1_0_0_1_n_n : DotDims S50000x256 S256x40 S50000x40 where
  lhsContracting := [1]
  rhsContracting := [0]
  lhsNonContracting := [0]
  rhsNonContracting := [1]
  lhsBatch := []
  rhsBatch := []
  wf := dot_S50000x256_S256x40_S50000x40_1_0_0_1_n_n_wf
def gather_S50000x40_S800000x1_S800000x40_1_0_n_n_0_1_140 : GatherDims S50000x40 S800000x1 S800000x40 where
  offsetDims := [1]
  collapsedSliceDims := [0]
  operandBatchingDims := []
  startIndicesBatchingDims := []
  startIndexMap := [0]
  indexVectorDim := 1
  sliceSizes := ![1, 40]
  wf := gather_S50000x40_S800000x1_S800000x40_1_0_n_n_0_1_140_wf
def scatter_S50000x40_S800000x1_S800000x40_1_0_0_1 : ScatterDims S50000x40 S800000x1 S800000x40 where
  updateWindowDims := [1]
  insertedWindowDims := [0]
  scatterDimsToOperandDims := [0]
  indexVectorDim := 1
  wf := scatter_S50000x40_S800000x1_S800000x40_1_0_0_1_wf

class Facts : Prop extends Facts₀ where

variable [Facts]
-- ==== Proof.KRun.lean ====
/-
  The kernel program's run, with its result named.

  The program is ten segments: stretches of host operations and three kernel regions. Along them the contents of
  every buffer are known: a stretch leaves each buffer at the composition of its operations, a region leaves each
  of its output arrays at what its grid points wrote back and every other buffer as it found it. So every weakly
  fair execution terminates with the result array at the last region's output array and the arguments unchanged.
-/
import proofs.«142990_j15659450761582_2_alg».proof.Proof.Gen.KernelIdeal.Frame

set_option maxRecDepth 16384

noncomputable section

namespace Cert.KernelIdeal.HandRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the kernel program terminates, nothing faulting, with the result buffer at the
    contents the run's last boundary gives it and the argument arrays as launched. -/
theorem run : θ_run defs (onTc (τ := τ) (main (F := F))) ⟨m, fun _ => 0, ρ⟩ (fun r => ∀ c : Dev nD,
      r.2.mem ((c.tc : Thread nD τ).loc main_v49) = W10 m ρ c (Proc.devRef .tc main_v49)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v49 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c)⟩)

end Cert.KernelIdeal.HandRun

end
-- ==== Proof.LibDotSum.lean ====
/-
  A contraction over ONE axis, re-indexed by that axis's coordinate.

  A matrix product's sum ranges over the contraction shape's index set; when one axis is contracted that set
  is in bijection with `Fin K`, and the sum becomes the familiar `∑ k : Fin K, L k * R k` once each operand
  is known at the operand indices.
-/
import Idealize.ShloMosaic.PureOps.Ideal
import Idealize.ShloMosaic.PureOps.Ideal.Laws
import Idealize.ShloMosaic.Lib.ValueIdx

noncomputable section

open scoped BigOperators

namespace Idealize.ShloMosaic.LibDotSum

open Idealize.ShloMosaic Idealize.ShloMosaic.ValueIdx

/-- The contraction sum of a one-axis dot as a sum over the contracted coordinate `k : Fin K`, given each
    operand's value at the operand index of `k`. -/
theorem sum_single {sl sr so : Shape} (D : DotDims sl sr so) (K : Nat) (hr : D.contr.rank = 1)
    (hs : D.contr.size ⟨0, by omega⟩ = K) (lhs : sl.Idx → EReal) (rhs : sr.Idx → EReal) (j : so.Idx)
    (L R : Fin K → EReal)
    (hl : ∀ k : Fin K, lhs (D.lhsIdx j ((contrEquiv1 D K hr hs).symm k)) = L k)
    (hrr : ∀ k : Fin K, rhs (D.rhsIdx j ((contrEquiv1 D K hr hs).symm k)) = R k) :
    ∑ q : D.contr.Idx, lhs (D.lhsIdx j q) * rhs (D.rhsIdx j q) = ∑ k : Fin K, L k * R k := by
  rw [← Equiv.sum_comp (contrEquiv1 D K hr hs).symm]
  exact Finset.sum_congr rfl fun k _ => by rw [hl k, hrr k]

/-- The left operand's coordinate on the single contracted axis is the contracted coordinate. -/
theorem lhs_contr_val {sl sr so : Shape} (D : DotDims sl sr so) (K : Nat) (hr : D.contr.rank = 1)
    (hs : D.contr.size ⟨0, by omega⟩ = K) {cl : Fin sl.rank} (hc : D.lhsContracting = [cl]) (j : so.Idx) (k : Fin K) :
    (D.lhsIdx j ((contrEquiv1 D K hr hs).symm k) cl).val = k.val :=
  (D.lhsIdx_val_of_single hc j _).trans (contrEquiv1_symm_val D K hr hs k)

/-- The right operand's coordinate on the single contracted axis is the contracted coordinate. -/
theorem rhs_contr_val {sl sr so : Shape} (D : DotDims sl sr so) (K : Nat) (hr : D.contr.rank = 1)
    (hs : D.contr.size ⟨0, by omega⟩ = K) {cr : Fin sr.rank} (hc : D.rhsContracting = [cr]) (j : so.Idx) (k : Fin K) :
    (D.rhsIdx j ((contrEquiv1 D K hr hs).symm k) cr).val = k.val :=
  (D.rhsIdx_val_of_single hc j _).trans (contrEquiv1_symm_val D K hr hs k)

end Idealize.ShloMosaic.LibDotSum

end
-- ==== Proof.Region0.lean ====
/-
  Region 0: the first dense transform.

  The grid has 25 points; point `t` reads rows `2000 t … 2000 t + 1999` of `x` and of the scale column, the whole
  of `W1`, and writes back rows `2000 t … 2000 t + 1999` of the result: each entry `(r, n)` of those rows is
  `(∑ k, x[r, k] · W1[k, n]) · scale[r]` (the change of float format before the product is the identity on the
  extended reals, and the product accumulates into zero). The 25 row blocks tile the result, so the result array
  ends holding that function of the three arrays as the region finds them.
-/
import proofs.«142990_j15659450761582_2_alg».proof.Proof.Gen.KernelIdeal.Frame
import proofs.«142990_j15659450761582_2_alg».proof.Proof.LibDotSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region0

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the three arrays it reads. -/
def G0 (x : S50000x512.Idx → EReal) (w : S512x256.Idx → EReal) (s : S50000x1.Idx → EReal) : S50000x256.Idx → EReal :=
  fun i => (∑ k : Fin 512, x (ix2 (i 0) k) * w (ix2 k (i 1))) * s (ix2 (i 0) (0 : Fin 1))

/-- The left operand's row is the result's row. -/
theorem lhs_row (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
/-- The right operand's column is the result's column. -/
theorem rhs_col (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The block product into zero, at an entry: the sum over the contracted coordinate. -/
theorem matmul_apply (l : S2000x512.Idx → EReal) (r : S512x256.Idx → EReal) (j : S2000x256.Idx) :
    FloatOps.matmul (F := Ideal) (φ₁ := .bf16) (φ₂ := .bf16) dot_S2000x512_S512x256_S2000x256_1_0_0_1_n_n none l r (constant S2000x256 .f32 0x00000000#32) j
      = ∑ k : Fin 512, l (ix2 (j 0) k) * r (ix2 k (j 1)) := by
  rw [Ideal.matmul_constant_zero_apply]
  refine LibDotSum.sum_single dot_S2000x512_S512x256_S2000x256_1_0_0_1_n_n 512 rfl rfl l r j _ _ (fun k => ?_) (fun k => ?_)
  · refine congrArg l (funext fun a => Fin.ext ?_)
    match a with
    | ⟨0, _⟩ => exact lhs_row _ _
    | ⟨1, _⟩ => exact LibDotSum.lhs_contr_val dot_S2000x512_S512x256_S2000x256_1_0_0_1_n_n 512 rfl rfl rfl j k
  · refine congrArg r (funext fun a => Fin.ext ?_)
    match a with
    | ⟨0, _⟩ => exact LibDotSum.rhs_contr_val dot_S2000x512_S512x256_S2000x256_1_0_0_1_n_n 512 rfl rfl rfl j k
    | ⟨1, _⟩ => exact rhs_col _ _

/-- The body's stored value at an entry of the block. -/
theorem pay_apply (x0 : Vec Ideal S2000x512 .f32) (x1 : Vec Ideal S512x256 .f32) (x2 : Vec Ideal S2000x1 .f32) (j : S2000x256.Idx) :
    k0_pay1 x0 x1 x2 j = (∑ k : Fin 512, x0 (ix2 (j 0) k) * x1 (ix2 k (j 1))) * x2 (ix2 (j 0) (0 : Fin 1)) := by
  unfold k0_pay1
  rw [mulf_apply]
  congr 1
  · exact matmul_apply _ _ j
  · rw [shapeCast_self]
    refine broadcastTo_apply x2 broadcasts_S2000x1_S2000x256 j _ (fun a => ?_)
    match a with
    | ⟨0, _⟩ => rfl
    | ⟨1, _⟩ => rfl

/-- The printed index maps over the grid: the row blocks move with the point, the column block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 ∧ t.val < 25 :=
  (by decide +kernel : ∀ t : Fin grid0.N, _)

/-- Input block 0 at point `t` is rows `2000 t …` of `x`. -/
theorem read_x (c : Dev nD) (t : Fin cfg0.N) (y : S2000x512.Idx) (i : S50000x512.Idx)
    (h0 : (i 0).val = 2000 * t.val + (y 0).val) (h1 : (i 1).val = (y 1).val) :
    (iblk0 V c 0 t : Vec Ideal S2000x512 .f32) y = (V c main_arg0 : S50000x512.Idx → EReal) i := by
  obtain ⟨e00, e01, -⟩ := idx_facts t
  unfold iblk0
  rw [View.read_apply]
  show V c main_arg0 _ = V c main_arg0 _
  congr 1
  funext a
  apply Fin.ext
  match a with
  | ⟨0, _⟩ => show win0_0.index t 0 * 2000 + 1 * (y 0).val = (i 0).val; rw [e00, h0]; omega
  | ⟨1, _⟩ => show win0_0.index t 1 * 512 + 1 * (y 1).val = (i 1).val; rw [e01, h1]; omega

/-- Input block 1 at every point is the whole of `W1`. -/
theorem read_w (c : Dev nD) (t : Fin cfg0.N) (y : S512x256.Idx) :
    (iblk0 V c 1 t : Vec Ideal S512x256 .f32) y = (V c main_arg3 : S512x256.Idx → EReal) y := by
  obtain ⟨-, -, e10, e11, -⟩ := idx_facts t
  unfold iblk0
  rw [View.read_apply]
  show V c main_arg3 _ = V c main_arg3 _
  congr 1
  funext a
  apply Fin.ext
  match a with
  | ⟨0, _⟩ => show win0_1.index t 0 * 512 + 1 * (y 0).val = (y 0).val; rw [e10]; omega
  | ⟨1, _⟩ => show win0_1.index t 1 * 256 + 1 * (y 1).val = (y 1).val; rw [e11]; omega

/-- Input block 2 at point `t` is rows `2000 t …` of the scale column. -/
theorem read_s (c : Dev nD) (t : Fin cfg0.N) (y : S2000x1.Idx) (i : S50000x1.Idx)
    (h0 : (i 0).val = 2000 * t.val + (y 0).val) :
    (iblk0 V c 2 t : Vec Ideal S2000x1 .f32) y = (V c main_v21 : S50000x1.Idx → EReal) i := by
  obtain ⟨-, -, -, -, e20, e21, -⟩ := idx_facts t
  unfold iblk0
  rw [View.read_apply]
  show V c main_v21 _ = V c main_v21 _
  congr 1
  funext a
  apply Fin.ext
  have hy1 : (y 1).val = 0 := by have := (y 1).isLt; simp at this; omega
  have hi1 : (i 1).val = 0 := by have := (i 1).isLt; simp at this; omega
  match a with
  | ⟨0, _⟩ => show win0_2.index t 0 * 2000 + 1 * (y 0).val = (i 0).val; rw [e20, h0]; omega
  | ⟨1, _⟩ => show win0_2.index t 1 * 1 + 1 * (y 1).val = (i 1).val; rw [e21, hy1, hi1]

/-- WHAT POINT `t` WRITES BACK is block `t` of `G0` of the arrays as the region finds them. -/
theorem flushed_eq (c : Dev nD) (t : Fin cfg0.N) :
    (dat0 V c).flushed 3 t = ((cfg0.win 3).blk t).view.read (Elt Ideal) (G0 (V c main_arg0) (V c main_arg3) (V c main_v21)) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x256) hz, View.ld_unit_zero (S := S2000x1) hz]
  obtain ⟨e00, e01, e10, e11, e20, e21, e30, e31, ht⟩ := idx_facts t
  funext j
  refine (pay_apply _ _ _ j).trans ?_
  rw [View.read_apply]
  have hr : ((((cfg0.win 3).blk t).view.emb j) 0).val = 2000 * t.val + (j 0).val := by
    show win0_3.index t 0 * 2000 + 1 * (j 0).val = _; rw [e30]; omega
  have hc : ((((cfg0.win 3).blk t).view.emb j) 1).val = (j 1).val := by
    show win0_3.index t 1 * 256 + 1 * (j 1).val = _; rw [e31]; omega
  unfold G0
  congr 1
  · refine Finset.sum_congr rfl fun k _ => ?_
    congr 1
    · exact read_x V c t _ _ hr rfl
    · refine (read_w V c t _).trans (congrArg _ (funext fun a => Fin.ext ?_))
      match a with
      | ⟨0, _⟩ => rfl
      | ⟨1, _⟩ => exact hc.symm
  · exact read_s V c t _ _ hr

/-- An index of the result is in point `t`'s block iff each coordinate is in the block's range on its axis. -/
theorem mem_blk (t : Fin cfg0.N) (i : S50000x256.Idx) :
    i ∈ ((cfg0.win 3).blk t).view.set ↔ ∀ a : Fin 2, win0_3.index t a * S2000x256.size a ≤ (i a).val ∧ (i a).val < win0_3.index t a * S2000x256.size a + S2000x256.size a := by
  show i ∈ ((View.whole main_v22).slice (win0_3.rect t)).set ↔ _
  rw [View.set_slice_whole, Rect.mem_set_unit]
  exact Iff.rfl

/-- The row blocks tile the result: row `r` is in the block of point `r / 2000`. -/
theorem cover (i : S50000x256.Idx) : ∃ t : Fin cfg0.N, (cfg0.win 3).flush t = true ∧ i ∈ ((cfg0.win 3).blk t).view.set := by
  have hi0 : (i 0).val < 50000 := (i 0).isLt
  have hi1 : (i 1).val < 256 := (i 1).isLt
  have hN : cfg0.N = 25 := N_0
  have hlt : (i 0).val / 2000 < cfg0.N := by rw [hN]; omega
  obtain ⟨-, -, -, -, -, -, e30, e31, -⟩ := idx_facts ⟨(i 0).val / 2000, hlt⟩
  refine ⟨⟨(i 0).val / 2000, hlt⟩, flush0_3 _, ?_⟩
  rw [mem_blk]
  intro a
  match a with
  | ⟨0, _⟩ =>
    show win0_3.index ⟨(i 0).val / 2000, hlt⟩ 0 * 2000 ≤ (i 0).val ∧ (i 0).val < win0_3.index ⟨(i 0).val / 2000, hlt⟩ 0 * 2000 + 2000
    rw [e30]; show (i 0).val / 2000 * 2000 ≤ (i 0).val ∧ (i 0).val < (i 0).val / 2000 * 2000 + 2000; omega
  | ⟨1, _⟩ =>
    show win0_3.index ⟨(i 0).val / 2000, hlt⟩ 1 * 256 ≤ (i 1).val ∧ (i 1).val < win0_3.index ⟨(i 0).val / 2000, hlt⟩ 1 * 256 + 256
    rw [e31]; omega

/-- THE RESULT ARRAY when the region is left: `G0` of the arrays as the region found them. -/
theorem final (c : Dev nD) :
    (dat0 V c).arrAt 3 cfg0.N = G0 (V c main_arg0) (V c main_arg3) (V c main_v21) :=
  (dat0 V c).arrAt_eq_of_cover 3 _ (fun t _ => flushed_eq V c t) cover

end Cert.KernelIdeal.Region0

end
-- ==== Proof.Region1.lean ====
/-
  Region 1: the hidden activation and the second dense transform, fused.

  The grid has 25 points; point `t` reads rows `2000 t … 2000 t + 1999` of the aggregated array and of the two
  scale columns, the whole of the bias row and of `W2`, and writes back the same rows of the result: entry
  `(r, n)` is `(∑ k, max (a[r, k] · s_in[r] + b1[k]) 0 · W2[k, n]) · s_out[r]`. The 25 row blocks tile the result.
-/
import proofs.«142990_j15659450761582_2_alg».proof.Proof.Gen.KernelIdeal.Frame
import proofs.«142990_j15659450761582_2_alg».proof.Proof.LibDotSum
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region1

open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the five arrays it reads. -/
def G1 (a : S50000x256.Idx → EReal) (si : S50000x1.Idx → EReal) (b : S1x256.Idx → EReal) (w : S256x40.Idx → EReal)
    (so : S50000x1.Idx → EReal) : S50000x40.Idx → EReal :=
  fun i => (∑ k : Fin 256, max (a (ix2 (i 0) k) * si (ix2 (i 0) (0 : Fin 1)) + b (ix2 (0 : Fin 1) k)) (Ideal.ofBits .f32 0x00000000#32)
      * w (ix2 k (i 1))) * so (ix2 (i 0) (0 : Fin 1))

/-- The left operand's row is the result's row. -/
theorem lhs_row (i : S2000x40.Idx) (q : dot_S2000x256_S256x40_S2000x40_1_0_0_1_n_n.contr.Idx) : (dot_S2000x256_S256x40_S2000x40_1_0_0_1_n_n.lhsIdx i q 0).val = (i 0).val := by
  unfold DotDims.lhsIdx
  rw [dif_neg (show ¬(0 : Fin S2000x256.rank) ∈ dot_S2000x256_S256x40_S2000x40_1_0_0_1_n_n.lhsBatch by decide), dif_pos (show (0 : Fin S2000x256.rank) ∈ dot_S2000x256_S256x40_S2000x40_1_0_0_1_n_n.lhsNonContracting by decide)]
  rfl
/-- The right operand's column is the result's column. -/
theorem rhs_col (i : S2000x40.Idx) (q : dot_S2000x256_S256x40_S2000x40_1_0_0_1_n_n.contr.Idx) : (dot_S2000x256_S256x40_S2000x40_1_0_0_1_n_n.rhsIdx i q 1).val = (i 1).val := by
  unfold DotDims.rhsIdx
  rw [dif_neg (show ¬(1 : Fin S256x40.rank) ∈ dot_S2000x256_S256x40_S2000x40_1_0_0_1_n_n.rhsBatch by decide), dif_pos (show (1 : Fin S256x40.rank) ∈ dot_S2000x256_S256x40_S2000x40_1_0_0_1_n_n.rhsNonContracting by decide)]
  rfl

/-- The block product into zero, at an entry: the sum over the contracted coordinate. -/
theorem matmul_apply (l : S2000x256.Idx → EReal) (r : S256x40.Idx → EReal) (j : S2000x40.Idx) :
    FloatOps.matmul (F := Ideal) (φ₁ := .bf16) (φ₂ := .bf16) dot_S2000x256_S256x40_S2000x40_1_0_0_1_n_n none l r (constant S2000x40 .f32 0x00000000#32) j
      = ∑ k : Fin 256, l (ix2 (j 0) k) * r (ix2 k (j 1)) := by
  rw [Ideal.matmul_constant_zero_apply]
  refine LibDotSum.sum_single dot_S2000x256_S256x40_S2000x40_1_0_0_1_n_n 256 rfl rfl l r j _ _ (fun k => ?_) (fun k => ?_)
  · refine congrArg l (funext fun a => Fin.ext ?_)
    match a with
    | ⟨0, _⟩ => exact lhs_row _ _
    | ⟨1, _⟩ => exact LibDotSum.lhs_contr_val dot_S2000x256_S256x40_S2000x40_1_0_0_1_n_n 256 rfl rfl rfl j k
  · refine congrArg r (funext fun a => Fin.ext ?_)
    match a with
    | ⟨0, _⟩ => exact LibDotSum.rhs_contr_val dot_S2000x256_S256x40_S2000x40_1_0_0_1_n_n 256 rfl rfl rfl j k
    | ⟨1, _⟩ => exact rhs_col _ _

/-- The body's stored value at an entry of the block. -/
theorem pay_apply (x0 : Vec Ideal S2000x256 .f32) (x1 : Vec Ideal S2000x1 .f32) (x2 : Vec Ideal S1x256 .f32) (x3 : Vec Ideal S256x40 .f32)
    (x4 : Vec Ideal S2000x1 .f32) (j : S2000x40.Idx) :
    k1_pay1 x0 x1 x2 x3 x4 j
      = (∑ k : Fin 256, max (x0 (ix2 (j 0) k) * x1 (ix2 (j 0) (0 : Fin 1)) + x2 (ix2 (0 : Fin 1) k)) (Ideal.ofBits .f32 0x00000000#32)
          * x3 (ix2 k (j 1))) * x4 (ix2 (j 0) (0 : Fin 1)) := by
  unfold k1_pay1
  simp only [shapeCast_self]
  rw [mulf_apply]
  congr 1
  · refine (matmul_apply _ _ j).trans (Finset.sum_congr rfl fun k _ => ?_)
    congr 1
    have e1 : broadcastTo S2000x256 x1 broadcasts_S2000x1_S2000x256 (ix2 (j 0) k) = x1 (ix2 (j 0) (0 : Fin 1)) :=
      broadcastTo_apply x1 broadcasts_S2000x1_S2000x256 _ _ (fun a => by
        match a with
        | ⟨0, _⟩ => rfl
        | ⟨1, _⟩ => rfl)
    have e2 : broadcastTo S2000x256 x2 broadcasts_S1x256_S2000x256 (ix2 (j 0) k) = x2 (ix2 (0 : Fin 1) k) :=
      broadcastTo_apply x2 broadcasts_S1x256_S2000x256 _ _ (fun a => by
        match a with
        | ⟨0, _⟩ => rfl
        | ⟨1, _⟩ => rfl)
    show max (x0 (ix2 (j 0) k) * broadcastTo S2000x256 x1 broadcasts_S2000x1_S2000x256 (ix2 (j 0) k)
        + broadcastTo S2000x256 x2 broadcasts_S1x256_S2000x256 (ix2 (j 0) k)) (Ideal.ofBits .f32 0x00000000#32) = _
    rw [e1, e2]
  · refine broadcastTo_apply x4 broadcasts_S2000x1_S2000x40 j _ (fun a => ?_)
    match a with
    | ⟨0, _⟩ => rfl
    | ⟨1, _⟩ => rfl

/-- Input block 0 at point `t` is rows `2000 t …` of the aggregated array. -/
theorem read_a (c : Dev nD) (t : Fin cfg1.N) (y : S2000x256.Idx) (i : S50000x256.Idx)
    (h0 : (i 0).val = 2000 * t.val + (y 0).val) (h1 : (i 1).val = (y 1).val) :
    (iblk1 V c 0 t : Vec Ideal S2000x256 .f32) y = (V c main_v32 : S50000x256.Idx → EReal) i := by
  obtain ⟨e0, e1⟩ := (by decide +kernel : ∀ t : Fin grid1.N, win1_0.index t (0 : Fin 2) = t.val ∧ win1_0.index t (1 : Fin 2) = 0) t
  unfold iblk1
  rw [View.read_apply]
  show V c main_v32 _ = V c main_v32 _
  congr 1
  funext a
  apply Fin.ext
  match a with
  | ⟨0, _⟩ => show win1_0.index t 0 * 2000 + 1 * (y 0).val = (i 0).val; rw [e0, h0]; omega
  | ⟨1, _⟩ => show win1_0.index t 1 * 256 + 1 * (y 1).val = (i 1).val; rw [e1, h1]; omega

/-- Input block 1 at point `t` is rows `2000 t …` of the in-degree scale column. -/
theorem read_si (c : Dev nD) (t : Fin cfg1.N) (y : S2000x1.Idx) (i : S50000x1.Idx)
    (h0 : (i 0).val = 2000 * t.val + (y 0).val) (h1 : (i 1).val = (y 1).val) :
    (iblk1 V c 1 t : Vec Ideal S2000x1 .f32) y = (V c main_v33 : S50000x1.Idx → EReal) i := by
  obtain ⟨e0, e1⟩ := (by decide +kernel : ∀ t : Fin grid1.N, win1_1.index t (0 : Fin 2) = t.val ∧ win1_1.index t (1 : Fin 2) = 0) t
  unfold iblk1
  rw [View.read_apply]
  show V c main_v33 _ = V c main_v33 _
  congr 1
  funext a
  apply Fin.ext
  match a with
  | ⟨0, _⟩ => show win1_1.index t 0 * 2000 + 1 * (y 0).val = (i 0).val; rw [e0, h0]; omega
  | ⟨1, _⟩ => show win1_1.index t 1 * 1 + 1 * (y 1).val = (i 1).val; rw [e1, h1]; omega

/-- Input block 2 at every point is the whole bias row. -/
theorem read_b (c : Dev nD) (t : Fin cfg1.N) (y : S1x256.Idx) :
    (iblk1 V c 2 t : Vec Ideal S1x256 .f32) y = (V c main_v35 : S1x256.Idx → EReal) y := by
  obtain ⟨e0, e1⟩ := (by decide +kernel : ∀ t : Fin grid1.N, win1_2.index t (0 : Fin 2) = 0 ∧ win1_2.index t (1 : Fin 2) = 0) t
  unfold iblk1
  rw [View.read_apply]
  show V c main_v35 _ = V c main_v35 _
  congr 1
  funext a
  apply Fin.ext
  match a with
  | ⟨0, _⟩ => show win1_2.index t 0 * 1 + 1 * (y 0).val = (y 0).val; rw [e0]; omega
  | ⟨1, _⟩ => show win1_2.index t 1 * 256 + 1 * (y 1).val = (y 1).val; rw [e1]; omega

/-- Input block 3 at every point is the whole of `W2`. -/
theorem read_w (c : Dev nD) (t : Fin cfg1.N) (y : S256x40.Idx) :
    (iblk1 V c 3 t : Vec Ideal S256x40 .f32) y = (V c main_arg5 : S256x40.Idx → EReal) y := by
  obtain ⟨e0, e1⟩ := (by decide +kernel : ∀ t : Fin grid1.N, win1_3.index t (0 : Fin 2) = 0 ∧ win1_3.index t (1 : Fin 2) = 0) t
  unfold iblk1
  rw [View.read_apply]
  show V c main_arg5 _ = V c main_arg5 _
  congr 1
  funext a
  apply Fin.ext
  match a with
  | ⟨0, _⟩ => show win1_3.index t 0 * 256 + 1 * (y 0).val = (y 0).val; rw [e0]; omega
  | ⟨1, _⟩ => show win1_3.index t 1 * 40 + 1 * (y 1).val = (y 1).val; rw [e1]; omega

/-- Input block 4 at point `t` is rows `2000 t …` of the out-degree scale column. -/
theorem read_so (c : Dev nD) (t : Fin cfg1.N) (y : S2000x1.Idx) (i : S50000x1.Idx)
    (h0 : (i 0).val = 2000 * t.val + (y 0).val) (h1 : (i 1).val = (y 1).val) :
    (iblk1 V c 4 t : Vec Ideal S2000x1 .f32) y = (V c main_v34 : S50000x1.Idx → EReal) i := by
  obtain ⟨e0, e1⟩ := (by decide +kernel : ∀ t : Fin grid1.N, win1_4.index t (0 : Fin 2) = t.val ∧ win1_4.index t (1 : Fin 2) = 0) t
  unfold iblk1
  rw [View.read_apply]
  show V c main_v34 _ = V c main_v34 _
  congr 1
  funext a
  apply Fin.ext
  match a with
  | ⟨0, _⟩ => show win1_4.index t 0 * 2000 + 1 * (y 0).val = (i 0).val; rw [e0, h0]; omega
  | ⟨1, _⟩ => show win1_4.index t 1 * 1 + 1 * (y 1).val = (i 1).val; rw [e1, h1]; omega

/-- The result's row blocks move with the point, its column block stays. -/
theorem out_idx : ∀ t : Fin cfg1.N, win1_5.index t (0 : Fin 2) = t.val ∧ win1_5.index t (1 : Fin 2) = 0 :=
  (by decide +kernel : ∀ t : Fin grid1.N, _)

set_option maxHeartbeats 1600000 in
/-- WHAT POINT `t` WRITES BACK is block `t` of `G1` of the arrays as the region finds them. -/
theorem flushed_eq (c : Dev nD) (t : Fin cfg1.N) :
    (dat1 V c).flushed 5 t = ((cfg1.win 5).blk t).view.read (Elt Ideal)
      (G1 (V c main_v32) (V c main_v33) (V c main_v35) (V c main_arg5) (V c main_v34)) := by
  show (cfg1.win 5).cut (grid1.coords t) ((dat1 V c).after 5 t) = _
  rw [after1_5]
  unfold out1_5
  rw [View.canon_unit_zero hz]
  simp only [View.ld_unit_zero (S := S2000x256) hz, View.ld_unit_zero (S := S2000x1) hz, View.ld_unit_zero (S := S1x256) hz,
    View.ld_unit_zero (S := S256x40) hz]
  obtain ⟨e0, e1⟩ := out_idx t
  funext j
  refine (pay_apply _ _ _ _ _ j).trans ?_
  rw [View.read_apply]
  have hr : ((((cfg1.win 5).blk t).view.emb j) 0).val = 2000 * t.val + (j 0).val := by
    show win1_5.index t 0 * 2000 + 1 * (j 0).val = _; rw [e0]; omega
  have hc : ((((cfg1.win 5).blk t).view.emb j) 1).val = (j 1).val := by
    show win1_5.index t 1 * 40 + 1 * (j 1).val = _; rw [e1]; omega
  have ha : ∀ k : Fin 256, (iblk1 V c 0 t : Vec Ideal S2000x256 .f32) (ix2 (j 0) k)
      = (V c main_v32 : S50000x256.Idx → EReal) (ix2 ((((cfg1.win 5).blk t).view.emb j) 0) k) := fun k => read_a V c t _ _ hr rfl
  have hsi : (iblk1 V c 1 t : Vec Ideal S2000x1 .f32) (ix2 (j 0) (0 : Fin 1))
      = (V c main_v33 : S50000x1.Idx → EReal) (ix2 ((((cfg1.win 5).blk t).view.emb j) 0) (0 : Fin 1)) := read_si V c t _ _ hr rfl
  have hb : ∀ k : Fin 256, (iblk1 V c 2 t : Vec Ideal S1x256 .f32) (ix2 (0 : Fin 1) k)
      = (V c main_v35 : S1x256.Idx → EReal) (ix2 (0 : Fin 1) k) := fun k => read_b V c t _
  have hw : ∀ k : Fin 256, (iblk1 V c 3 t : Vec Ideal S256x40 .f32) (ix2 k (j 1))
      = (V c main_arg5 : S256x40.Idx → EReal) (ix2 k ((((cfg1.win 5).blk t).view.emb j) 1)) := fun k =>
    (read_w V c t _).trans (congrArg _ (funext fun a => Fin.ext (by
      match a with
      | ⟨0, _⟩ => rfl
      | ⟨1, _⟩ => exact hc.symm)))
  have hso : (iblk1 V c 4 t : Vec Ideal S2000x1 .f32) (ix2 (j 0) (0 : Fin 1))
      = (V c main_v34 : S50000x1.Idx → EReal) (ix2 ((((cfg1.win 5).blk t).view.emb j) 0) (0 : Fin 1)) := read_so V c t _ _ hr rfl
  rw [hsi, hso, Finset.sum_congr rfl fun k _ => by rw [ha k, hb k, hw k]]
  rfl

/-- An index of the result is in point `t`'s block iff each coordinate is in the block's range on its axis. -/
theorem mem_blk (t : Fin cfg1.N) (i : S50000x40.Idx) :
    i ∈ ((cfg1.win 5).blk t).view.set ↔ ∀ a : Fin 2, win1_5.index t a * S2000x40.size a ≤ (i a).val ∧ (i a).val < win1_5.index t a * S2000x40.size a + S2000x40.size a := by
  show i ∈ ((View.whole main_v36).slice (win1_5.rect t)).set ↔ _
  rw [View.set_slice_whole, Rect.mem_set_unit]
  exact Iff.rfl

/-- The row blocks tile the result: row `r` is in the block of point `r / 2000`. -/
theorem cover (i : S50000x40.Idx) : ∃ t : Fin cfg1.N, (cfg1.win 5).flush t = true ∧ i ∈ ((cfg1.win 5).blk t).view.set := by
  have hi0 : (i 0).val < 50000 := (i 0).isLt
  have hi1 : (i 1).val < 40 := (i 1).isLt
  have hN : cfg1.N = 25 := N_1
  have hlt : (i 0).val / 2000 < cfg1.N := by rw [hN]; omega
  obtain ⟨e0, e1⟩ := out_idx ⟨(i 0).val / 2000, hlt⟩
  refine ⟨⟨(i 0).val / 2000, hlt⟩, flush1_5 _, ?_⟩
  rw [mem_blk]
  intro a
  match a with
  | ⟨0, _⟩ =>
    show win1_5.index ⟨(i 0).val / 2000, hlt⟩ 0 * 2000 ≤ (i 0).val ∧ (i 0).val < win1_5.index ⟨(i 0).val / 2000, hlt⟩ 0 * 2000 + 2000
    rw [e0]; show (i 0).val / 2000 * 2000 ≤ (i 0).val ∧ (i 0).val < (i 0).val / 2000 * 2000 + 2000; omega
  | ⟨1, _⟩ =>
    show win1_5.index ⟨(i 0).val / 2000, hlt⟩ 1 * 40 ≤ (i 1).val ∧ (i 1).val < win1_5.index ⟨(i 0).val / 2000, hlt⟩ 1 * 40 + 40
    rw [e1]; omega

/-- THE RESULT ARRAY when the region is left: `G1` of the arrays as the region found them. -/
theorem final (c : Dev nD) :
    (dat1 V c).arrAt 5 cfg1.N = G1 (V c main_v32) (V c main_v33) (V c main_v35) (V c main_arg5) (V c main_v34) :=
  (dat1 V c).arrAt_eq_of_cover 5 _ (fun t _ => flushed_eq V c t) cover

end Cert.KernelIdeal.Region1

end
-- ==== Proof.LibColumn.lean ====
/-
  Keepdims columns.

  A vector of `a` entries viewed as a column `[a, 1]` holds entry `i` at `(i, 0)`: the row-major position of `(i, u)` in
  `[a, 1]` is `i · 1 + u = i`.
-/
import Idealize.ShloMosaic.Lib.Pipeline.Value
import Idealize.ShloMosaic.Lib.ValueIdx

namespace Idealize.ShloMosaic.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Idealize.ShloMosaic.LibColumn
-- ==== Proof.RowSoftmax.lean ====
/-
  One row of the last layer.

  For a row `a` of 40 aggregated scores, the node's in-degree factor `s` and the bias `b`: the scores are
  `v q = max (a q · s + b q) 0`; their maximum is the fold of `max` from minus infinity; and the log-softmax at
  column `q` is `(v q − max v) − log ∑ q', exp (v q' − max v)`. Zero and minus infinity are kept as the float words
  both programs write (the same word on both sides is never evaluated).
-/
import Idealize.ShloMosaic.PureOps.Ideal
import Idealize.ShloMosaic.PureOps.Ideal.Laws

noncomputable section

open scoped BigOperators

namespace Cert.RowSoftmax

open Idealize.ShloMosaic

/-- The scores of one row. -/
def rowV (a : Fin 40 → EReal) (s : EReal) (b : Fin 40 → EReal) : Fin 40 → EReal :=
  fun q => max (a q * s + b q) (Ideal.ofBits .f32 0x00000000#32)

/-- The maximum of one row, folded from minus infinity. -/
def rowMax (v : Fin 40 → EReal) : EReal :=
  (Finset.univ : Finset (Fin 40)).fold max (Ideal.ofBits .f32 0xFF800000#32) v

/-- The log-softmax of one row at a column. -/
def lsm (v : Fin 40 → EReal) (q : Fin 40) : EReal :=
  (v q - rowMax v) - Ideal.log (∑ q' : Fin 40, Ideal.exp (v q' - rowMax v))

/-- Taking the maximum with minus infinity first changes nothing. -/
theorem max_ninf (y : EReal) : max (Ideal.ofBits .f32 0xFF800000#32) y = y := by
  simp [Ideal.ofBits, Ideal.ieee]

end Cert.RowSoftmax

end
-- ==== Proof.Region2.lean ====
/-
  Region 2: the class scores and their row-wise log-softmax.

  The grid has 25 points; point `t` reads rows `2000 t … 2000 t + 1999` of the aggregated array and of the in-degree
  scale column, the whole bias row, and writes back the same rows of the result: with `v[r, q] = max (a[r, q] · s[r] +
  b2[q]) 0`, entry `(r, q)` is `(v[r, q] − max_q' v[r, q']) − log ∑ q', exp (v[r, q'] − max_q' v[r, q'])`: a row's lane
  maximum is the fold of `max` from minus infinity over its 40 columns, its lane sum the sum over them. The 25 row
  blocks tile the result.
-/
import proofs.«142990_j15659450761582_2_alg».proof.Proof.Gen.KernelIdeal.Frame
import proofs.«142990_j15659450761582_2_alg».proof.Proof.LibColumn
import proofs.«142990_j15659450761582_2_alg».proof.Proof.RowSoftmax
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open scoped BigOperators

namespace Cert.KernelIdeal.Region2

open Cert.KernelIdeal Cert.KernelIdeal.Gen Cert.RowSoftmax Idealize.ShloMosaic.LibColumn

variable (V : (c : Dev nD) → (b : Ref sig .tc) → Buf (Elt Ideal) ((c : Thread nD τ).loc b))

theorem hz : (![0, 0] : Fin 2 → Nat) = fun _ => 0 := funext fun a => by fin_cases a <;> rfl

/-- The region's result as one function of the three arrays it reads. -/
def G2 (a : S50000x40.Idx → EReal) (si : S50000x1.Idx → EReal) (b : S1x40.Idx → EReal) : S50000x40.Idx → EReal :=
  fun i => lsm (rowV (fun q => a (ix2 (i 0) q)) (si (ix2 (i 0) (0 : Fin 1))) (fun q => b (ix2 (0 : Fin 1) q))) (i 1)

/-- A reduced row index with column `k` put back is `(p, k)`. -/
theorem lift_row (p : Fin 2000) (k : Fin (S2000x40.size 1)) :
    (reduces_S2000x40_S2000 : S2000x40.Reduces [1] S2000).lift (ix1 p) k = ix2 p (⟨k.val, k.isLt⟩ : Fin 40) := by
  funext c; apply Fin.ext
  fin_cases c <;> rfl

/-- A per-row value kept as a column and repeated along the row reads, at `(p, q)`, the row's value. -/
theorem col_bcast_apply (w : FVec Ideal S2000 .f32) (p : Fin 2000) (q : Fin 40) :
    broadcastTo S2000x40 (shapeCast S2000x1 w shapeCasts_S2000_S2000x1) broadcasts_S2000x1_S2000x40 (ix2 p q) = w (ix1 p) := by
  refine (broadcastTo_apply _ broadcasts_S2000x1_S2000x40 (ix2 p q) (ix2 p (0 : Fin 1)) (fun a => ?_)).trans
    (shapeCast_a_a1_apply w shapeCasts_S2000_S2000x1 p 0)
  match a with
  | ⟨0, _⟩ => rfl
  | ⟨1, _⟩ => rfl

/-- A row's lane maximum from minus infinity is the fold of `max` over its 40 columns. -/
theorem lane_max_apply (v : FVec Ideal S2000x40 .f32) (p : Fin 2000) :
    multiReduction .maximumf [1] S2000 v 0xFF800000#32 reduces_S2000x40_S2000 (.inl rfl) rfl (ix1 p) = rowMax (fun k => v (ix2 p k)) := by
  refine (Ideal.multiReduction_maximumf_single v 0xFF800000#32 reduces_S2000x40_S2000 (.inl rfl) rfl (ix1 p)).trans ?_
  unfold rowMax
  exact congrArg (fun f => Finset.fold max (Ideal.ofBits .f32 0xFF800000#32) f (Finset.univ : Finset (Fin 40)))
    (funext fun k => congrArg v (lift_row p k))

/-- A row's lane sum is the sum over its 40 columns. -/
theorem lane_sum_apply (e : FVec Ideal S2000x40 .f32) (p : Fin 2000) :
    multiReduction .add [1] S2000 e 0x00000000#32 reduces_S2000x40_S2000 (.inl rfl) rfl (ix1 p) = ∑ k : Fin 40, e (ix2 p k) := by
  refine (Ideal.multiReduction_add_single e 0x00000000#32 reduces_S2000x40_S2000 (.inl rfl) rfl (ix1 p)).trans ?_
  exact Finset.sum_congr rfl fun k _ => congrArg e (lift_row p k)

/-- The softmax part of the body on any block of scores `v`, at an entry. -/
theorem lsm_apply (v : FVec Ideal S2000x40 .f32) (p : Fin 2000) (q : Fin 40) :
    subf (subf v (broadcastTo S2000x40 (shapeCast S2000x1 (multiReduction .maximumf [1] S2000 v 0xFF800000#32 reduces_S2000x40_S2000 (.inl rfl) rfl) shapeCasts_S2000_S2000x1) broadcasts_S2000x1_S2000x40))
      (broadcastTo S2000x40 (log (shapeCast S2000x1 (multiReduction .add [1] S2000 (exp (subf v (broadcastTo S2000x40 (shapeCast S2000x1 (multiReduction .maximumf [1] S2000 v 0xFF800000#32 reduces_S2000x40_S2000 (.inl rfl) rfl) shapeCasts_S2000_S2000x1) broadcasts_S2000x1_S2000x40))) 0x00000000#32 reduces_S2000x40_S2000 (.inl rfl) rfl) shapeCasts_S2000_S2000x1)) broadcasts_S2000x1_S2000x40)
      (ix2 p q)
    = lsm (fun k => v (ix2 p k)) q := by
  have hmx : ∀ k : Fin 40, (broadcastTo S2000x40 (shapeCast S2000x1 (multiReduction .maximumf [1] S2000 v 0xFF800000#32 reduces_S2000x40_S2000 (.inl rfl) rfl) shapeCasts_S2000_S2000x1) broadcasts_S2000x1_S2000x40) (ix2 p k) = rowMax (fun k => v (ix2 p k)) := fun k =>
    (col_bcast_apply _ p k).trans (lane_max_apply v p)
  have hlog : broadcastTo S2000x40 (log (shapeCast S2000x1 (multiReduction .add [1] S2000 (exp (subf v (broadcastTo S2000x40 (shapeCast S2000x1 (multiReduction .maximumf [1] S2000 v 0xFF800000#32 reduces_S2000x40_S2000 (.inl rfl) rfl) shapeCasts_S2000_S2000x1) broadcasts_S2000x1_S2000x40))) 0x00000000#32 reduces_S2000x40_S2000 (.inl rfl) rfl) shapeCasts_S2000_S2000x1)) broadcasts_S2000x1_S2000x40 (ix2 p q)
      = Ideal.log (∑ k : Fin 40, Ideal.exp (v (ix2 p k) - rowMax (fun k => v (ix2 p k)))) := by
    refine (broadcastTo_apply _ broadcasts_S2000x1_S2000x40 (ix2 p q) (ix2 p (0 : Fin 1)) (fun a => ?_)).trans ?_
    · match a with
      | ⟨0, _⟩ => rfl
      | ⟨1, _⟩ => rfl
    · show Ideal.log (shapeCast S2000x1 _ shapeCasts_S2000_S2000x1 (ix2 p (0 : Fin 1))) = _
      rw [shapeCast_a_a1_apply, lane_sum_apply]
      refine congrArg Ideal.log (Finset.sum_congr rfl fun k _ => ?_)
      show Ideal.exp (v (ix2 p k) - (broadcastTo S2000x40 (shapeCast S2000x1 (multiReduction .maximumf [1] S2000 v 0xFF800000#32 reduces_S2000x40_S2000 (.inl rfl) rfl) shapeCasts_S2000_S2000x1) broadcasts_S2000x1_S2000x40) (ix2 p k)) = _
      rw [hmx k]
  show (v (ix2 p q) - (broadcastTo S2000x40 (shapeCast S2000x1 (multiReduction .maximumf [1] S2000 v 0xFF800000#32 reduces_S2000x40_S2000 (.inl rfl) rfl) shapeCasts_S2000_S2000x1) broadcasts_S2000x1_S2000x40) (ix2 p q)) - _ = _
  rw [hmx q, hlog]
  rfl

/-- The body's stored value at an entry of the block. -/
theorem pay_apply (x0 : Vec Ideal S2000x40 .f32) (x1 : Vec Ideal S2000x1 .f32) (x2 : Vec Ideal S1x40 .f32) (j : S2000x40.Idx) :
    k2_pay1 x0 x1 x2 j = lsm (rowV (fun q => x0 (ix2 (j 0) q)) (x1 (ix2 (j 0) (0 : Fin 1))) (fun q => x2 (ix2 (0 : Fin 1) q))) (j 1) := by
  obtain ⟨p, q, rfl⟩ : ∃ (p : Fin 2000) (q : Fin 40), j = ix2 p q := ⟨j 0, j 1, eq_ix2 j⟩
  unfold k2_pay1
  simp only [shapeCast_self]
  refine (lsm_apply _ p q).trans (congrArg (fun f => lsm f q) (funext fun k => ?_))
  have e1 : broadcastTo S2000x40 x1 broadcasts_S2000x1_S2000x40 (ix2 p k) = x1 (ix2 p (0 : Fin 1)) :=
    broadcastTo_apply x1 broadcasts_S2000x1_S2000x40 _ _ (fun a => by
      match a with
      | ⟨0, _⟩ => rfl
      | ⟨1, _⟩ => rfl)
  have e2 : broadcastTo S2000x40 x2 broadcasts_S1x40_S2000x40 (ix2 p k) = x2 (ix2 (0 : Fin 1) k) :=
    broadcastTo_apply x2 broadcasts_S1x40_S2000x40 _ _ (fun a => by
      match a with
      | ⟨0, _⟩ => rfl
      | ⟨1, _⟩ => rfl)
  show max (x0 (ix2 p k) * broadcastTo S2000x40 x1 broadcasts_S2000x1_S2000x40 (ix2 p k)
      + broadcastTo S2000x40 x2 broadcasts_S1x40_S2000x40 (ix2 p k)) (Ideal.ofBits .f32 0x00000000#32) = _
  rw [e1, e2]
  rfl

/-- Input block 0 at point `t` is rows `2000 t …` of the aggregated array. -/
theorem read_a (c : Dev nD) (t : Fin cfg2.N) (y : S2000x40.Idx) (i : S50000x40.Idx)
    (h0 : (i 0).val = 2000 * t.val + (y 0).val) (h1 : (i 1).val = (y 1).val) :
    (iblk2 V c 0 t : Vec Ideal S2000x40 .f32) y = (V c main_v46 : S50000x40.Idx → EReal) i := by
  obtain ⟨e0, e1⟩ := (by decide +kernel : ∀ t : Fin grid2.N, win2_0.index t (0 : Fin 2) = t.val ∧ win2_0.index t (1 : Fin 2) = 0) t
  unfold iblk2
  rw [View.read_apply]
  show V c main_v46 _ = V c main_v46 _
  congr 1
  funext a
  apply Fin.ext
  match a with
  | ⟨0, _⟩ => show win2_0.index t 0 * 2000 + 1 * (y 0).val = (i 0).val; rw [e0, h0]; omega
  | ⟨1, _⟩ => show win2_0.index t 1 * 40 + 1 * (y 1).val = (i 1).val; rw [e1, h1]; omega

/-- Input block 1 at point `t` is rows `2000 t …` of the in-degree scale column. -/
theorem read_si (c : Dev nD) (t : Fin cfg2.N) (y : S2000x1.Idx) (i : S50000x1.Idx)
    (h0 : (i 0).val = 2000 * t.val + (y 0).val) (h1 : (i 1).val = (y 1).val) :
    (iblk2 V c 1 t : Vec Ideal S2000x1 .f32) y = (V c main_v47 : S50000x1.Idx → EReal) i := by
  obtain ⟨e0, e1⟩ := (by decide +kernel : ∀ t : Fin grid2.N, win2_1.index t (0 : Fin 2) = t.val ∧ win2_1.index t (1 : Fin 2) = 0) t
  unfold iblk2
  rw [View.read_apply]
  show V c main_v47 _ = V c main_v47 _
  congr 1
  funext a
  apply Fin.ext
  match a with
  | ⟨0, _⟩ => show win2_1.index t 0 * 2000 + 1 * (y 0).val = (i 0).val; rw [e0, h0]; omega
  | ⟨1, _⟩ => show win2_1.index t 1 * 1 + 1 * (y 1).val = (i 1).val; rw [e1, h1]; omega

/-- Input block 2 at every point is the whole bias row. -/
theorem read_b (c : Dev nD) (t : Fin cfg2.N) (y : S1x40.Idx) :
    (iblk2 V c 2 t : Vec Ideal S1x40 .f32) y = (V c main_v48 : S1x40.Idx → EReal) y := by
  obtain ⟨e0, e1⟩ := (by decide +kernel : ∀ t : Fin grid2.N, win2_2.index t (0 : Fin 2) = 0 ∧ win2_2.index t (1 : Fin 2) = 0) t
  unfold iblk2
  rw [View.read_apply]
  show V c main_v48 _ = V c main_v48 _
  congr 1
  funext a
  apply Fin.ext
  match a with
  | ⟨0, _⟩ => show win2_2.index t 0 * 1 + 1 * (y 0).val = (y 0).val; rw [e0]; omega
  | ⟨1, _⟩ => show win2_2.index t 1 * 40 + 1 * (y 1).val = (y 1).val; rw [e1]; omega

/-- The result's row blocks move with the point, its column block stays. -/
theorem out_idx : ∀ t : Fin cfg2.N, win2_3.index t (0 : Fin 2) = t.val ∧ win2_3.index t (1 : Fin 2) = 0 :=
  (by decide +kernel : ∀ t : Fin grid2.N, _)

set_option maxHeartbeats 1600000 in
/-- WHAT POINT `t` WRITES BACK is block `t` of `G2` of the arrays as the region finds them. -/
theorem flushed_eq (c : Dev nD) (t : Fin cfg2.N) :
    (dat2 V c).flushed 3 t = ((cfg2.win 3).blk t).view.read (Elt Ideal) (G2 (V c main_v46) (V c main_v47) (V c main_v48)) := by
  show (cfg2.win 3).cut (grid2.coords t) ((dat2 V c).after 3 t) = _
  rw [after2_3]
  unfold out2_3
  rw [View.canon_unit_zero hz]
  simp only [View.ld_unit_zero (S := S2000x40) hz, View.ld_unit_zero (S := S2000x1) hz, View.ld_unit_zero (S := S1x40) hz]
  obtain ⟨e0, e1⟩ := out_idx t
  funext j
  refine (pay_apply _ _ _ j).trans ?_
  rw [View.read_apply]
  have hr : ((((cfg2.win 3).blk t).view.emb j) 0).val = 2000 * t.val + (j 0).val := by
    show win2_3.index t 0 * 2000 + 1 * (j 0).val = _; rw [e0]; omega
  have hc : ((((cfg2.win 3).blk t).view.emb j) 1).val = (j 1).val := by
    show win2_3.index t 1 * 40 + 1 * (j 1).val = _; rw [e1]; omega
  have ha : (fun q : Fin 40 => (iblk2 V c 0 t : Vec Ideal S2000x40 .f32) (ix2 (j 0) q))
      = fun q : Fin 40 => (V c main_v46 : S50000x40.Idx → EReal) (ix2 ((((cfg2.win 3).blk t).view.emb j) 0) q) :=
    funext fun q => read_a V c t _ _ hr rfl
  have hsi : (iblk2 V c 1 t : Vec Ideal S2000x1 .f32) (ix2 (j 0) (0 : Fin 1))
      = (V c main_v47 : S50000x1.Idx → EReal) (ix2 ((((cfg2.win 3).blk t).view.emb j) 0) (0 : Fin 1)) := read_si V c t _ _ hr rfl
  have hb : (fun q : Fin 40 => (iblk2 V c 2 t : Vec Ideal S1x40 .f32) (ix2 (0 : Fin 1) q))
      = fun q : Fin 40 => (V c main_v48 : S1x40.Idx → EReal) (ix2 (0 : Fin 1) q) := funext fun q => read_b V c t _
  have hq : (j 1 : Fin 40) = ((((cfg2.win 3).blk t).view.emb j) 1 : Fin 40) := Fin.ext hc.symm
  rw [ha, hsi, hb, hq]
  rfl

/-- An index of the result is in point `t`'s block iff each coordinate is in the block's range on its axis. -/
theorem mem_blk (t : Fin cfg2.N) (i : S50000x40.Idx) :
    i ∈ ((cfg2.win 3).blk t).view.set ↔ ∀ a : Fin 2, win2_3.index t a * S2000x40.size a ≤ (i a).val ∧ (i a).val < win2_3.index t a * S2000x40.size a + S2000x40.size a := by
  show i ∈ ((View.whole main_v49).slice (win2_3.rect t)).set ↔ _
  rw [View.set_slice_whole, Rect.mem_set_unit]
  exact Iff.rfl

/-- The row blocks tile the result: row `r` is in the block of point `r / 2000`. -/
theorem cover (i : S50000x40.Idx) : ∃ t : Fin cfg2.N, (cfg2.win 3).flush t = true ∧ i ∈ ((cfg2.win 3).blk t).view.set := by
  have hi0 : (i 0).val < 50000 := (i 0).isLt
  have hi1 : (i 1).val < 40 := (i 1).isLt
  have hN : cfg2.N = 25 := N_2
  have hlt : (i 0).val / 2000 < cfg2.N := by rw [hN]; omega
  obtain ⟨e0, e1⟩ := out_idx ⟨(i 0).val / 2000, hlt⟩
  refine ⟨⟨(i 0).val / 2000, hlt⟩, flush2_3 _, ?_⟩
  rw [mem_blk]
  intro a
  match a with
  | ⟨0, _⟩ =>
    show win2_3.index ⟨(i 0).val / 2000, hlt⟩ 0 * 2000 ≤ (i 0).val ∧ (i 0).val < win2_3.index ⟨(i 0).val / 2000, hlt⟩ 0 * 2000 + 2000
    rw [e0]; show (i 0).val / 2000 * 2000 ≤ (i 0).val ∧ (i 0).val < (i 0).val / 2000 * 2000 + 2000; omega
  | ⟨1, _⟩ =>
    show win2_3.index ⟨(i 0).val / 2000, hlt⟩ 1 * 40 ≤ (i 1).val ∧ (i 1).val < win2_3.index ⟨(i 0).val / 2000, hlt⟩ 1 * 40 + 40
    rw [e1]; omega

/-- THE RESULT ARRAY when the region is left: `G2` of the arrays as the region found them. -/
theorem final (c : Dev nD) :
    (dat2 V c).arrAt 3 cfg2.N = G2 (V c main_v46) (V c main_v47) (V c main_v48) :=
  (dat2 V c).arrAt_eq_of_cover 3 _ (fun t _ => flushed_eq V c t) cover

end Cert.KernelIdeal.Region2

end
-- ==== Proof.Spec.lean ====
/-
  The computation both programs perform, as whole-array stages.

  A two-layer graph convolution with symmetric degree normalisation, followed by a row-wise log-softmax:
  with `deg_out(v)` the number of edges leaving node `v`, `deg_in(v)` the number entering it, and
  `s(d) = d^(-1/2)` where `d > 0` and `0` elsewhere,

    y1  = (x · W1) scaled row-wise by s(deg_out)
    a1  = for each node, the sum of y1's rows over the edges entering it
    y2  = (relu (a1 scaled row-wise by s(deg_in) + b1) · W2) scaled row-wise by s(deg_out)
    a2  = for each node, the sum of y2's rows over the edges entering it
    v   = relu (a2 scaled row-wise by s(deg_in) + b2)
    out = (v - rowmax v) - log (rowsum (exp (v - rowmax v)))

  Each stage below is one whole-array function, written with the host operations themselves, so that a program
  whose run is a composition of these operations meets it by unfolding.
-/
import proofs.«142990_j15659450761582_2_alg».proof.Proof.Gen.ReferenceIdeal
import Idealize.ShloMosaic.Lib.StableHlo.Run

noncomputable section

namespace Cert.Spec

open Cert.ReferenceIdeal Cert.ReferenceIdeal.Gen Idealize.ShloMosaic Idealize.ShloMosaic.TcCoe Idealize.SL.Sem Idealize.ShloMosaic.StableHlo

variable {F : FTy → Type} [FloatOps F]

/-- The float zero and one and minus infinity, as rank-0 arrays. -/
abbrev zero0 : (⟨S_, .f32⟩ : BufTy).Contents (Elt F) := constant S_ .f32 0x00000000#32
abbrev one0 : (⟨S_, .f32⟩ : BufTy).Contents (Elt F) := constant S_ .f32 0x3F800000#32
abbrev ninf0 : (⟨S_, .f32⟩ : BufTy).Contents (Elt F) := constant S_ .f32 0xFF800000#32

/-- The degree of every node along one end of the edges: the float sum of a one per edge whose end is the node. -/
def degree (e : (⟨S800000, .i32⟩ : BufTy).Contents (Elt F)) : (⟨S50000, .f32⟩ : BufTy).Contents (Elt F) :=
  Host.scatterAdd scatter_S50000_S800000x1_S800000_n_0_0_1 (broadcastInDim S50000 ![] bcast_S_S50000 (zero0 (F := F)))
    (broadcastInDim S800000x1 ![0] bcast_S800000_S800000x1_0 e) (broadcastInDim S800000 ![] bcast_S_S800000 (one0 (F := F)))

/-- `d ↦ d^(-1/2)` where `d > 0`, and `0` elsewhere (the square root taken of `max d 1`). -/
def invSqrt (d : (⟨S50000, .f32⟩ : BufTy).Contents (Elt F)) : (⟨S50000, .f32⟩ : BufTy).Contents (Elt F) :=
  select (cmpf (F := F) .ogt d (broadcastInDim S50000 ![] bcast_S_S50000 (zero0 (F := F))))
    (Host.rsqrt (maximumf d (broadcastInDim S50000 ![] bcast_S_S50000 (one0 (F := F)))))
    (broadcastInDim S50000 ![] bcast_S_S50000 (id (zero0 (F := F))))

/-- A per-node scale as a column, then repeated along the rows of a `[nodes, 256]` or `[nodes, 40]` array. -/
def rows256 (s : (⟨S50000, .f32⟩ : BufTy).Contents (Elt F)) : (⟨S50000x256, .f32⟩ : BufTy).Contents (Elt F) :=
  broadcastInDim S50000x256 ![0, 1] bcast_S50000x1_S50000x256_0_1 (broadcastInDim S50000x1 ![0] bcast_S50000_S50000x1_0 s)
def rows40 (s : (⟨S50000, .f32⟩ : BufTy).Contents (Elt F)) : (⟨S50000x40, .f32⟩ : BufTy).Contents (Elt F) :=
  broadcastInDim S50000x40 ![0, 1] bcast_S50000x1_S50000x40_0_1 (broadcastInDim S50000x1 ![0] bcast_S50000_S50000x1_0 s)

/-- An edge end, a negative one counted from the end of the node axis (the indexing convention of a gather). -/
def wrapIdx (e : (⟨S800000, .i32⟩ : BufTy).Contents (Elt F)) : (⟨S800000, .i32⟩ : BufTy).Contents (Elt F) :=
  select (cmpi .slt e (broadcastInDim S800000 ![] bcast_S_S800000 (constantI S_ 32 0#32)))
    (addi e (broadcastInDim S800000 ![] bcast_S_S800000 (constantI S_ 32 50000#32))) e

/-- Layer one before aggregation: `(x · W1)`, each row scaled by the node's out-degree factor. -/
def layer1 (x : (⟨S50000x512, .f32⟩ : BufTy).Contents (Elt F)) (w1 : (⟨S512x256, .f32⟩ : BufTy).Contents (Elt F))
    (so : (⟨S50000, .f32⟩ : BufTy).Contents (Elt F)) : (⟨S50000x256, .f32⟩ : BufTy).Contents (Elt F) :=
  mulf (Host.dotGeneral dot_S50000x512_S512x256_S50000x256_1_0_0_1_n_n none x w1) (rows256 so)

/-- Aggregation over the edges: row `dst e` of the result gathers row `src e` of `y`, summed over the edges `e`. -/
def agg256 (y : (⟨S50000x256, .f32⟩ : BufTy).Contents (Elt F)) (src dst : (⟨S800000, .i32⟩ : BufTy).Contents (Elt F)) :
    (⟨S50000x256, .f32⟩ : BufTy).Contents (Elt F) :=
  Host.scatterAdd scatter_S50000x256_S800000x1_S800000x256_1_0_0_1 (broadcastInDim S50000x256 ![] bcast_S_S50000x256 (zero0 (F := F)))
    (broadcastInDim S800000x1 ![0] bcast_S800000_S800000x1_0 dst)
    (Host.gather gather_S50000x256_S800000x1_S800000x256_1_0_n_n_0_1_1256 y (broadcastInDim S800000x1 ![0] bcast_S800000_S800000x1_0 (wrapIdx (F := F) src)))
def agg40 (y : (⟨S50000x40, .f32⟩ : BufTy).Contents (Elt F)) (src dst : (⟨S800000, .i32⟩ : BufTy).Contents (Elt F)) :
    (⟨S50000x40, .f32⟩ : BufTy).Contents (Elt F) :=
  Host.scatterAdd scatter_S50000x40_S800000x1_S800000x40_1_0_0_1 (broadcastInDim S50000x40 ![] bcast_S_S50000x40 (zero0 (F := F)))
    (broadcastInDim S800000x1 ![0] bcast_S800000_S800000x1_0 dst)
    (Host.gather gather_S50000x40_S800000x1_S800000x40_1_0_n_n_0_1_140 y (broadcastInDim S800000x1 ![0] bcast_S800000_S800000x1_0 (wrapIdx (F := F) src)))

/-- The hidden activation: `relu (a · s_in + b1)`. -/
def hidden (a : (⟨S50000x256, .f32⟩ : BufTy).Contents (Elt F)) (si : (⟨S50000, .f32⟩ : BufTy).Contents (Elt F))
    (b1 : (⟨S256, .f32⟩ : BufTy).Contents (Elt F)) : (⟨S50000x256, .f32⟩ : BufTy).Contents (Elt F) :=
  maximumf (addf (mulf a (rows256 si))
      (broadcastInDim S50000x256 ![0, 1] bcast_S1x256_S50000x256_0_1 (broadcastInDim S1x256 ![1] bcast_S256_S1x256_1 b1)))
    (broadcastInDim S50000x256 ![] bcast_S_S50000x256 (zero0 (F := F)))

/-- The second dense transform of a hidden activation: `(h · W2)`, each row scaled by the node's out-degree factor. -/
def dense2 (h : (⟨S50000x256, .f32⟩ : BufTy).Contents (Elt F)) (w2 : (⟨S256x40, .f32⟩ : BufTy).Contents (Elt F))
    (so : (⟨S50000, .f32⟩ : BufTy).Contents (Elt F)) : (⟨S50000x40, .f32⟩ : BufTy).Contents (Elt F) :=
  mulf (Host.dotGeneral dot_S50000x256_S256x40_S50000x40_1_0_0_1_n_n none h w2) (rows40 so)

/-- Layer two before aggregation: the second dense transform of the hidden activation. -/
def layer2 (a : (⟨S50000x256, .f32⟩ : BufTy).Contents (Elt F)) (si : (⟨S50000, .f32⟩ : BufTy).Contents (Elt F))
    (b1 : (⟨S256, .f32⟩ : BufTy).Contents (Elt F)) (w2 : (⟨S256x40, .f32⟩ : BufTy).Contents (Elt F))
    (so : (⟨S50000, .f32⟩ : BufTy).Contents (Elt F)) : (⟨S50000x40, .f32⟩ : BufTy).Contents (Elt F) :=
  dense2 (hidden a si b1) w2 so

/-- The class scores before the softmax: `relu (a · s_in + b2)`. -/
def scores (a : (⟨S50000x40, .f32⟩ : BufTy).Contents (Elt F)) (si : (⟨S50000, .f32⟩ : BufTy).Contents (Elt F))
    (b2 : (⟨S40, .f32⟩ : BufTy).Contents (Elt F)) : (⟨S50000x40, .f32⟩ : BufTy).Contents (Elt F) :=
  maximumf (addf (mulf a (rows40 si))
      (broadcastInDim S50000x40 ![0, 1] bcast_S1x40_S50000x40_0_1 (broadcastInDim S1x40 ![1] bcast_S40_S1x40_1 b2)))
    (broadcastInDim S50000x40 ![] bcast_S_S50000x40 (zero0 (F := F)))

/-- Each row's maximum (the maximum-reduce from minus infinity, then the maximum with minus infinity once more). -/
def rowMaxArr (v : (⟨S50000x40, .f32⟩ : BufTy).Contents (Elt F)) : (⟨S50000, .f32⟩ : BufTy).Contents (Elt F) :=
  maximumf (broadcastInDim S50000 ![] bcast_S_S50000 (ninf0 (F := F)))
    (Host.reduce FloatOps.maximumf v (ninf0 (F := F)) reducesTo_S50000x40_S50000_d1 h_S_)

/-- Each row less its maximum. -/
def shifted (v : (⟨S50000x40, .f32⟩ : BufTy).Contents (Elt F)) : (⟨S50000x40, .f32⟩ : BufTy).Contents (Elt F) :=
  subf v (rows40 (rowMaxArr v))

/-- Each row less the logarithm of the sum of its exponentials. -/
def lessLogSumExp (z : (⟨S50000x40, .f32⟩ : BufTy).Contents (Elt F)) : (⟨S50000x40, .f32⟩ : BufTy).Contents (Elt F) :=
  subf z (broadcastInDim S50000x40 ![0, 1] bcast_S50000x1_S50000x40_0_1
    (Host.log (broadcastInDim S50000x1 ![0] bcast_S50000_S50000x1_0
      (Host.reduceAdd (Host.exp z) (zero0 (F := F)) reducesTo_S50000x40_S50000_d1 h_S_))))

/-- The row-wise log-softmax. -/
def logSoftmax (v : (⟨S50000x40, .f32⟩ : BufTy).Contents (Elt F)) : (⟨S50000x40, .f32⟩ : BufTy).Contents (Elt F) :=
  lessLogSumExp (shifted v)

/-- The last layer after aggregation. -/
def layer3 (a : (⟨S50000x40, .f32⟩ : BufTy).Contents (Elt F)) (si : (⟨S50000, .f32⟩ : BufTy).Contents (Elt F))
    (b2 : (⟨S40, .f32⟩ : BufTy).Contents (Elt F)) : (⟨S50000x40, .f32⟩ : BufTy).Contents (Elt F) :=
  logSoftmax (scores a si b2)

/-- The whole network from the two degree factors. -/
def net (x : (⟨S50000x512, .f32⟩ : BufTy).Contents (Elt F)) (src dst : (⟨S800000, .i32⟩ : BufTy).Contents (Elt F))
    (w1 : (⟨S512x256, .f32⟩ : BufTy).Contents (Elt F)) (b1 : (⟨S256, .f32⟩ : BufTy).Contents (Elt F))
    (w2 : (⟨S256x40, .f32⟩ : BufTy).Contents (Elt F)) (b2 : (⟨S40, .f32⟩ : BufTy).Contents (Elt F))
    (so si : (⟨S50000, .f32⟩ : BufTy).Contents (Elt F)) : (⟨S50000x40, .f32⟩ : BufTy).Contents (Elt F) :=
  layer3 (agg40 (layer2 (agg256 (layer1 x w1 so) src dst) si b1 w2 so) src dst) si b2

/-- The network with the degree factors counted in floats, as the reference counts them. -/
def out (x : (⟨S50000x512, .f32⟩ : BufTy).Contents (Elt F)) (src dst : (⟨S800000, .i32⟩ : BufTy).Contents (Elt F))
    (w1 : (⟨S512x256, .f32⟩ : BufTy).Contents (Elt F)) (b1 : (⟨S256, .f32⟩ : BufTy).Contents (Elt F))
    (w2 : (⟨S256x40, .f32⟩ : BufTy).Contents (Elt F)) (b2 : (⟨S40, .f32⟩ : BufTy).Contents (Elt F)) :
    (⟨S50000x40, .f32⟩ : BufTy).Contents (Elt F) :=
  net x src dst w1 b1 w2 b2 (invSqrt (degree (F := F) src)) (invSqrt (degree (F := F) dst))

end Cert.Spec

end
-- ==== Proof.KValue.lean ====
/-
  The kernel program's result as a function of its arguments.

  Following the buffer contents from the launch to the return: the host operations before region 0 count the degrees
  (in integers, converted) and form the two degree factors; region 0 leaves the first dense transform; the host
  operations after it aggregate over the edges and lay the factors and the bias out as a column and a row; region 1
  leaves the fused hidden activation and second dense transform; the host aggregates again; region 2 leaves the
  log-softmax of the scores. A region changes only its own output array, a host operation only its own result, so
  every buffer a later step reads is followed back, boundary by boundary, to the argument arrays.
-/
import proofs.«142990_j15659450761582_2_alg».proof.Proof.Gen.KernelIdeal.Frame
import proofs.«142990_j15659450761582_2_alg».proof.Proof.Region0
import proofs.«142990_j15659450761582_2_alg».proof.Proof.Region1
import proofs.«142990_j15659450761582_2_alg».proof.Proof.Region2
import proofs.«142990_j15659450761582_2_alg».proof.Proof.Spec
import Idealize.ShloMosaic.Lib.StableHlo.Run

set_option maxRecDepth 16384

noncomputable section

open Idealize.ShloMosaic Idealize.ShloMosaic.TcCoe Idealize.SL.Sem Idealize.ShloMosaic.StableHlo
open Idealize.ShloMosaic.Pipeline (Dat)

namespace Cert.KernelIdeal.KValue

open Cert.KernelIdeal Cert.KernelIdeal.Gen

/-- The contents after two lines run one after the other. -/
theorem after_append (A B : List (HloOp τ sig (Elt Ideal))) (V : Valuation τ sig (Elt Ideal)) :
    after (A ++ B) V = after B (after A V) := by
  induction A generalizing V with
  | nil => rfl
  | cons a A ih => exact ih _

/-- The degree of every node along one end of the edges, counted in integers and converted. -/
def degK (e : (⟨S800000, .i32⟩ : BufTy).Contents (Elt Ideal)) : (⟨S50000, .f32⟩ : BufTy).Contents (Elt Ideal) :=
  sitofp (F := Ideal) .f32 (Host.scatter scatter_S50000_S800000x1_S800000_n_0_0_1 IntOp.addi (broadcastInDim S50000 ![] bcast_S_S50000 (constantI S_ 32 0#32))
    (broadcastInDim S800000x1 ![0] bcast_S800000_S800000x1_0 e) (broadcastInDim S800000 ![] bcast_S_S800000 (constantI S_ 32 1#32)))

/-- The degree factor from the integer count: `d^(-1/2)` where `d > 0`, `0` elsewhere. -/
def invSqrtK (e : (⟨S800000, .i32⟩ : BufTy).Contents (Elt Ideal)) : (⟨S50000, .f32⟩ : BufTy).Contents (Elt Ideal) :=
  select (cmpf (F := Ideal) .ogt (degK e) (broadcastInDim S50000 ![] bcast_S_S50000 (constant (F := Ideal) S_ .f32 0x00000000#32)))
    (Host.rsqrt (F := Ideal) (maximumf (F := Ideal) (degK e) (broadcastInDim S50000 ![] bcast_S_S50000 (constant (F := Ideal) S_ .f32 0x3F800000#32))))
    (broadcastInDim S50000 ![] bcast_S_S50000 (id (constant (F := Ideal) S_ .f32 0x00000000#32)))

/-- The host operations before region 0, as one line. -/
abbrev H0 : List (HloOp τ sig (Elt Ideal)) := hostOps0 ++ (hostOps0_1 ++ (hostOps0_2 ++ (hostOps0_3 ++ hostOps0_4)))

/-- Before region 0 the out-degree factor sits in a column. -/
theorem h0_scale (V : Valuation τ sig (Elt Ideal)) :
    after H0 V (Proc.devRef .tc main_v21) = (shapeCast S50000x1 (invSqrtK (V (Proc.devRef .tc main_arg1))) shapeCasts_S50000_S50000x1) := by
  simp only [H0, hostOps0, hostOps0_1, hostOps0_2, hostOps0_3, hostOps0_4, List.cons_append, List.nil_append]
  after_results_simp <;> rfl
/-- The out-degree factor. -/
theorem h0_so (V : Valuation τ sig (Elt Ideal)) :
    after H0 V (Proc.devRef .tc main_v14) = invSqrtK (V (Proc.devRef .tc main_arg1)) := by
  simp only [H0, hostOps0, hostOps0_1, hostOps0_2, hostOps0_3, hostOps0_4, List.cons_append, List.nil_append]
  after_results_simp <;> rfl
/-- The in-degree factor. -/
theorem h0_si (V : Valuation τ sig (Elt Ideal)) :
    after H0 V (Proc.devRef .tc main_v20) = invSqrtK (V (Proc.devRef .tc main_arg2)) := by
  simp only [H0, hostOps0, hostOps0_1, hostOps0_2, hostOps0_3, hostOps0_4, List.cons_append, List.nil_append]
  after_results_simp <;> rfl
theorem h0_keep_main_arg0 (V : Valuation τ sig (Elt Ideal)) :
    after H0 V (Proc.devRef .tc main_arg0) = V (Proc.devRef .tc main_arg0) := by
  simp only [H0, hostOps0, hostOps0_1, hostOps0_2, hostOps0_3, hostOps0_4, List.cons_append, List.nil_append]
  after_results_simp <;> rfl
theorem h0_keep_main_arg1 (V : Valuation τ sig (Elt Ideal)) :
    after H0 V (Proc.devRef .tc main_arg1) = V (Proc.devRef .tc main_arg1) := by
  simp only [H0, hostOps0, hostOps0_1, hostOps0_2, hostOps0_3, hostOps0_4, List.cons_append, List.nil_append]
  after_results_simp <;> rfl
theorem h0_keep_main_arg2 (V : Valuation τ sig (Elt Ideal)) :
    after H0 V (Proc.devRef .tc main_arg2) = V (Proc.devRef .tc main_arg2) := by
  simp only [H0, hostOps0, hostOps0_1, hostOps0_2, hostOps0_3, hostOps0_4, List.cons_append, List.nil_append]
  after_results_simp <;> rfl
theorem h0_keep_main_arg3 (V : Valuation τ sig (Elt Ideal)) :
    after H0 V (Proc.devRef .tc main_arg3) = V (Proc.devRef .tc main_arg3) := by
  simp only [H0, hostOps0, hostOps0_1, hostOps0_2, hostOps0_3, hostOps0_4, List.cons_append, List.nil_append]
  after_results_simp <;> rfl
theorem h0_keep_main_arg4 (V : Valuation τ sig (Elt Ideal)) :
    after H0 V (Proc.devRef .tc main_arg4) = V (Proc.devRef .tc main_arg4) := by
  simp only [H0, hostOps0, hostOps0_1, hostOps0_2, hostOps0_3, hostOps0_4, List.cons_append, List.nil_append]
  after_results_simp <;> rfl
theorem h0_keep_main_arg5 (V : Valuation τ sig (Elt Ideal)) :
    after H0 V (Proc.devRef .tc main_arg5) = V (Proc.devRef .tc main_arg5) := by
  simp only [H0, hostOps0, hostOps0_1, hostOps0_2, hostOps0_3, hostOps0_4, List.cons_append, List.nil_append]
  after_results_simp <;> rfl
theorem h0_keep_main_arg6 (V : Valuation τ sig (Elt Ideal)) :
    after H0 V (Proc.devRef .tc main_arg6) = V (Proc.devRef .tc main_arg6) := by
  simp only [H0, hostOps0, hostOps0_1, hostOps0_2, hostOps0_3, hostOps0_4, List.cons_append, List.nil_append]
  after_results_simp <;> rfl
/-- Between regions 0 and 1: the aggregation over the edges. -/
theorem h1_agg (V : Valuation τ sig (Elt Ideal)) :
    after hostOps1 V (Proc.devRef .tc main_v32) = Cert.Spec.agg256 (F := Ideal) (V (Proc.devRef .tc main_v22)) (V (Proc.devRef .tc main_arg1)) (V (Proc.devRef .tc main_arg2)) := by
  after_results_simp <;> rfl
/-- The in-degree factor as a column. -/
theorem h1_si (V : Valuation τ sig (Elt Ideal)) :
    after hostOps1 V (Proc.devRef .tc main_v33) = (shapeCast S50000x1 (V (Proc.devRef .tc main_v20)) shapeCasts_S50000_S50000x1) := by
  after_results_simp <;> rfl
/-- The out-degree factor as a column. -/
theorem h1_so (V : Valuation τ sig (Elt Ideal)) :
    after hostOps1 V (Proc.devRef .tc main_v34) = (shapeCast S50000x1 (V (Proc.devRef .tc main_v14)) shapeCasts_S50000_S50000x1) := by
  after_results_simp <;> rfl
/-- The first bias as a row. -/
theorem h1_b (V : Valuation τ sig (Elt Ideal)) :
    after hostOps1 V (Proc.devRef .tc main_v35) = (shapeCast S1x256 (V (Proc.devRef .tc main_arg4)) shapeCasts_S256_S1x256) := by
  after_results_simp <;> rfl
theorem h1_keep_main_arg5 (V : Valuation τ sig (Elt Ideal)) :
    after hostOps1 V (Proc.devRef .tc main_arg5) = V (Proc.devRef .tc main_arg5) := by
  after_results_simp <;> rfl
theorem h1_keep_main_v20 (V : Valuation τ sig (Elt Ideal)) :
    after hostOps1 V (Proc.devRef .tc main_v20) = V (Proc.devRef .tc main_v20) := by
  after_results_simp <;> rfl
theorem h1_keep_main_arg1 (V : Valuation τ sig (Elt Ideal)) :
    after hostOps1 V (Proc.devRef .tc main_arg1) = V (Proc.devRef .tc main_arg1) := by
  after_results_simp <;> rfl
theorem h1_keep_main_arg2 (V : Valuation τ sig (Elt Ideal)) :
    after hostOps1 V (Proc.devRef .tc main_arg2) = V (Proc.devRef .tc main_arg2) := by
  after_results_simp <;> rfl
theorem h1_keep_main_arg6 (V : Valuation τ sig (Elt Ideal)) :
    after hostOps1 V (Proc.devRef .tc main_arg6) = V (Proc.devRef .tc main_arg6) := by
  after_results_simp <;> rfl
/-- Between regions 1 and 2: the aggregation over the edges. -/
theorem h2_agg (V : Valuation τ sig (Elt Ideal)) :
    after hostOps2 V (Proc.devRef .tc main_v46) = Cert.Spec.agg40 (F := Ideal) (V (Proc.devRef .tc main_v36)) (V (Proc.devRef .tc main_arg1)) (V (Proc.devRef .tc main_arg2)) := by
  after_results_simp <;> rfl
/-- The in-degree factor as a column. -/
theorem h2_si (V : Valuation τ sig (Elt Ideal)) :
    after hostOps2 V (Proc.devRef .tc main_v47) = (shapeCast S50000x1 (V (Proc.devRef .tc main_v20)) shapeCasts_S50000_S50000x1) := by
  after_results_simp <;> rfl
/-- The second bias as a row. -/
theorem h2_b (V : Valuation τ sig (Elt Ideal)) :
    after hostOps2 V (Proc.devRef .tc main_v48) = (shapeCast S1x40 (V (Proc.devRef .tc main_arg6)) shapeCasts_S40_S1x40) := by
  after_results_simp <;> rfl

variable (m : (ℓ : Loc nD τ sig) → Buf (Elt Ideal) ℓ) (ρ : Dev nD → PrngReg)

/-- Region 0 is entered at the contents the one line leaves from the launch memory. -/
theorem W5_eq (c : Dev nD) : W5 m ρ c = after H0 (W0 m ρ c) := by
  show after hostOps0_4 (after hostOps0_3 (after hostOps0_2 (after hostOps0_1 (after hostOps0 (W0 m ρ c))))) = _
  simp only [H0, after_append]

/-- The result as a function of the arguments: the three regions' functions and the two aggregations composed. -/
def kOut (c : Dev nD) : Buf (Elt Ideal) ((c : Thread nD τ).loc main_v49) :=
  (Region2.G2 (Cert.Spec.agg40 (F := Ideal) (Region1.G1 (Cert.Spec.agg256 (F := Ideal) (Region0.G0 (m ((c : Thread nD τ).loc main_arg0)) (m ((c : Thread nD τ).loc main_arg3)) (shapeCast S50000x1 (invSqrtK (m ((c : Thread nD τ).loc main_arg1))) shapeCasts_S50000_S50000x1)) (m ((c : Thread nD τ).loc main_arg1)) (m ((c : Thread nD τ).loc main_arg2))) (shapeCast S50000x1 (invSqrtK (m ((c : Thread nD τ).loc main_arg2))) shapeCasts_S50000_S50000x1) (shapeCast S1x256 (m ((c : Thread nD τ).loc main_arg4)) shapeCasts_S256_S1x256) (m ((c : Thread nD τ).loc main_arg5)) (shapeCast S50000x1 (invSqrtK (m ((c : Thread nD τ).loc main_arg1))) shapeCasts_S50000_S50000x1)) (m ((c : Thread nD τ).loc main_arg1)) (m ((c : Thread nD τ).loc main_arg2))) (shapeCast S50000x1 (invSqrtK (m ((c : Thread nD τ).loc main_arg2))) shapeCasts_S50000_S50000x1) (shapeCast S1x40 (m ((c : Thread nD τ).loc main_arg6)) shapeCasts_S40_S1x40))

set_option maxHeartbeats 4000000 in
/-- THE RESULT BUFFER at the run's last boundary is `kOut` of the launch memory. -/
theorem value (c : Dev nD) : W10 m ρ c (Proc.devRef .tc main_v49) = kOut m c := by
  have w5 : ∀ b : Ref sig .tc, W5 m ρ c (Proc.devRef .tc b) = after H0 (W0 m ρ c) (Proc.devRef .tc b) := fun b => congrFun (W5_eq m ρ c) _
  -- region 0's entry
  have a0 : W5 m ρ c (Proc.devRef .tc main_arg0) = (m ((c : Thread nD τ).loc main_arg0)) := (w5 _).trans (h0_keep_main_arg0 _)
  have a1 : W5 m ρ c (Proc.devRef .tc main_arg1) = (m ((c : Thread nD τ).loc main_arg1)) := (w5 _).trans (h0_keep_main_arg1 _)
  have a2 : W5 m ρ c (Proc.devRef .tc main_arg2) = (m ((c : Thread nD τ).loc main_arg2)) := (w5 _).trans (h0_keep_main_arg2 _)
  have a3 : W5 m ρ c (Proc.devRef .tc main_arg3) = (m ((c : Thread nD τ).loc main_arg3)) := (w5 _).trans (h0_keep_main_arg3 _)
  have a4 : W5 m ρ c (Proc.devRef .tc main_arg4) = (m ((c : Thread nD τ).loc main_arg4)) := (w5 _).trans (h0_keep_main_arg4 _)
  have a5 : W5 m ρ c (Proc.devRef .tc main_arg5) = (m ((c : Thread nD τ).loc main_arg5)) := (w5 _).trans (h0_keep_main_arg5 _)
  have a6 : W5 m ρ c (Proc.devRef .tc main_arg6) = (m ((c : Thread nD τ).loc main_arg6)) := (w5 _).trans (h0_keep_main_arg6 _)
  have s21 : W5 m ρ c (Proc.devRef .tc main_v21) = (shapeCast S50000x1 (invSqrtK (m ((c : Thread nD τ).loc main_arg1))) shapeCasts_S50000_S50000x1) := (w5 _).trans (h0_scale _)
  have s14 : W5 m ρ c (Proc.devRef .tc main_v14) = (invSqrtK (m ((c : Thread nD τ).loc main_arg1))) := (w5 _).trans (h0_so _)
  have s20 : W5 m ρ c (Proc.devRef .tc main_v20) = (invSqrtK (m ((c : Thread nD τ).loc main_arg2))) := (w5 _).trans (h0_si _)
  -- region 0's exit
  have g0 : W6 m ρ c (Proc.devRef .tc main_v22) = (Region0.G0 (m ((c : Thread nD τ).loc main_arg0)) (m ((c : Thread nD τ).loc main_arg3)) (shapeCast S50000x1 (invSqrtK (m ((c : Thread nD τ).loc main_arg1))) shapeCasts_S50000_S50000x1)) :=
    (W6_arr m ρ c 3).trans ((Region0.final (V5 m ρ) c).trans
      (show Region0.G0 (W5 m ρ c (Proc.devRef .tc main_arg0)) (W5 m ρ c (Proc.devRef .tc main_arg3)) (W5 m ρ c (Proc.devRef .tc main_v21)) = _ by rw [a0, a3, s21]))
  have b1 : W6 m ρ c (Proc.devRef .tc main_arg1) = (m ((c : Thread nD τ).loc main_arg1)) := (W6_of_ne m ρ c main_arg1 (by decide)).trans a1
  have b2 : W6 m ρ c (Proc.devRef .tc main_arg2) = (m ((c : Thread nD τ).loc main_arg2)) := (W6_of_ne m ρ c main_arg2 (by decide)).trans a2
  have b4 : W6 m ρ c (Proc.devRef .tc main_arg4) = (m ((c : Thread nD τ).loc main_arg4)) := (W6_of_ne m ρ c main_arg4 (by decide)).trans a4
  have b5 : W6 m ρ c (Proc.devRef .tc main_arg5) = (m ((c : Thread nD τ).loc main_arg5)) := (W6_of_ne m ρ c main_arg5 (by decide)).trans a5
  have b6 : W6 m ρ c (Proc.devRef .tc main_arg6) = (m ((c : Thread nD τ).loc main_arg6)) := (W6_of_ne m ρ c main_arg6 (by decide)).trans a6
  have b14 : W6 m ρ c (Proc.devRef .tc main_v14) = (invSqrtK (m ((c : Thread nD τ).loc main_arg1))) := (W6_of_ne m ρ c main_v14 (by decide)).trans s14
  have b20 : W6 m ρ c (Proc.devRef .tc main_v20) = (invSqrtK (m ((c : Thread nD τ).loc main_arg2))) := (W6_of_ne m ρ c main_v20 (by decide)).trans s20
  -- region 1's entry
  have c32 : W7 m ρ c (Proc.devRef .tc main_v32) = (Cert.Spec.agg256 (F := Ideal) (Region0.G0 (m ((c : Thread nD τ).loc main_arg0)) (m ((c : Thread nD τ).loc main_arg3)) (shapeCast S50000x1 (invSqrtK (m ((c : Thread nD τ).loc main_arg1))) shapeCasts_S50000_S50000x1)) (m ((c : Thread nD τ).loc main_arg1)) (m ((c : Thread nD τ).loc main_arg2))) := (h1_agg _).trans (by rw [g0, b1, b2])
  have c33 : W7 m ρ c (Proc.devRef .tc main_v33) = (shapeCast S50000x1 (invSqrtK (m ((c : Thread nD τ).loc main_arg2))) shapeCasts_S50000_S50000x1) := (h1_si _).trans (by rw [b20])
  have c34 : W7 m ρ c (Proc.devRef .tc main_v34) = (shapeCast S50000x1 (invSqrtK (m ((c : Thread nD τ).loc main_arg1))) shapeCasts_S50000_S50000x1) := (h1_so _).trans (by rw [b14])
  have c35 : W7 m ρ c (Proc.devRef .tc main_v35) = (shapeCast S1x256 (m ((c : Thread nD τ).loc main_arg4)) shapeCasts_S256_S1x256) := (h1_b _).trans (by rw [b4])
  have c5 : W7 m ρ c (Proc.devRef .tc main_arg5) = (m ((c : Thread nD τ).loc main_arg5)) := (h1_keep_main_arg5 _).trans b5
  have c20 : W7 m ρ c (Proc.devRef .tc main_v20) = (invSqrtK (m ((c : Thread nD τ).loc main_arg2))) := (h1_keep_main_v20 _).trans b20
  have c1 : W7 m ρ c (Proc.devRef .tc main_arg1) = (m ((c : Thread nD τ).loc main_arg1)) := (h1_keep_main_arg1 _).trans b1
  have c2 : W7 m ρ c (Proc.devRef .tc main_arg2) = (m ((c : Thread nD τ).loc main_arg2)) := (h1_keep_main_arg2 _).trans b2
  have c6 : W7 m ρ c (Proc.devRef .tc main_arg6) = (m ((c : Thread nD τ).loc main_arg6)) := (h1_keep_main_arg6 _).trans b6
  -- region 1's exit
  have g1 : W8 m ρ c (Proc.devRef .tc main_v36) = (Region1.G1 (Cert.Spec.agg256 (F := Ideal) (Region0.G0 (m ((c : Thread nD τ).loc main_arg0)) (m ((c : Thread nD τ).loc main_arg3)) (shapeCast S50000x1 (invSqrtK (m ((c : Thread nD τ).loc main_arg1))) shapeCasts_S50000_S50000x1)) (m ((c : Thread nD τ).loc main_arg1)) (m ((c : Thread nD τ).loc main_arg2))) (shapeCast S50000x1 (invSqrtK (m ((c : Thread nD τ).loc main_arg2))) shapeCasts_S50000_S50000x1) (shapeCast S1x256 (m ((c : Thread nD τ).loc main_arg4)) shapeCasts_S256_S1x256) (m ((c : Thread nD τ).loc main_arg5)) (shapeCast S50000x1 (invSqrtK (m ((c : Thread nD τ).loc main_arg1))) shapeCasts_S50000_S50000x1)) :=
    (W8_arr m ρ c 5).trans ((Region1.final (V7 m ρ) c).trans
      (show Region1.G1 (W7 m ρ c (Proc.devRef .tc main_v32)) (W7 m ρ c (Proc.devRef .tc main_v33)) (W7 m ρ c (Proc.devRef .tc main_v35)) (W7 m ρ c (Proc.devRef .tc main_arg5)) (W7 m ρ c (Proc.devRef .tc main_v34)) = _ by
        rw [c32, c33, c35, c5, c34]))
  have d20 : W8 m ρ c (Proc.devRef .tc main_v20) = (invSqrtK (m ((c : Thread nD τ).loc main_arg2))) := (W8_of_ne m ρ c main_v20 (by decide)).trans c20
  have d1 : W8 m ρ c (Proc.devRef .tc main_arg1) = (m ((c : Thread nD τ).loc main_arg1)) := (W8_of_ne m ρ c main_arg1 (by decide)).trans c1
  have d2 : W8 m ρ c (Proc.devRef .tc main_arg2) = (m ((c : Thread nD τ).loc main_arg2)) := (W8_of_ne m ρ c main_arg2 (by decide)).trans c2
  have d6 : W8 m ρ c (Proc.devRef .tc main_arg6) = (m ((c : Thread nD τ).loc main_arg6)) := (W8_of_ne m ρ c main_arg6 (by decide)).trans c6
  -- region 2's entry
  have e46 : W9 m ρ c (Proc.devRef .tc main_v46) = (Cert.Spec.agg40 (F := Ideal) (Region1.G1 (Cert.Spec.agg256 (F := Ideal) (Region0.G0 (m ((c : Thread nD τ).loc main_arg0)) (m ((c : Thread nD τ).loc main_arg3)) (shapeCast S50000x1 (invSqrtK (m ((c : Thread nD τ).loc main_arg1))) shapeCasts_S50000_S50000x1)) (m ((c : Thread nD τ).loc main_arg1)) (m ((c : Thread nD τ).loc main_arg2))) (shapeCast S50000x1 (invSqrtK (m ((c : Thread nD τ).loc main_arg2))) shapeCasts_S50000_S50000x1) (shapeCast S1x256 (m ((c : Thread nD τ).loc main_arg4)) shapeCasts_S256_S1x256) (m ((c : Thread nD τ).loc main_arg5)) (shapeCast S50000x1 (invSqrtK (m ((c : Thread nD τ).loc main_arg1))) shapeCasts_S50000_S50000x1)) (m ((c : Thread nD τ).loc main_arg1)) (m ((c : Thread nD τ).loc main_arg2))) := (h2_agg _).trans (by rw [g1, d1, d2])
  have e47 : W9 m ρ c (Proc.devRef .tc main_v47) = (shapeCast S50000x1 (invSqrtK (m ((c : Thread nD τ).loc main_arg2))) shapeCasts_S50000_S50000x1) := (h2_si _).trans (by rw [d20])
  have e48 : W9 m ρ c (Proc.devRef .tc main_v48) = (shapeCast S1x40 (m ((c : Thread nD τ).loc main_arg6)) shapeCasts_S40_S1x40) := (h2_b _).trans (by rw [d6])
  -- region 2's exit
  exact (W10_arr m ρ c 3).trans ((Region2.final (V9 m ρ) c).trans
    (show Region2.G2 (W9 m ρ c (Proc.devRef .tc main_v46)) (W9 m ρ c (Proc.devRef .tc main_v47)) (W9 m ρ c (Proc.devRef .tc main_v48)) = _ by rw [e46, e47, e48]; rfl))

end Cert.KernelIdeal.KValue

end
-- ==== Proof.RefRun.lean ====
/-
  The reference's run.

  The reference program is a straight line of host operations (the functions it calls standing in their calls'
  places), so every weakly fair execution of it terminates with each buffer at the composition of the operations
  that wrote it, applied to the argument arrays, and the arguments unchanged. Its result array is the network of
  `Spec.out`: the degrees counted in floats, the two layers, the two aggregations over the edges and the log-softmax,
  the degree factors computed once per layer from the same arguments. The operations are read in seven consecutive
  stretches, each buffer a later stretch needs followed from one boundary to the next.
-/
import proofs.«142990_j15659450761582_2_alg».proof.Proof.Gen.ReferenceIdeal
import proofs.«142990_j15659450761582_2_alg».proof.Proof.Spec
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- @main's 131 operations, in order (a called function's operations stand in its call's place, spelt `TRef.…`). -/
abbrev ops : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg1 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg2 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x00000000#32),
    unary main_cst_2 main_v7 (broadcastInDim S50000 ![] bcast_S_S50000 : (⟨S_, .f32⟩ : BufTy).Contents (Elt F) → (⟨S50000, .f32⟩ : BufTy).Contents (Elt F)),
    binary main_v3 main_v7 main_v8 (cmpf .ogt : (⟨S50000, .f32⟩ : BufTy).Contents (Elt F) → (⟨S50000, .f32⟩ : BufTy).Contents (Elt F) → (⟨S50000, .i1⟩ : BufTy).Contents (Elt F)),
    nullary main_cst_3 (constant S_ .f32 0x3F800000#32),
    unary main_cst_3 main_v9 (broadcastInDim S50000 ![] bcast_S_S50000 : (⟨S_, .f32⟩ : BufTy).Contents (Elt F) → (⟨S50000, .f32⟩ : BufTy).Contents (Elt F)),
    binary main_v3 main_v9 main_v10 (maximumf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v8) (TRef.of (T := ⟨S50000, .f32⟩) main_v11) (TRef.of (T := ⟨S50000, .f32⟩) main_call0_v1) (TRef.of (T := ⟨S50000, .f32⟩) main_v12) select,
    nullary main_cst_5 (constant S_ .f32 0x00000000#32),
    unary main_cst_5 main_v13 (broadcastInDim S50000 ![] bcast_S_S50000 : (⟨S_, .f32⟩ : BufTy).Contents (Elt F) → (⟨S50000, .f32⟩ : BufTy).Contents (Elt F)),
    binary main_v6 main_v13 main_v14 (cmpf .ogt : (⟨S50000, .f32⟩ : BufTy).Contents (Elt F) → (⟨S50000, .f32⟩ : BufTy).Contents (Elt F) → (⟨S50000, .i1⟩ : BufTy).Contents (Elt F)),
    nullary main_cst_6 (constant S_ .f32 0x3F800000#32),
    unary main_cst_6 main_v15 (broadcastInDim S50000 ![] bcast_S_S50000 : (⟨S_, .f32⟩ : BufTy).Contents (Elt F) → (⟨S50000, .f32⟩ : BufTy).Contents (Elt F)),
    binary main_v6 main_v15 main_v16 (maximumf : (⟨S50000, .f32⟩ : BufTy).Contents (Elt F) → (⟨S50000, .f32⟩ : BufTy).Contents (Elt F) → (⟨S50000, .f32⟩ : BufTy).Contents (Elt F)),
    unary main_v16 main_v17 (Host.rsqrt : (⟨S50000, .f32⟩ : BufTy).Contents (Elt F) → (⟨S50000, .f32⟩ : BufTy).Contents (Elt F)),
    nullary main_cst_7 (constant S_ .f32 0x00000000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v14) (TRef.of (T := ⟨S50000, .f32⟩) main_v17) (TRef.of (T := ⟨S50000, .f32⟩) main_call1_v1) (TRef.of (T := ⟨S50000, .f32⟩) main_v18) select,
    binary main_arg0 main_arg3 main_v19 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_v12 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x256 ![0, 1] bcast_S50000x1_S50000x256_0_1 : (⟨S50000x1, .f32⟩ : BufTy).Contents (Elt F) → (⟨S50000x256, .f32⟩ : BufTy).Contents (Elt F)),
    binary main_v19 main_v21 main_v22 (mulf : (⟨S50000x256, .f32⟩ : BufTy).Contents (Elt F) → (⟨S50000x256, .f32⟩ : BufTy).Contents (Elt F) → (⟨S50000x256, .f32⟩ : BufTy).Contents (Elt F)),
    nullary main_c (constantI S_ 32 0#32),
    unary main_c main_v23 (broadcastInDim S800000 ![] bcast_S_S800000 : (⟨S_, .i32⟩ : BufTy).Contents (Elt F) → (⟨S800000, .i32⟩ : BufTy).Contents (Elt F)),
    binary main_arg1 main_v23 main_v24 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v25 (broadcastInDim S800000 ![] bcast_S_S800000 : (⟨S_, .i32⟩ : BufTy).Contents (Elt F) → (⟨S800000, .i32⟩ : BufTy).Contents (Elt F)),
    binary main_arg1 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_arg1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v22 main_v28 main_v29 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_9 (constant S_ .f32 0x00000000#32),
    unary main_cst_9 main_v30 (broadcastInDim S50000x256 ![] bcast_S_S50000x256 : (⟨S_, .f32⟩ : BufTy).Contents (Elt F) → (⟨S50000x256, .f32⟩ : BufTy).Contents (Elt F)),
    unary main_arg2 main_v31 (broadcastInDim S800000x1 ![0] bcast_S800000_S800000x1_0 : (⟨S800000, .i32⟩ : BufTy).Contents (Elt F) → (⟨S800000x1, .i32⟩ : BufTy).Contents (Elt F)),
    ternary main_v30 main_v31 main_v29 main_v32 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    unary main_v18 main_v33 (broadcastInDim S50000x1 ![0] bcast_S50000_S50000x1_0 : (⟨S50000, .f32⟩ : BufTy).Contents (Elt F) → (⟨S50000x1, .f32⟩ : BufTy).Contents (Elt F)),
    unary main_v33 main_v34 (broadcastInDim S50000x256 ![0, 1] bcast_S50000x1_S50000x256_0_1 : (⟨S50000x1, .f32⟩ : BufTy).Contents (Elt F) → (⟨S50000x256, .f32⟩ : BufTy).Contents (Elt F)),
    binary main_v32 main_v34 main_v35 (mulf : (⟨S50000x256, .f32⟩ : BufTy).Contents (Elt F) → (⟨S50000x256, .f32⟩ : BufTy).Contents (Elt F) → (⟨S50000x256, .f32⟩ : BufTy).Contents (Elt F)),
    unary main_arg4 main_v36 (broadcastInDim S1x256 ![1] bcast_S256_S1x256_1 : (⟨S256, .f32⟩ : BufTy).Contents (Elt F) → (⟨S1x256, .f32⟩ : BufTy).Contents (Elt F)),
    unary main_v36 main_v37 (broadcastInDim S50000x256 ![0, 1] bcast_S1x256_S50000x256_0_1 : (⟨S1x256, .f32⟩ : BufTy).Contents (Elt F) → (⟨S50000x256, .f32⟩ : BufTy).Contents (Elt F)),
    binary main_v35 main_v37 main_v38 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v38) (TRef.of (T := ⟨S50000x256, .f32⟩) main_call2_v0) (TRef.of (T := ⟨S50000x256, .f32⟩) main_v39) maximumf,
    nullary main_cst_10 (constant S_ .f32 0x3F800000#32),
    unary main_cst_10 main_v40 (broadcastInDim S800000 ![] bcast_S_S800000 : (⟨S_, .f32⟩ : BufTy).Contents (Elt F) → (⟨S800000, .f32⟩ : BufTy).Contents (Elt F)),
    nullary main_cst_11 (constant S_ .f32 0x00000000#32),
    unary main_cst_11 main_v41 (broadcastInDim S50000 ![] bcast_S_S50000 : (⟨S_, .f32⟩ : BufTy).Contents (Elt F) → (⟨S50000, .f32⟩ : BufTy).Contents (Elt F)),
    unary main_arg1 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_12 (constant S_ .f32 0x00000000#32),
    unary main_cst_12 main_v44 (broadcastInDim S50000 ![] bcast_S_S50000 : (⟨S_, .f32⟩ : BufTy).Contents (Elt F) → (⟨S50000, .f32⟩ : BufTy).Contents (Elt F)),
    unary main_arg2 main_v45 (broadcastInDim S800000x1 ![0] bcast_S800000_S800000x1_0 : (⟨S800000, .i32⟩ : BufTy).Contents (Elt F) → (⟨S800000x1, .i32⟩ : BufTy).Contents (Elt F)),
    ternary main_v44 main_v45 main_v40 main_v46 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_13 (constant S_ .f32 0x00000000#32),
    unary main_cst_13 main_v47 (broadcastInDim S50000 ![] bcast_S_S50000 : (⟨S_, .f32⟩ : BufTy).Contents (Elt F) → (⟨S50000, .f32⟩ : BufTy).Contents (Elt F)),
    binary main_v43 main_v47 main_v48 (cmpf .ogt : (⟨S50000, .f32⟩ : BufTy).Contents (Elt F) → (⟨S50000, .f32⟩ : BufTy).Contents (Elt F) → (⟨S50000, .i1⟩ : BufTy).Contents (Elt F)),
    nullary main_cst_14 (constant S_ .f32 0x3F800000#32),
    unary main_cst_14 main_v49 (broadcastInDim S50000 ![] bcast_S_S50000 : (⟨S_, .f32⟩ : BufTy).Contents (Elt F) → (⟨S50000, .f32⟩ : BufTy).Contents (Elt F)),
    binary main_v43 main_v49 main_v50 (maximumf : (⟨S50000, .f32⟩ : BufTy).Contents (Elt F) → (⟨S50000, .f32⟩ : BufTy).Contents (Elt F) → (⟨S50000, .f32⟩ : BufTy).Contents (Elt F)),
    unary main_v50 main_v51 (Host.rsqrt : (⟨S50000, .f32⟩ : BufTy).Contents (Elt F) → (⟨S50000, .f32⟩ : BufTy).Contents (Elt F)),
    nullary main_cst_15 (constant S_ .f32 0x00000000#32),
    TRef.unary (TRef.of (T := ⟨S_, .f32⟩) main_cst_15) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v48) (TRef.of (T := ⟨S50000, .f32⟩) main_v51) (TRef.of (T := ⟨S50000, .f32⟩) main_call3_v1) (TRef.of (T := ⟨S50000, .f32⟩) main_v52) select,
    nullary main_cst_16 (constant S_ .f32 0x00000000#32),
    unary main_cst_16 main_v53 (broadcastInDim S50000 ![] bcast_S_S50000 : (⟨S_, .f32⟩ : BufTy).Contents (Elt F) → (⟨S50000, .f32⟩ : BufTy).Contents (Elt F)),
    binary main_v46 main_v53 main_v54 (cmpf .ogt : (⟨S50000, .f32⟩ : BufTy).Contents (Elt F) → (⟨S50000, .f32⟩ : BufTy).Contents (Elt F) → (⟨S50000, .i1⟩ : BufTy).Contents (Elt F)),
    nullary main_cst_17 (constant S_ .f32 0x3F800000#32),
    unary main_cst_17 main_v55 (broadcastInDim S50000 ![] bcast_S_S50000 : (⟨S_, .f32⟩ : BufTy).Contents (Elt F) → (⟨S50000, .f32⟩ : BufTy).Contents (Elt F)),
    binary main_v46 main_v55 main_v56 (maximumf : (⟨S50000, .f32⟩ : BufTy).Contents (Elt F) → (⟨S50000, .f32⟩ : BufTy).Contents (Elt F) → (⟨S50000, .f32⟩ : BufTy).Contents (Elt F)),
    unary main_v56 main_v57 (Host.rsqrt : (⟨S50000, .f32⟩ : BufTy).Contents (Elt F) → (⟨S50000, .f32⟩ : BufTy).Contents (Elt F)),
    nullary main_cst_18 (constant S_ .f32 0x00000000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v54) (TRef.of (T := ⟨S50000, .f32⟩) main_v57) (TRef.of (T := ⟨S50000, .f32⟩) main_call4_v1) (TRef.of (T := ⟨S50000, .f32⟩) main_v58) select,
    binary main_v39 main_arg5 main_v59 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_v52 main_v60 (broadcastInDim S50000x1 ![0] bcast_S50000_S50000x1_0 : (⟨S50000, .f32⟩ : BufTy).Contents (Elt F) → (⟨S50000x1, .f32⟩ : BufTy).Contents (Elt F)),
    unary main_v60 main_v61 (broadcastInDim S50000x40 ![0, 1] bcast_S50000x1_S50000x40_0_1 : (⟨S50000x1, .f32⟩ : BufTy).Contents (Elt F) → (⟨S50000x40, .f32⟩ : BufTy).Contents (Elt F)),
    binary main_v59 main_v61 main_v62 (mulf : (⟨S50000x40, .f32⟩ : BufTy).Contents (Elt F) → (⟨S50000x40, .f32⟩ : BufTy).Contents (Elt F) → (⟨S50000x40, .f32⟩ : BufTy).Contents (Elt F)),
    nullary main_c_19 (constantI S_ 32 0#32),
    unary main_c_19 main_v63 (broadcastInDim S800000 ![] bcast_S_S800000 : (⟨S_, .i32⟩ : BufTy).Contents (Elt F) → (⟨S800000, .i32⟩ : BufTy).Contents (Elt F)),
    binary main_arg1 main_v63 main_v64 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v65 (broadcastInDim S800000 ![] bcast_S_S800000 : (⟨S_, .i32⟩ : BufTy).Contents (Elt F) → (⟨S800000, .i32⟩ : BufTy).Contents (Elt F)),
    binary main_arg1 main_v65 main_v66 (addi : (⟨S800000, .i32⟩ : BufTy).Contents (Elt F) → (⟨S800000, .i32⟩ : BufTy).Contents (Elt F) → (⟨S800000, .i32⟩ : BufTy).Contents (Elt F)),
    ternary main_v64 main_v66 main_arg1 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v67 main_v68 (broadcastInDim S800000x1 ![0] bcast_S800000_S800000x1_0 : (⟨S800000, .i32⟩ : BufTy).Contents (Elt F) → (⟨S800000x1, .i32⟩ : BufTy).Contents (Elt F)),
    binary main_v62 main_v68 main_v69 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    nullary main_cst_21 (constant S_ .f32 0x00000000#32),
    unary main_cst_21 main_v70 (broadcastInDim S50000x40 ![] bcast_S_S50000x40 : (⟨S_, .f32⟩ : BufTy).Contents (Elt F) → (⟨S50000x40, .f32⟩ : BufTy).Contents (Elt F)),
    unary main_arg2 main_v71 (broadcastInDim S800000x1 ![0] bcast_S800000_S800000x1_0 : (⟨S800000, .i32⟩ : BufTy).Contents (Elt F) → (⟨S800000x1, .i32⟩ : BufTy).Contents (Elt F)),
    ternary main_v70 main_v71 main_v69 main_v72 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)),
    unary main_v58 main_v73 (broadcastInDim S50000x1 ![0] bcast_S50000_S50000x1_0 : (⟨S50000, .f32⟩ : BufTy).Contents (Elt F) → (⟨S50000x1, .f32⟩ : BufTy).Contents (Elt F)),
    unary main_v73 main_v74 (broadcastInDim S50000x40 ![0, 1] bcast_S50000x1_S50000x40_0_1 : (⟨S50000x1, .f32⟩ : BufTy).Contents (Elt F) → (⟨S50000x40, .f32⟩ : BufTy).Contents (Elt F)),
    binary main_v72 main_v74 main_v75 (mulf : (⟨S50000x40, .f32⟩ : BufTy).Contents (Elt F) → (⟨S50000x40, .f32⟩ : BufTy).Contents (Elt F) → (⟨S50000x40, .f32⟩ : BufTy).Contents (Elt F)),
    unary main_arg6 main_v76 (broadcastInDim S1x40 ![1] bcast_S40_S1x40_1 : (⟨S40, .f32⟩ : BufTy).Contents (Elt F) → (⟨S1x40, .f32⟩ : BufTy).Contents (Elt F)),
    unary main_v76 main_v77 (broadcastInDim S50000x40 ![0, 1] bcast_S1x40_S50000x40_0_1 : (⟨S1x40, .f32⟩ : BufTy).Contents (Elt F) → (⟨S50000x40, .f32⟩ : BufTy).Contents (Elt F)),
    binary main_v75 main_v77 main_v78 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x40, .f32⟩) main_call5_v0) (broadcastInDim S50000x40 ![] bcast_S_S50000x40),
    TRef.binary (TRef.of (T := ⟨S50000x40, .f32⟩) main_v78) (TRef.of (T := ⟨S50000x40, .f32⟩) main_call5_v0) (TRef.of (T := ⟨S50000x40, .f32⟩) main_v79) maximumf,
    TRef.nullary (TRef.of (T := ⟨S_, .f32⟩) main_call6_cst) (constant S_ .f32 0xFF800000#32),
    TRef.binary (TRef.of (T := ⟨S50000x40, .f32⟩) main_v79) (TRef.of (T := ⟨S_, .f32⟩) main_call6_cst) (TRef.of (T := ⟨S50000, .f32⟩) main_call6_v0) (fun x v => Host.reduce FloatOps.maximumf x v reducesTo_S50000x40_S50000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S50000, .f32⟩) main_call6_v1) (broadcastInDim S50000 ![] bcast_S_S50000),
    TRef.binary (TRef.of (T := ⟨S50000, .f32⟩) main_call6_v1) (TRef.of (T := ⟨S50000, .f32⟩) main_call6_v0) (TRef.of (T := ⟨S50000, .f32⟩) main_call6_v2) maximumf,
    TRef.unary (TRef.of (T := ⟨S50000, .f32⟩) main_call6_v2) (TRef.of (T := ⟨S50000x1, .f32⟩) main_call6_v3) (broadcastInDim S50000x1 ![0] bcast_S50000_S50000x1_0),
    TRef.unary (TRef.of (T := ⟨S50000x1, .f32⟩) main_call6_v3) (TRef.of (T := ⟨S50000x40, .f32⟩) main_call6_v4) (broadcastInDim S50000x40 ![0, 1] bcast_S50000x1_S50000x40_0_1),
    TRef.binary (TRef.of (T := ⟨S50000x40, .f32⟩) main_v79) (TRef.of (T := ⟨S50000x40, .f32⟩) main_call6_v4) (TRef.of (T := ⟨S50000x40, .f32⟩) main_call6_v5) subf,
    TRef.unary (TRef.of (T := ⟨S50000x40, .f32⟩) main_call6_v5) (TRef.of (T := ⟨S50000x40, .f32⟩) main_call6_v6) Host.exp,
    TRef.nullary (TRef.of (T := ⟨S_, .f32⟩) main_call6_cst_1) (constant S_ .f32 0x00000000#32),
    TRef.binary (TRef.of (T := ⟨S50000x40, .f32⟩) main_call6_v6) (TRef.of (T := ⟨S_, .f32⟩) main_call6_cst_1) (TRef.of (T := ⟨S50000, .f32⟩) main_call6_v7) (fun x v => Host.reduceAdd x v reducesTo_S50000x40_S50000_d1 h_S_),
    TRef.unary (TRef.of (T := ⟨S50000, .f32⟩) main_call6_v7) (TRef.of (T := ⟨S50000x1, .f32⟩) main_call6_v8) (broadcastInDim S50000x1 ![0] bcast_S50000_S50000x1_0),
    TRef.unary (TRef.of (T := ⟨S50000x1, .f32⟩) main_call6_v8) (TRef.of (T := ⟨S50000x1, .f32⟩) main_call6_v9) Host.log,
    TRef.unary (TRef.of (T := ⟨S50000x1, .f32⟩) main_call6_v9) (TRef.of (T := ⟨S50000x40, .f32⟩) main_call6_v10) (broadcastInDim S50000x40 ![0, 1] bcast_S50000x1_S50000x40_0_1),
    TRef.binary (TRef.of (T := ⟨S50000x40, .f32⟩) main_call6_v5) (TRef.of (T := ⟨S50000x40, .f32⟩) main_call6_v10) (TRef.of (T := ⟨S50000x40, .f32⟩) main_v80) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., unary_bufs_sub .., nullary_bufs_sub .., unary_bufs_sub .., unary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Stretch 1 of the operations. -/
abbrev R1 : List (HloOp τ sig (Elt F)) :=
  [ nullary main_cst (constant S_ .f32 0x3F800000#32),
    unary main_cst main_v0 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v1 (broadcastInDim S50000 ![] bcast_S_S50000 : (⟨S_, .f32⟩ : BufTy).Contents (Elt F) → (⟨S50000, .f32⟩ : BufTy).Contents (Elt F)),
    unary main_arg1 main_v2 (broadcastInDim S800000x1 ![0] bcast_S800000_S800000x1_0 : (⟨S800000, .i32⟩ : BufTy).Contents (Elt F) → (⟨S800000x1, .i32⟩ : BufTy).Contents (Elt F)),
    ternary main_v1 main_v2 main_v0 main_v3 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v4 (broadcastInDim S50000 ![] bcast_S_S50000 : (⟨S_, .f32⟩ : BufTy).Contents (Elt F) → (⟨S50000, .f32⟩ : BufTy).Contents (Elt F)),
    unary main_arg2 main_v5 (broadcastInDim S800000x1 ![0] bcast_S800000_S800000x1_0 : (⟨S800000, .i32⟩ : BufTy).Contents (Elt F) → (⟨S800000x1, .i32⟩ : BufTy).Contents (Elt F)),
    ternary main_v4 main_v5 main_v0 main_v6 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x00000000#32),
    unary main_cst_2 main_v7 (broadcastInDim S50000 ![] bcast_S_S50000 : (⟨S_, .f32⟩ : BufTy).Contents (Elt F) → (⟨S50000, .f32⟩ : BufTy).Contents (Elt F)),
    binary main_v3 main_v7 main_v8 (cmpf .ogt : (⟨S50000, .f32⟩ : BufTy).Contents (Elt F) → (⟨S50000, .f32⟩ : BufTy).Contents (Elt F) → (⟨S50000, .i1⟩ : BufTy).Contents (Elt F)),
    nullary main_cst_3 (constant S_ .f32 0x3F800000#32),
    unary main_cst_3 main_v9 (broadcastInDim S50000 ![] bcast_S_S50000 : (⟨S_, .f32⟩ : BufTy).Contents (Elt F) → (⟨S50000, .f32⟩ : BufTy).Contents (Elt F)),
    binary main_v3 main_v9 main_v10 (maximumf : (⟨S50000, .f32⟩ : BufTy).Contents (Elt F) → (⟨S50000, .f32⟩ : BufTy).Contents (Elt F) → (⟨S50000, .f32⟩ : BufTy).Contents (Elt F)),
    unary main_v10 main_v11 (Host.rsqrt : (⟨S50000, .f32⟩ : BufTy).Contents (Elt F) → (⟨S50000, .f32⟩ : BufTy).Contents (Elt F)),
    nullary main_cst_4 (constant S_ .f32 0x00000000#32),
    TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v8) (TRef.of (T := ⟨S50000, .f32⟩) main_v11) (TRef.of (T := ⟨S50000, .f32⟩) main_call0_v1) (TRef.of (T := ⟨S50000, .f32⟩) main_v12) select,
    nullary main_cst_5 (constant S_ .f32 0x00000000#32),
    unary main_cst_5 main_v13 (broadcastInDim S50000 ![] bcast_S_S50000 : (⟨S_, .f32⟩ : BufTy).Contents (Elt F) → (⟨S50000, .f32⟩ : BufTy).Contents (Elt F)),
    binary main_v6 main_v13 main_v14 (cmpf .ogt : (⟨S50000, .f32⟩ : BufTy).Contents (Elt F) → (⟨S50000, .f32⟩ : BufTy).Contents (Elt F) → (⟨S50000, .i1⟩ : BufTy).Contents (Elt F)),
    nullary main_cst_6 (constant S_ .f32 0x3F800000#32),
    unary main_cst_6 main_v15 (broadcastInDim S50000 ![] bcast_S_S50000 : (⟨S_, .f32⟩ : BufTy).Contents (Elt F) → (⟨S50000, .f32⟩ : BufTy).Contents (Elt F)),
    binary main_v6 main_v15 main_v16 (maximumf : (⟨S50000, .f32⟩ : BufTy).Contents (Elt F) → (⟨S50000, .f32⟩ : BufTy).Contents (Elt F) → (⟨S50000, .f32⟩ : BufTy).Contents (Elt F)),
    unary main_v16 main_v17 (Host.rsqrt : (⟨S50000, .f32⟩ : BufTy).Contents (Elt F) → (⟨S50000, .f32⟩ : BufTy).Contents (Elt F)),
    nullary main_cst_7 (constant S_ .f32 0x00000000#32),
    TRef.unary (TRef.of (T := ⟨S_, .f32⟩) main_cst_7) (TRef.of (T := ⟨S_, .f32⟩) main_call1_v0) id,
    TRef.unary (TRef.of (T := ⟨S_, .f32⟩) main_call1_v0) (TRef.of (T := ⟨S50000, .f32⟩) main_call1_v1) (broadcastInDim S50000 ![] bcast_S_S50000),
    TRef.ternary (TRef.of (T := ⟨S50000, .i1⟩) main_v14) (TRef.of (T := ⟨S50000, .f32⟩) main_v17) (TRef.of (T := ⟨S50000, .f32⟩) main_call1_v1) (TRef.of (T := ⟨S50000, .f32⟩) main_v18) select ]
/-- Stretch 2 of the operations. -/
abbrev R2 : List (HloOp τ sig (Elt F)) :=
  [ binary main_arg0 main_arg3 main_v19 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    unary main_v12 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x256 ![0, 1] bcast_S50000x1_S50000x256_0_1 : (⟨S50000x1, .f32⟩ : BufTy).Contents (Elt F) → (⟨S50000x256, .f32⟩ : BufTy).Contents (Elt F)),
    binary main_v19 main_v21 main_v22 (mulf : (⟨S50000x256, .f32⟩ : BufTy).Contents (Elt F) → (⟨S50000x256, .f32⟩ : BufTy).Contents (Elt F) → (⟨S50000x256, .f32⟩ : BufTy).Contents (Elt F)),
    nullary main_c (constantI S_ 32 0#32),
    unary main_c main_v23 (broadcastInDim S800000 ![] bcast_S_S800000 : (⟨S_, .i32⟩ : BufTy).Contents (Elt F) → (⟨S800000, .i32⟩ : BufTy).Contents (Elt F)),
    binary main_arg1 main_v23 main_v24 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v25 (broadcastInDim S800000 ![] bcast_S_S800000 : (⟨S_, .i32⟩ : BufTy).Contents (Elt F) → (⟨S800000, .i32⟩ : BufTy).Contents (Elt F)),
    binary main_arg1 main_v25 main_v26 (addi : (⟨S800000, .i32⟩ : BufTy).Contents (Elt F) → (⟨S800000, .i32⟩ : BufTy).Contents (Elt F) → (⟨S800000, .i32⟩ : BufTy).Contents (Elt F)),
    ternary main_v24 main_v26 main_arg1 main_v27 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v27 main_v28 (broadcastInDim S800000x1 ![0] bcast_S800000_S800000x1_0 : (⟨S800000, .i32⟩ : BufTy).Contents (Elt F) → (⟨S800000x1, .i32⟩ : BufTy).Contents (Elt F)),
    binary main_v22 main_v28 main_v29 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    nullary main_cst_9 (constant S_ .f32 0x00000000#32),
    unary main_cst_9 main_v30 (broadcastInDim S50000x256 ![] bcast_S_S50000x256 : (⟨S_, .f32⟩ : BufTy).Contents (Elt F) → (⟨S50000x256, .f32⟩ : BufTy).Contents (Elt F)),
    unary main_arg2 main_v31 (broadcastInDim S800000x1 ![0] bcast_S800000_S800000x1_0 : (⟨S800000, .i32⟩ : BufTy).Contents (Elt F) → (⟨S800000x1, .i32⟩ : BufTy).Contents (Elt F)),
    ternary main_v30 main_v31 main_v29 main_v32 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]
/-- Stretch 3 of the operations. -/
abbrev R3 : List (HloOp τ sig (Elt F)) :=
  [ unary main_v18 main_v33 (broadcastInDim S50000x1 ![0] bcast_S50000_S50000x1_0 : (⟨S50000, .f32⟩ : BufTy).Contents (Elt F) → (⟨S50000x1, .f32⟩ : BufTy).Contents (Elt F)),
    unary main_v33 main_v34 (broadcastInDim S50000x256 ![0, 1] bcast_S50000x1_S50000x256_0_1 : (⟨S50000x1, .f32⟩ : BufTy).Contents (Elt F) → (⟨S50000x256, .f32⟩ : BufTy).Contents (Elt F)),
    binary main_v32 main_v34 main_v35 (mulf : (⟨S50000x256, .f32⟩ : BufTy).Contents (Elt F) → (⟨S50000x256, .f32⟩ : BufTy).Contents (Elt F) → (⟨S50000x256, .f32⟩ : BufTy).Contents (Elt F)),
    unary main_arg4 main_v36 (broadcastInDim S1x256 ![1] bcast_S256_S1x256_1 : (⟨S256, .f32⟩ : BufTy).Contents (Elt F) → (⟨S1x256, .f32⟩ : BufTy).Contents (Elt F)),
    unary main_v36 main_v37 (broadcastInDim S50000x256 ![0, 1] bcast_S1x256_S50000x256_0_1 : (⟨S1x256, .f32⟩ : BufTy).Contents (Elt F) → (⟨S50000x256, .f32⟩ : BufTy).Contents (Elt F)),
    binary main_v35 main_v37 main_v38 (addf : (⟨S50000x256, .f32⟩ : BufTy).Contents (Elt F) → (⟨S50000x256, .f32⟩ : BufTy).Contents (Elt F) → (⟨S50000x256, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x256, .f32⟩) main_call2_v0) (broadcastInDim S50000x256 ![] bcast_S_S50000x256),
    TRef.binary (TRef.of (T := ⟨S50000x256, .f32⟩) main_v38) (TRef.of (T := ⟨S50000x256, .f32⟩) main_call2_v0) (TRef.of (T := ⟨S50000x256, .f32⟩) main_v39) maximumf ]
/-- Stretch 4 of the operations. -/
abbrev R4 : List (HloOp τ sig (Elt F)) :=
  [ nullary main_cst_10 (constant S_ .f32 0x3F800000#32),
    unary main_cst_10 main_v40 (broadcastInDim S800000 ![] bcast_S_S800000 : (⟨S_, .f32⟩ : BufTy).Contents (Elt F) → (⟨S800000, .f32⟩ : BufTy).Contents (Elt F)),
    nullary main_cst_11 (constant S_ .f32 0x00000000#32),
    unary main_cst_11 main_v41 (broadcastInDim S50000 ![] bcast_S_S50000 : (⟨S_, .f32⟩ : BufTy).Contents (Elt F) → (⟨S50000, .f32⟩ : BufTy).Contents (Elt F)),
    unary main_arg1 main_v42 (broadcastInDim S800000x1 ![0] bcast_S800000_S800000x1_0 : (⟨S800000, .i32⟩ : BufTy).Contents (Elt F) → (⟨S800000x1, .i32⟩ : BufTy).Contents (Elt F)),
    ternary main_v41 main_v42 main_v40 main_v43 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_12 (constant S_ .f32 0x00000000#32),
    unary main_cst_12 main_v44 (broadcastInDim S50000 ![] bcast_S_S50000 : (⟨S_, .f32⟩ : BufTy).Contents (Elt F) → (⟨S50000, .f32⟩ : BufTy).Contents (Elt F)),
    unary main_arg2 main_v45 (broadcastInDim S800000x1 ![0] bcast_S800000_S800000x1_0 : (⟨S800000, .i32⟩ : BufTy).Contents (Elt F) → (⟨S800000x1, .i32⟩ : BufTy).Contents (Elt F)),
    ternary main_v44 main_v45 main_v40 main_v46 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_13 (constant S_ .f32 0x00000000#32),
    unary main_cst_13 main_v47 (broadcastInDim S50000 ![] bcast_S_S50000 : (⟨S_, .f32⟩ : BufTy).Contents (Elt F) → (⟨S50000, .f32⟩ : BufTy).Contents (Elt F)),
    binary main_v43 main_v47 main_v48 (cmpf .ogt : (⟨S50000, .f32⟩ : BufTy).Contents (Elt F) → (⟨S50000, .f32⟩ : BufTy).Contents (Elt F) → (⟨S50000, .i1⟩ : BufTy).Contents (Elt F)),
    nullary main_cst_14 (constant S_ .f32 0x3F800000#32),
    unary main_cst_14 main_v49 (broadcastInDim S50000 ![] bcast_S_S50000 : (⟨S_, .f32⟩ : BufTy).Contents (Elt F) → (⟨S50000, .f32⟩ : BufTy).Contents (Elt F)),
    binary main_v43 main_v49 main_v50 (maximumf : (⟨S50000, .f32⟩ : BufTy).Contents (Elt F) → (⟨S50000, .f32⟩ : BufTy).Contents (Elt F) → (⟨S50000, .f32⟩ : BufTy).Contents (Elt F)),
    unary main_v50 main_v51 (Host.rsqrt : (⟨S50000, .f32⟩ : BufTy).Contents (Elt F) → (⟨S50000, .f32⟩ : BufTy).Contents (Elt F)),
    nullary main_cst_15 (constant S_ .f32 0x00000000#32),
    TRef.unary (TRef.of (T := ⟨S_, .f32⟩) main_cst_15) (TRef.of (T := ⟨S_, .f32⟩) main_call3_v0) id,
    TRef.unary (TRef.of (T := ⟨S_, .f32⟩) main_call3_v0) (TRef.of (T := ⟨S50000, .f32⟩) main_call3_v1) (broadcastInDim S50000 ![] bcast_S_S50000),
    TRef.ternary (TRef.of (T := ⟨S50000, .i1⟩) main_v48) (TRef.of (T := ⟨S50000, .f32⟩) main_v51) (TRef.of (T := ⟨S50000, .f32⟩) main_call3_v1) (TRef.of (T := ⟨S50000, .f32⟩) main_v52) select,
    nullary main_cst_16 (constant S_ .f32 0x00000000#32),
    unary main_cst_16 main_v53 (broadcastInDim S50000 ![] bcast_S_S50000 : (⟨S_, .f32⟩ : BufTy).Contents (Elt F) → (⟨S50000, .f32⟩ : BufTy).Contents (Elt F)),
    binary main_v46 main_v53 main_v54 (cmpf .ogt : (⟨S50000, .f32⟩ : BufTy).Contents (Elt F) → (⟨S50000, .f32⟩ : BufTy).Contents (Elt F) → (⟨S50000, .i1⟩ : BufTy).Contents (Elt F)),
    nullary main_cst_17 (constant S_ .f32 0x3F800000#32),
    unary main_cst_17 main_v55 (broadcastInDim S50000 ![] bcast_S_S50000 : (⟨S_, .f32⟩ : BufTy).Contents (Elt F) → (⟨S50000, .f32⟩ : BufTy).Contents (Elt F)),
    binary main_v46 main_v55 main_v56 (maximumf : (⟨S50000, .f32⟩ : BufTy).Contents (Elt F) → (⟨S50000, .f32⟩ : BufTy).Contents (Elt F) → (⟨S50000, .f32⟩ : BufTy).Contents (Elt F)),
    unary main_v56 main_v57 (Host.rsqrt : (⟨S50000, .f32⟩ : BufTy).Contents (Elt F) → (⟨S50000, .f32⟩ : BufTy).Contents (Elt F)),
    nullary main_cst_18 (constant S_ .f32 0x00000000#32),
    TRef.unary (TRef.of (T := ⟨S_, .f32⟩) main_cst_18) (TRef.of (T := ⟨S_, .f32⟩) main_call4_v0) id,
    TRef.unary (TRef.of (T := ⟨S_, .f32⟩) main_call4_v0) (TRef.of (T := ⟨S50000, .f32⟩) main_call4_v1) (broadcastInDim S50000 ![] bcast_S_S50000),
    TRef.ternary (TRef.of (T := ⟨S50000, .i1⟩) main_v54) (TRef.of (T := ⟨S50000, .f32⟩) main_v57) (TRef.of (T := ⟨S50000, .f32⟩) main_call4_v1) (TRef.of (T := ⟨S50000, .f32⟩) main_v58) select ]
/-- Stretch 5 of the operations. -/
abbrev R5 : List (HloOp τ sig (Elt F)) :=
  [ binary main_v39 main_arg5 main_v59 ((fun l r => Host.dotGeneral dot_S50000x256_S256x40_S50000x40_1_0_0_1_n_n none l r) : (⟨S50000x256, .f32⟩ : BufTy).Contents (Elt F) → (⟨S256x40, .f32⟩ : BufTy).Contents (Elt F) → (⟨S50000x40, .f32⟩ : BufTy).Contents (Elt F)),
    unary main_v52 main_v60 (broadcastInDim S50000x1 ![0] bcast_S50000_S50000x1_0 : (⟨S50000, .f32⟩ : BufTy).Contents (Elt F) → (⟨S50000x1, .f32⟩ : BufTy).Contents (Elt F)),
    unary main_v60 main_v61 (broadcastInDim S50000x40 ![0, 1] bcast_S50000x1_S50000x40_0_1 : (⟨S50000x1, .f32⟩ : BufTy).Contents (Elt F) → (⟨S50000x40, .f32⟩ : BufTy).Contents (Elt F)),
    binary main_v59 main_v61 main_v62 (mulf : (⟨S50000x40, .f32⟩ : BufTy).Contents (Elt F) → (⟨S50000x40, .f32⟩ : BufTy).Contents (Elt F) → (⟨S50000x40, .f32⟩ : BufTy).Contents (Elt F)),
    nullary main_c_19 (constantI S_ 32 0#32),
    unary main_c_19 main_v63 (broadcastInDim S800000 ![] bcast_S_S800000 : (⟨S_, .i32⟩ : BufTy).Contents (Elt F) → (⟨S800000, .i32⟩ : BufTy).Contents (Elt F)),
    binary main_arg1 main_v63 main_v64 (cmpi .slt : (⟨S800000, .i32⟩ : BufTy).Contents (Elt F) → (⟨S800000, .i32⟩ : BufTy).Contents (Elt F) → (⟨S800000, .i1⟩ : BufTy).Contents (Elt F)),
    nullary main_c_20 (constantI S_ 32 50000#32),
    unary main_c_20 main_v65 (broadcastInDim S800000 ![] bcast_S_S800000 : (⟨S_, .i32⟩ : BufTy).Contents (Elt F) → (⟨S800000, .i32⟩ : BufTy).Contents (Elt F)),
    binary main_arg1 main_v65 main_v66 (addi : (⟨S800000, .i32⟩ : BufTy).Contents (Elt F) → (⟨S800000, .i32⟩ : BufTy).Contents (Elt F) → (⟨S800000, .i32⟩ : BufTy).Contents (Elt F)),
    ternary main_v64 main_v66 main_arg1 main_v67 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v67 main_v68 (broadcastInDim S800000x1 ![0] bcast_S800000_S800000x1_0 : (⟨S800000, .i32⟩ : BufTy).Contents (Elt F) → (⟨S800000x1, .i32⟩ : BufTy).Contents (Elt F)),
    binary main_v62 main_v68 main_v69 ((fun x i => Host.gather gather_S50000x40_S800000x1_S800000x40_1_0_n_n_0_1_140 x i) : (⟨S50000x40, .f32⟩ : BufTy).Contents (Elt F) → (⟨S800000x1, .i32⟩ : BufTy).Contents (Elt F) → (⟨S800000x40, .f32⟩ : BufTy).Contents (Elt F)),
    nullary main_cst_21 (constant S_ .f32 0x00000000#32),
    unary main_cst_21 main_v70 (broadcastInDim S50000x40 ![] bcast_S_S50000x40 : (⟨S_, .f32⟩ : BufTy).Contents (Elt F) → (⟨S50000x40, .f32⟩ : BufTy).Contents (Elt F)),
    unary main_arg2 main_v71 (broadcastInDim S800000x1 ![0] bcast_S800000_S800000x1_0 : (⟨S800000, .i32⟩ : BufTy).Contents (Elt F) → (⟨S800000x1, .i32⟩ : BufTy).Contents (Elt F)),
    ternary main_v70 main_v71 main_v69 main_v72 ((fun x i u => Host.scatterAdd scatter_S50000x40_S800000x1_S800000x40_1_0_0_1 x i u) : (⟨S50000x40, .f32⟩ : BufTy).Contents (Elt F) → (⟨S800000x1, .i32⟩ : BufTy).Contents (Elt F) → (⟨S800000x40, .f32⟩ : BufTy).Contents (Elt F) → (⟨S50000x40, .f32⟩ : BufTy).Contents (Elt F)) ]
/-- Stretch 6 of the operations. -/
abbrev R6 : List (HloOp τ sig (Elt F)) :=
  [ unary main_v58 main_v73 (broadcastInDim S50000x1 ![0] bcast_S50000_S50000x1_0 : (⟨S50000, .f32⟩ : BufTy).Contents (Elt F) → (⟨S50000x1, .f32⟩ : BufTy).Contents (Elt F)),
    unary main_v73 main_v74 (broadcastInDim S50000x40 ![0, 1] bcast_S50000x1_S50000x40_0_1 : (⟨S50000x1, .f32⟩ : BufTy).Contents (Elt F) → (⟨S50000x40, .f32⟩ : BufTy).Contents (Elt F)),
    binary main_v72 main_v74 main_v75 (mulf : (⟨S50000x40, .f32⟩ : BufTy).Contents (Elt F) → (⟨S50000x40, .f32⟩ : BufTy).Contents (Elt F) → (⟨S50000x40, .f32⟩ : BufTy).Contents (Elt F)),
    unary main_arg6 main_v76 (broadcastInDim S1x40 ![1] bcast_S40_S1x40_1 : (⟨S40, .f32⟩ : BufTy).Contents (Elt F) → (⟨S1x40, .f32⟩ : BufTy).Contents (Elt F)),
    unary main_v76 main_v77 (broadcastInDim S50000x40 ![0, 1] bcast_S1x40_S50000x40_0_1 : (⟨S1x40, .f32⟩ : BufTy).Contents (Elt F) → (⟨S50000x40, .f32⟩ : BufTy).Contents (Elt F)),
    binary main_v75 main_v77 main_v78 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S50000x40, .f32⟩) main_call5_v0) (broadcastInDim S50000x40 ![] bcast_S_S50000x40),
    TRef.binary (TRef.of (T := ⟨S50000x40, .f32⟩) main_v78) (TRef.of (T := ⟨S50000x40, .f32⟩) main_call5_v0) (TRef.of (T := ⟨S50000x40, .f32⟩) main_v79) maximumf ]
/-- Stretch 7, first part: each row's maximum. -/
abbrev R7a : List (HloOp τ sig (Elt F)) :=
  [ TRef.nullary (TRef.of (T := ⟨S_, .f32⟩) main_call6_cst) (constant S_ .f32 0xFF800000#32),
    TRef.binary (TRef.of (T := ⟨S50000x40, .f32⟩) main_v79) (TRef.of (T := ⟨S_, .f32⟩) main_call6_cst) (TRef.of (T := ⟨S50000, .f32⟩) main_call6_v0) (fun x v => Host.reduce FloatOps.maximumf x v reducesTo_S50000x40_S50000_d1 h_S_),
    TRef.nullary (TRef.of (T := ⟨S_, .f32⟩) main_call6_cst_0) (constant S_ .f32 0xFF800000#32),
    TRef.unary (TRef.of (T := ⟨S_, .f32⟩) main_call6_cst_0) (TRef.of (T := ⟨S50000, .f32⟩) main_call6_v1) (broadcastInDim S50000 ![] bcast_S_S50000),
    TRef.binary (TRef.of (T := ⟨S50000, .f32⟩) main_call6_v1) (TRef.of (T := ⟨S50000, .f32⟩) main_call6_v0) (TRef.of (T := ⟨S50000, .f32⟩) main_call6_v2) maximumf ]
/-- Stretch 7, second part: the rows less their maxima. -/
abbrev R7b : List (HloOp τ sig (Elt F)) :=
  [ TRef.unary (TRef.of (T := ⟨S50000, .f32⟩) main_call6_v2) (TRef.of (T := ⟨S50000x1, .f32⟩) main_call6_v3) (broadcastInDim S50000x1 ![0] bcast_S50000_S50000x1_0),
    TRef.unary (TRef.of (T := ⟨S50000x1, .f32⟩) main_call6_v3) (TRef.of (T := ⟨S50000x40, .f32⟩) main_call6_v4) (broadcastInDim S50000x40 ![0, 1] bcast_S50000x1_S50000x40_0_1),
    TRef.binary (TRef.of (T := ⟨S50000x40, .f32⟩) main_v79) (TRef.of (T := ⟨S50000x40, .f32⟩) main_call6_v4) (TRef.of (T := ⟨S50000x40, .f32⟩) main_call6_v5) subf ]
/-- Stretch 7, last part: the rows less the logarithm of the sum of their exponentials. -/
abbrev R7c : List (HloOp τ sig (Elt F)) :=
  [ TRef.unary (TRef.of (T := ⟨S50000x40, .f32⟩) main_call6_v5) (TRef.of (T := ⟨S50000x40, .f32⟩) main_call6_v6) Host.exp,
    TRef.nullary (TRef.of (T := ⟨S_, .f32⟩) main_call6_cst_1) (constant S_ .f32 0x00000000#32),
    TRef.binary (TRef.of (T := ⟨S50000x40, .f32⟩) main_call6_v6) (TRef.of (T := ⟨S_, .f32⟩) main_call6_cst_1) (TRef.of (T := ⟨S50000, .f32⟩) main_call6_v7) (fun x v => Host.reduceAdd x v reducesTo_S50000x40_S50000_d1 h_S_),
    TRef.unary (TRef.of (T := ⟨S50000, .f32⟩) main_call6_v7) (TRef.of (T := ⟨S50000x1, .f32⟩) main_call6_v8) (broadcastInDim S50000x1 ![0] bcast_S50000_S50000x1_0),
    TRef.unary (TRef.of (T := ⟨S50000x1, .f32⟩) main_call6_v8) (TRef.of (T := ⟨S50000x1, .f32⟩) main_call6_v9) Host.log,
    TRef.unary (TRef.of (T := ⟨S50000x1, .f32⟩) main_call6_v9) (TRef.of (T := ⟨S50000x40, .f32⟩) main_call6_v10) (broadcastInDim S50000x40 ![0, 1] bcast_S50000x1_S50000x40_0_1),
    TRef.binary (TRef.of (T := ⟨S50000x40, .f32⟩) main_call6_v5) (TRef.of (T := ⟨S50000x40, .f32⟩) main_call6_v10) (TRef.of (T := ⟨S50000x40, .f32⟩) main_v80) subf ]

/-- After stretch 1 the out-degree factor is in place. -/
theorem r1_so (V : Valuation τ sig (Elt F)) :
    after R1 V (Proc.devRef .tc main_v12) = Cert.Spec.invSqrt (Cert.Spec.degree (F := F) (V (Proc.devRef .tc main_arg1))) := by
  after_results_simp <;> rfl
/-- After stretch 1 the in-degree factor is in place. -/
theorem r1_si (V : Valuation τ sig (Elt F)) :
    after R1 V (Proc.devRef .tc main_v18) = Cert.Spec.invSqrt (Cert.Spec.degree (F := F) (V (Proc.devRef .tc main_arg2))) := by
  after_results_simp <;> rfl
theorem r1_keep_main_arg0 (V : Valuation τ sig (Elt F)) :
    after R1 V (Proc.devRef .tc main_arg0) = V (Proc.devRef .tc main_arg0) := by
  after_results_simp <;> rfl
theorem r1_keep_main_arg1 (V : Valuation τ sig (Elt F)) :
    after R1 V (Proc.devRef .tc main_arg1) = V (Proc.devRef .tc main_arg1) := by
  after_results_simp <;> rfl
theorem r1_keep_main_arg2 (V : Valuation τ sig (Elt F)) :
    after R1 V (Proc.devRef .tc main_arg2) = V (Proc.devRef .tc main_arg2) := by
  after_results_simp <;> rfl
theorem r1_keep_main_arg3 (V : Valuation τ sig (Elt F)) :
    after R1 V (Proc.devRef .tc main_arg3) = V (Proc.devRef .tc main_arg3) := by
  after_results_simp <;> rfl
theorem r1_keep_main_arg4 (V : Valuation τ sig (Elt F)) :
    after R1 V (Proc.devRef .tc main_arg4) = V (Proc.devRef .tc main_arg4) := by
  after_results_simp <;> rfl
theorem r1_keep_main_arg5 (V : Valuation τ sig (Elt F)) :
    after R1 V (Proc.devRef .tc main_arg5) = V (Proc.devRef .tc main_arg5) := by
  after_results_simp <;> rfl
theorem r1_keep_main_arg6 (V : Valuation τ sig (Elt F)) :
    after R1 V (Proc.devRef .tc main_arg6) = V (Proc.devRef .tc main_arg6) := by
  after_results_simp <;> rfl
/-- Stretch 2: layer one and its aggregation over the edges. -/
theorem r2_agg (V : Valuation τ sig (Elt F)) :
    after R2 V (Proc.devRef .tc main_v32) = Cert.Spec.agg256 (F := F) (Cert.Spec.layer1 (F := F) (V (Proc.devRef .tc main_arg0)) (V (Proc.devRef .tc main_arg3)) (V (Proc.devRef .tc main_v12))) (V (Proc.devRef .tc main_arg1)) (V (Proc.devRef .tc main_arg2)) := by
  after_results_simp <;> rfl
theorem r2_keep_main_v18 (V : Valuation τ sig (Elt F)) :
    after R2 V (Proc.devRef .tc main_v18) = V (Proc.devRef .tc main_v18) := by
  after_results_simp <;> rfl
theorem r2_keep_main_arg1 (V : Valuation τ sig (Elt F)) :
    after R2 V (Proc.devRef .tc main_arg1) = V (Proc.devRef .tc main_arg1) := by
  after_results_simp <;> rfl
theorem r2_keep_main_arg2 (V : Valuation τ sig (Elt F)) :
    after R2 V (Proc.devRef .tc main_arg2) = V (Proc.devRef .tc main_arg2) := by
  after_results_simp <;> rfl
theorem r2_keep_main_arg4 (V : Valuation τ sig (Elt F)) :
    after R2 V (Proc.devRef .tc main_arg4) = V (Proc.devRef .tc main_arg4) := by
  after_results_simp <;> rfl
theorem r2_keep_main_arg5 (V : Valuation τ sig (Elt F)) :
    after R2 V (Proc.devRef .tc main_arg5) = V (Proc.devRef .tc main_arg5) := by
  after_results_simp <;> rfl
theorem r2_keep_main_arg6 (V : Valuation τ sig (Elt F)) :
    after R2 V (Proc.devRef .tc main_arg6) = V (Proc.devRef .tc main_arg6) := by
  after_results_simp <;> rfl
/-- Stretch 3: the hidden activation. -/
theorem r3_hidden (V : Valuation τ sig (Elt F)) :
    after R3 V (Proc.devRef .tc main_v39) = Cert.Spec.hidden (F := F) (V (Proc.devRef .tc main_v32)) (V (Proc.devRef .tc main_v18)) (V (Proc.devRef .tc main_arg4)) := by
  after_results_simp <;> rfl
theorem r3_keep_main_arg1 (V : Valuation τ sig (Elt F)) :
    after R3 V (Proc.devRef .tc main_arg1) = V (Proc.devRef .tc main_arg1) := by
  after_results_simp <;> rfl
theorem r3_keep_main_arg2 (V : Valuation τ sig (Elt F)) :
    after R3 V (Proc.devRef .tc main_arg2) = V (Proc.devRef .tc main_arg2) := by
  after_results_simp <;> rfl
theorem r3_keep_main_arg5 (V : Valuation τ sig (Elt F)) :
    after R3 V (Proc.devRef .tc main_arg5) = V (Proc.devRef .tc main_arg5) := by
  after_results_simp <;> rfl
theorem r3_keep_main_arg6 (V : Valuation τ sig (Elt F)) :
    after R3 V (Proc.devRef .tc main_arg6) = V (Proc.devRef .tc main_arg6) := by
  after_results_simp <;> rfl
/-- Stretch 4 computes the out-degree factor again. -/
theorem r4_so (V : Valuation τ sig (Elt F)) :
    after R4 V (Proc.devRef .tc main_v52) = Cert.Spec.invSqrt (Cert.Spec.degree (F := F) (V (Proc.devRef .tc main_arg1))) := by
  after_results_simp <;> rfl
/-- Stretch 4 computes the in-degree factor again. -/
theorem r4_si (V : Valuation τ sig (Elt F)) :
    after R4 V (Proc.devRef .tc main_v58) = Cert.Spec.invSqrt (Cert.Spec.degree (F := F) (V (Proc.devRef .tc main_arg2))) := by
  after_results_simp <;> rfl
theorem r4_keep_main_v39 (V : Valuation τ sig (Elt F)) :
    after R4 V (Proc.devRef .tc main_v39) = V (Proc.devRef .tc main_v39) := by
  after_results_simp <;> rfl
theorem r4_keep_main_arg1 (V : Valuation τ sig (Elt F)) :
    after R4 V (Proc.devRef .tc main_arg1) = V (Proc.devRef .tc main_arg1) := by
  after_results_simp <;> rfl
theorem r4_keep_main_arg2 (V : Valuation τ sig (Elt F)) :
    after R4 V (Proc.devRef .tc main_arg2) = V (Proc.devRef .tc main_arg2) := by
  after_results_simp <;> rfl
theorem r4_keep_main_arg5 (V : Valuation τ sig (Elt F)) :
    after R4 V (Proc.devRef .tc main_arg5) = V (Proc.devRef .tc main_arg5) := by
  after_results_simp <;> rfl
theorem r4_keep_main_arg6 (V : Valuation τ sig (Elt F)) :
    after R4 V (Proc.devRef .tc main_arg6) = V (Proc.devRef .tc main_arg6) := by
  after_results_simp <;> rfl
/-- Stretch 5: the second dense transform and its aggregation over the edges. -/
theorem r5_agg (V : Valuation τ sig (Elt F)) :
    after R5 V (Proc.devRef .tc main_v72) = Cert.Spec.agg40 (F := F) (Cert.Spec.dense2 (F := F) (V (Proc.devRef .tc main_v39)) (V (Proc.devRef .tc main_arg5)) (V (Proc.devRef .tc main_v52))) (V (Proc.devRef .tc main_arg1)) (V (Proc.devRef .tc main_arg2)) := by
  after_results_simp <;> rfl
theorem r5_keep_main_v58 (V : Valuation τ sig (Elt F)) :
    after R5 V (Proc.devRef .tc main_v58) = V (Proc.devRef .tc main_v58) := by
  after_results_simp <;> rfl
theorem r5_keep_main_arg6 (V : Valuation τ sig (Elt F)) :
    after R5 V (Proc.devRef .tc main_arg6) = V (Proc.devRef .tc main_arg6) := by
  after_results_simp <;> rfl
/-- Stretch 6: the class scores. -/
theorem r6_scores (V : Valuation τ sig (Elt F)) :
    after R6 V (Proc.devRef .tc main_v79) = Cert.Spec.scores (F := F) (V (Proc.devRef .tc main_v72)) (V (Proc.devRef .tc main_v58)) (V (Proc.devRef .tc main_arg6)) := by
  after_results_simp <;> rfl
/-- Stretch 7, first part: each row's maximum. -/
theorem r7a_max (V : Valuation τ sig (Elt F)) :
    after R7a V (Proc.devRef .tc main_call6_v2) = Cert.Spec.rowMaxArr (F := F) (V (Proc.devRef .tc main_v79)) := by
  after_results_simp
  -- a buffer's contents read at, or written from, the value's own type are the contents themselves
  have in79 : (TRef.of (T := ⟨S50000x40, .f32⟩) main_v79).ofBuf (V (Proc.devRef .tc main_v79)) = V (Proc.devRef .tc main_v79) := rfl
  have rtc : ∀ Y : (⟨S_, .f32⟩ : BufTy).Contents (Elt F),
      (TRef.of (T := ⟨S_, .f32⟩) main_call6_cst).ofBuf ((TRef.of (T := ⟨S_, .f32⟩) main_call6_cst).toBuf Y) = Y := fun _ => rfl
  have rt0 : ∀ Y : (⟨S50000, .f32⟩ : BufTy).Contents (Elt F),
      (TRef.of (T := ⟨S50000, .f32⟩) main_call6_v0).ofBuf ((TRef.of (T := ⟨S50000, .f32⟩) main_call6_v0).toBuf Y) = Y := fun _ => rfl
  have out2 : ∀ Y : (⟨S50000, .f32⟩ : BufTy).Contents (Elt F), (TRef.of (T := ⟨S50000, .f32⟩) main_call6_v2).toBuf Y = Y := fun _ => rfl
  rw [in79]
  repeat rw [rtc]
  repeat rw [rt0]
  rw [out2]
  unfold Cert.Spec.rowMaxArr Cert.Spec.ninf0
  rfl
theorem r7a_keep_main_v79 (V : Valuation τ sig (Elt F)) :
    after R7a V (Proc.devRef .tc main_v79) = V (Proc.devRef .tc main_v79) := by
  after_results_simp <;> rfl
/-- Stretch 7, second part: the rows less their maxima. -/
theorem r7b_shift (V : Valuation τ sig (Elt F)) :
    after R7b V (Proc.devRef .tc main_call6_v5) = subf (V (Proc.devRef .tc main_v79)) (Cert.Spec.rows40 (F := F) (V (Proc.devRef .tc main_call6_v2))) := by
  after_results_simp <;> rfl
/-- Stretch 7, last part: the rows less the logarithm of the sum of their exponentials. -/
theorem r7c_lse (V : Valuation τ sig (Elt F)) :
    after R7c V (Proc.devRef .tc main_v80) = Cert.Spec.lessLogSumExp (F := F) (V (Proc.devRef .tc main_call6_v5)) := by
  after_results_simp <;> rfl

/-- The contents after two lines run one after the other. -/
theorem after_append (A B : List (HloOp τ sig (Elt F))) (V : Valuation τ sig (Elt F)) :
    after (A ++ B) V = after B (after A V) := by
  induction A generalizing V with
  | nil => rfl
  | cons a A ih => exact ih _

/-- The operations are the stretches in order. -/
theorem ops_split : (ops : List (HloOp τ sig (Elt F))) = R1 ++ (R2 ++ (R3 ++ (R4 ++ (R5 ++ (R6 ++ (R7a ++ (R7b ++ R7c))))))) := rfl

/-- THE RESULT BUFFER after all the operations, from any contents `V`: the network of the argument buffers. -/
theorem result_eq (V : Valuation τ sig (Elt F)) :
    after ops V (Proc.devRef .tc main_v80) = Cert.Spec.out (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) := by
  rw [ops_split, after_append, after_append, after_append, after_append, after_append, after_append, after_append, after_append]
  rw [r7c_lse, r7b_shift, r7a_max, r7a_keep_main_v79]
  rw [r6_scores, r5_agg, r5_keep_main_v58, r5_keep_main_arg6]
  rw [r4_si, r4_so, r4_keep_main_v39, r4_keep_main_arg1, r4_keep_main_arg2, r4_keep_main_arg5, r4_keep_main_arg6]
  rw [r3_hidden, r3_keep_main_arg1, r3_keep_main_arg2, r3_keep_main_arg5, r3_keep_main_arg6]
  rw [r2_agg, r2_keep_main_v18, r2_keep_main_arg1, r2_keep_main_arg2, r2_keep_main_arg4, r2_keep_main_arg5, r2_keep_main_arg6]
  rw [r1_so, r1_si, r1_keep_main_arg0, r1_keep_main_arg1, r1_keep_main_arg2, r1_keep_main_arg3, r1_keep_main_arg4, r1_keep_main_arg5, r1_keep_main_arg6]
  rfl

/-- The result array as the network of the argument arrays. -/
def result (m : (ℓ : Loc nD τ sig) → Buf (Elt F) ℓ) (c : Dev nD) : Buf (Elt F) ((c.tc : Thread nD τ).loc main_v80) :=
  Cert.Spec.out (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))

set_option maxRecDepth 65536 in
set_option maxHeartbeats 52400000 in
/-- On every device, for any float values, from any memory with zero counters: every weakly fair execution of
    @main terminates with the result at `Spec.out` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v80) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c main_v80).trans (result_eq (F := F) _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl)⟩)
    (run_seq scopedRefs_eq scopedSems_eq defs main (fun _ => ops) main_eq (fun _ => ops_sub) m ρ)

end Cert.ReferenceIdeal.HandRun

end
-- ==== Proof.LibScatterCount.lean ====
/-
  Counting by a scatter of ones.

  A scatter whose body is an integer addition, run over updates that are all `1` into an operand that is all `0`,
  leaves at each operand index `i` the NUMBER of updates whose index lands on `i` — as a 32-bit word, so modulo
  2^32. A scatter whose body is a float addition, over updates all `1.0` into zeros, leaves at `i` the same number
  as an extended real: the exact sum of that many ones. When there are fewer than 2^31 updates the word is the
  number itself read as a signed integer, and converting it to a float is that real: the two arrays are equal.
-/
import Idealize.ShloMosaic.PureOps.Ideal
import Idealize.ShloMosaic.PureOps.Ideal.Laws
import Idealize.ShloMosaic.PureOps.Contract
import Idealize.ShloMosaic.PureOps.ShapeOps

noncomputable section

namespace Idealize.ShloMosaic.ScatterCount

open Idealize.ShloMosaic

variable {s si u : Shape} {w : Nat}

/-- How many of the update positions in `l` (row-major positions of the update array) land on operand index `i`. -/
def hits (d : ScatterDims s si u) (idx : IVec si w) (i : s.Idx) (l : List (Fin u.numel)) : Nat :=
  l.countP fun n => decide (d.resultIdx? (u.rowMajor.symm n) idx = some i)

theorem hits_le (d : ScatterDims s si u) (idx : IVec si w) (i : s.Idx) (l : List (Fin u.numel)) :
    hits d idx i l ≤ l.length := List.countP_le_length

/-- The integer scatter's fold over any list of update positions, every update `1`: each operand element grows by
    the number of positions landing on it (in 32-bit arithmetic). -/
theorem foldl_addi_one (d : ScatterDims s si u) (idx : IVec si w) (upd : u.Idx → BitVec 32) (hu : ∀ j, upd j = 1#32)
    (l : List (Fin u.numel)) (x : s.Idx → BitVec 32) (i : s.Idx) :
    (l.foldl (fun r n =>
      match d.resultIdx? (u.rowMajor.symm n) idx with
      | some i' => fun i'' => if i'' = i' then IntOp.addi (r i') (upd (u.rowMajor.symm n)) else r i''
      | none => r) x) i
    = x i + BitVec.ofNat 32 (hits d idx i l) := by
  induction l generalizing x with
  | nil => simp [hits]
  | cons n l ih =>
    rw [List.foldl_cons, ih]
    unfold hits
    rw [List.countP_cons]
    cases hr : d.resultIdx? (u.rowMajor.symm n) idx with
    | none => simp
    | some i' =>
      by_cases hi : i = i'
      · subst hi
        simp only [if_true, decide_true, hu, IntOp.addi]
        rw [BitVec.ofNat_add]
        ac_rfl
      · have hne : ¬ (some i' = some i) := fun h => hi (Option.some.inj h).symm
        simp [hi, hne]

/-- Over all the update positions in row-major order, that number is the number of update indices landing on `i`. -/
theorem hits_finRange (d : ScatterDims s si u) (idx : IVec si w) (i : s.Idx) :
    hits d idx i (List.finRange u.numel)
      = (Finset.univ.filter fun j : u.Idx => d.resultIdx? j idx = some i).card := by
  have h1 : (Finset.univ.filter fun j : u.Idx => d.resultIdx? j idx = some i).card
      = (Finset.univ.filter fun n : Fin u.numel => d.resultIdx? (u.rowMajor.symm n) idx = some i).card := by
    rw [← Fintype.card_subtype, ← Fintype.card_subtype]
    exact Fintype.card_congr (Equiv.subtypeEquiv u.rowMajor (fun j => by simp))
  rw [h1]
  unfold hits
  rw [List.countP_eq_length_filter]
  rfl

/-- The float scatter-sum of ones into zeros is, at each operand index, the number of update indices landing on it. -/
theorem scatterAdd_one (d : ScatterDims s si u) (idx : IVec si w)
    (xf : s.Idx → EReal) (updf : u.Idx → EReal) (hxf : ∀ i, xf i = 0) (huf : ∀ j, updf j = 1) (i : s.Idx) :
    Ideal.hostScatterAdd d xf idx updf i = ((hits d idx i (List.finRange u.numel) : ℕ) : ℝ) := by
  unfold Ideal.hostScatterAdd
  rw [hxf, zero_add, Finset.sum_congr rfl (fun j _ => huf j), Finset.sum_const, hits_finRange]
  simp

/-- A number below 2^31, as a 32-bit word read signed, is itself. -/
theorem toInt_ofNat_small (n : Nat) (hn : n < 2 ^ 31) : (BitVec.ofNat 32 n).toInt = (n : Int) := by
  have h2 : (BitVec.ofNat 32 n).toNat = n := by rw [BitVec.toNat_ofNat]; exact Nat.mod_eq_of_lt (by omega)
  rw [BitVec.toInt_eq_toNat_of_lt (by rw [h2]; omega), h2]

/-- COUNTING BY INTEGERS IS COUNTING BY FLOATS: the integer scatter of ones into zeros, converted to a float,
    is the float scatter-sum of ones into zeros, when the updates are fewer than 2^31. -/
theorem sitofp_scatter_eq_scatterAdd (d : ScatterDims s si u) (idx : IVec si w)
    (x : IVec s 32) (upd : IVec u 32) (hx : ∀ i, x i = 0#32) (hu : ∀ j, upd j = 1#32)
    (xf : FVec Ideal s .f32) (updf : FVec Ideal u .f32) (hxf : ∀ i, xf i = 0) (huf : ∀ j, updf j = 1)
    (hn : u.numel < 2 ^ 31) :
    (sitofp .f32 (Host.scatter d IntOp.addi x idx upd) : FVec Ideal s .f32) = Host.scatterAdd d xf idx updf := by
  funext i
  have hlt : hits d idx i (List.finRange u.numel) < 2 ^ 31 :=
    lt_of_le_of_lt (hits_le d idx i _) (by rw [List.length_finRange]; exact hn)
  show (((Host.scatter d IntOp.addi x idx upd i).toInt : ℝ) : EReal) = Ideal.hostScatterAdd d xf idx updf i
  rw [scatterAdd_one d idx xf updf hxf huf i]
  have hfold : Host.scatter d IntOp.addi x idx upd i
      = x i + BitVec.ofNat 32 (hits d idx i (List.finRange u.numel)) :=
    foldl_addi_one d idx upd hu (List.finRange u.numel) x i
  rw [hfold, hx, BitVec.zero_add, toInt_ofNat_small _ hlt]
  simp

end Idealize.ShloMosaic.ScatterCount

end
-- ==== Proof.Bridge.lean ====
/-
  The kernel program and the reference compute one function.

  Three identities, one per region: the region's function of its operands — the degree factors arriving as columns
  and the bias as a row — is the reference's stage of the same arrays, entry by entry: a column `[n, 1]` or a row
  `[1, n]` made by a reshape holds at `(r, 0)` or `(0, k)` what the reference's two broadcasts hold at `(r, k)`; the
  block product into zero and the host's product are the same sum over the contracted coordinate; a lane maximum and
  the host's maximum-reduce are the same fold, and the reference's further maximum with minus infinity changes
  nothing; a lane sum and the host's sum from zero are the same sum. And one identity for the degrees: counting the
  edges at each node in 32-bit integers and converting, or summing a float one per edge, gives the same number
  (there are 800000 edges, fewer than 2^31).
-/
import proofs.«142990_j15659450761582_2_alg».proof.Proof.Spec
import proofs.«142990_j15659450761582_2_alg».proof.Proof.Region0
import proofs.«142990_j15659450761582_2_alg».proof.Proof.Region1
import proofs.«142990_j15659450761582_2_alg».proof.Proof.Region2
import proofs.«142990_j15659450761582_2_alg».proof.Proof.KValue
import proofs.«142990_j15659450761582_2_alg».proof.Proof.LibScatterCount
import proofs.«142990_j15659450761582_2_alg».proof.Proof.LibDotSum
import proofs.«142990_j15659450761582_2_alg».proof.Proof.LibColumn
import proofs.«142990_j15659450761582_2_alg».proof.Proof.RowSoftmax
import Idealize.ShloMosaic.Lib.IdealHost
import Idealize.ShloMosaic.Lib.ValueLayout
import Idealize.ShloMosaic.Lib.Pipeline.Value
import Idealize.ShloMosaic.PureOps.Ideal.Laws

set_option maxRecDepth 16384

noncomputable section

open Idealize.ShloMosaic Idealize.ShloMosaic.TcCoe Idealize.SL.Sem Idealize.ShloMosaic.ValueIdx Idealize.ShloMosaic.LibColumn
open scoped BigOperators

namespace Cert.Bridge

open Cert.ReferenceIdeal Cert.ReferenceIdeal.Gen Cert.RowSoftmax

/-- The left operand's row is the result's row. -/
theorem dot1_lhs_row (i : S50000x256.Idx) (q : dot_S50000x512_S512x256_S50000x256_1_0_0_1_n_n.contr.Idx) : (dot_S50000x512_S512x256_S50000x256_1_0_0_1_n_n.lhsIdx i q 0).val = (i 0).val := by
  unfold DotDims.lhsIdx
  rw [dif_neg (show ¬(0 : Fin S50000x512.rank) ∈ dot_S50000x512_S512x256_S50000x256_1_0_0_1_n_n.lhsBatch by decide), dif_pos (show (0 : Fin S50000x512.rank) ∈ dot_S50000x512_S512x256_S50000x256_1_0_0_1_n_n.lhsNonContracting by decide)]
  rfl
/-- The right operand's column is the result's column. -/
theorem dot1_rhs_col (i : S50000x256.Idx) (q : dot_S50000x512_S512x256_S50000x256_1_0_0_1_n_n.contr.Idx) : (dot_S50000x512_S512x256_S50000x256_1_0_0_1_n_n.rhsIdx i q 1).val = (i 1).val := by
  unfold DotDims.rhsIdx
  rw [dif_neg (show ¬(1 : Fin S512x256.rank) ∈ dot_S50000x512_S512x256_S50000x256_1_0_0_1_n_n.rhsBatch by decide), dif_pos (show (1 : Fin S512x256.rank) ∈ dot_S50000x512_S512x256_S50000x256_1_0_0_1_n_n.rhsNonContracting by decide)]
  rfl
/-- The host's first product at an entry: the sum over the contracted coordinate. -/
theorem dot1_apply (l : S50000x512.Idx → EReal) (r : S512x256.Idx → EReal) (j : S50000x256.Idx) :
    Host.dotGeneral (F := Ideal) (φ₁ := .f32) (φ₂ := .f32) dot_S50000x512_S512x256_S50000x256_1_0_0_1_n_n none l r j = ∑ k : Fin 512, l (ix2 (j 0) k) * r (ix2 k (j 1)) := by
  simp only [Host.dotGeneral]
  rw [Ideal.dotGeneral_apply]
  refine LibDotSum.sum_single dot_S50000x512_S512x256_S50000x256_1_0_0_1_n_n 512 rfl rfl l r j _ _ (fun k => ?_) (fun k => ?_)
  · refine congrArg l (funext fun a => Fin.ext ?_)
    match a with
    | ⟨0, _⟩ => exact dot1_lhs_row _ _
    | ⟨1, _⟩ => exact LibDotSum.lhs_contr_val dot_S50000x512_S512x256_S50000x256_1_0_0_1_n_n 512 rfl rfl rfl j k
  · refine congrArg r (funext fun a => Fin.ext ?_)
    match a with
    | ⟨0, _⟩ => exact LibDotSum.rhs_contr_val dot_S50000x512_S512x256_S50000x256_1_0_0_1_n_n 512 rfl rfl rfl j k
    | ⟨1, _⟩ => exact dot1_rhs_col _ _

/-- The left operand's row is the result's row. -/
theorem dot2_lhs_row (i : S50000x40.Idx) (q : dot_S50000x256_S256x40_S50000x40_1_0_0_1_n_n.contr.Idx) : (dot_S50000x256_S256x40_S50000x40_1_0_0_1_n_n.lhsIdx i q 0).val = (i 0).val := by
  unfold DotDims.lhsIdx
  rw [dif_neg (show ¬(0 : Fin S50000x256.rank) ∈ dot_S50000x256_S256x40_S50000x40_1_0_0_1_n_n.lhsBatch by decide), dif_pos (show (0 : Fin S50000x256.rank) ∈ dot_S50000x256_S256x40_S50000x40_1_0_0_1_n_n.lhsNonContracting by decide)]
  rfl
/-- The right operand's column is the result's column. -/
theorem dot2_rhs_col (i : S50000x40.Idx) (q : dot_S50000x256_S256x40_S50000x40_1_0_0_1_n_n.contr.Idx) : (dot_S50000x256_S256x40_S50000x40_1_0_0_1_n_n.rhsIdx i q 1).val = (i 1).val := by
  unfold DotDims.rhsIdx
  rw [dif_neg (show ¬(1 : Fin S256x40.rank) ∈ dot_S50000x256_S256x40_S50000x40_1_0_0_1_n_n.rhsBatch by decide), dif_pos (show (1 : Fin S256x40.rank) ∈ dot_S50000x256_S256x40_S50000x40_1_0_0_1_n_n.rhsNonContracting by decide)]
  rfl
/-- The host's second product at an entry: the sum over the contracted coordinate. -/
theorem dot2_apply (l : S50000x256.Idx → EReal) (r : S256x40.Idx → EReal) (j : S50000x40.Idx) :
    Host.dotGeneral (F := Ideal) (φ₁ := .f32) (φ₂ := .f32) dot_S50000x256_S256x40_S50000x40_1_0_0_1_n_n none l r j = ∑ k : Fin 256, l (ix2 (j 0) k) * r (ix2 k (j 1)) := by
  simp only [Host.dotGeneral]
  rw [Ideal.dotGeneral_apply]
  refine LibDotSum.sum_single dot_S50000x256_S256x40_S50000x40_1_0_0_1_n_n 256 rfl rfl l r j _ _ (fun k => ?_) (fun k => ?_)
  · refine congrArg l (funext fun a => Fin.ext ?_)
    match a with
    | ⟨0, _⟩ => exact dot2_lhs_row _ _
    | ⟨1, _⟩ => exact LibDotSum.lhs_contr_val dot_S50000x256_S256x40_S50000x40_1_0_0_1_n_n 256 rfl rfl rfl j k
  · refine congrArg r (funext fun a => Fin.ext ?_)
    match a with
    | ⟨0, _⟩ => exact LibDotSum.rhs_contr_val dot_S50000x256_S256x40_S50000x40_1_0_0_1_n_n 256 rfl rfl rfl j k
    | ⟨1, _⟩ => exact dot2_rhs_col _ _

/-- A per-node factor broadcast as a column and then along the rows reads, at `(p, k)`, the node's factor. -/
theorem rows256_apply (s : S50000.Idx → EReal) (p : Fin 50000) (k : Fin 256) : Cert.Spec.rows256 (F := Ideal) s (ix2 p k) = s (ix1 p) := by
  unfold Cert.Spec.rows256
  refine (broadcastInDim_apply _ bcast_S50000x1_S50000x256_0_1 _ (ix2 p k) (ix2 p (0 : Fin 1)) (fun a => ?_)).trans
    (broadcastInDim_apply _ bcast_S50000_S50000x1_0 s (ix2 p (0 : Fin 1)) (ix1 p) (fun a => ?_))
  · match a with
    | ⟨0, _⟩ => rfl
    | ⟨1, _⟩ => rfl
  · match a with
    | ⟨0, _⟩ => rfl
theorem rows40_apply (s : S50000.Idx → EReal) (p : Fin 50000) (k : Fin 40) : Cert.Spec.rows40 (F := Ideal) s (ix2 p k) = s (ix1 p) := by
  unfold Cert.Spec.rows40
  refine (broadcastInDim_apply _ bcast_S50000x1_S50000x40_0_1 _ (ix2 p k) (ix2 p (0 : Fin 1)) (fun a => ?_)).trans
    (broadcastInDim_apply _ bcast_S50000_S50000x1_0 s (ix2 p (0 : Fin 1)) (ix1 p) (fun a => ?_))
  · match a with
    | ⟨0, _⟩ => rfl
    | ⟨1, _⟩ => rfl
  · match a with
    | ⟨0, _⟩ => rfl

/-- A bias broadcast as a row and then down the columns reads, at `(p, k)`, the bias of column `k`. -/
theorem bias256_apply (b : S256.Idx → EReal) (p : Fin 50000) (k : Fin 256) :
    broadcastInDim S50000x256 ![0, 1] bcast_S1x256_S50000x256_0_1 (broadcastInDim S1x256 ![1] bcast_S256_S1x256_1 b) (ix2 p k) = b (ix1 k) := by
  refine (broadcastInDim_apply _ bcast_S1x256_S50000x256_0_1 _ (ix2 p k) (ix2 (0 : Fin 1) k) (fun a => ?_)).trans
    (broadcastInDim_apply _ bcast_S256_S1x256_1 b (ix2 (0 : Fin 1) k) (ix1 k) (fun a => ?_))
  · match a with
    | ⟨0, _⟩ => rfl
    | ⟨1, _⟩ => rfl
  · match a with
    | ⟨0, _⟩ => rfl
theorem bias40_apply (b : S40.Idx → EReal) (p : Fin 50000) (k : Fin 40) :
    broadcastInDim S50000x40 ![0, 1] bcast_S1x40_S50000x40_0_1 (broadcastInDim S1x40 ![1] bcast_S40_S1x40_1 b) (ix2 p k) = b (ix1 k) := by
  refine (broadcastInDim_apply _ bcast_S1x40_S50000x40_0_1 _ (ix2 p k) (ix2 (0 : Fin 1) k) (fun a => ?_)).trans
    (broadcastInDim_apply _ bcast_S40_S1x40_1 b (ix2 (0 : Fin 1) k) (ix1 k) (fun a => ?_))
  · match a with
    | ⟨0, _⟩ => rfl
    | ⟨1, _⟩ => rfl
  · match a with
    | ⟨0, _⟩ => rfl

/-- LAYER ONE: region 0's function of the out-degree factor as a column is the reference's first stage. -/
theorem layer1_eq (x : S50000x512.Idx → EReal) (w : S512x256.Idx → EReal) (s : S50000.Idx → EReal) (h : S50000.ShapeCasts S50000x1) :
    Cert.KernelIdeal.Region0.G0 x w (shapeCast S50000x1 s h) = Cert.Spec.layer1 (F := Ideal) x w s := by
  funext i
  obtain ⟨p, q, rfl⟩ : ∃ (p : Fin 50000) (q : Fin 256), i = ix2 p q := ⟨i 0, i 1, eq_ix2 i⟩
  show (∑ k : Fin 512, x (ix2 p k) * w (ix2 k q)) * shapeCast S50000x1 s h (ix2 p (0 : Fin 1))
    = Host.dotGeneral (F := Ideal) dot_S50000x512_S512x256_S50000x256_1_0_0_1_n_n none x w (ix2 p q) * Cert.Spec.rows256 (F := Ideal) s (ix2 p q)
  rw [dot1_apply, rows256_apply, shapeCast_a_a1_apply]

/-- The hidden activation at an entry. -/
theorem hidden_apply (a : S50000x256.Idx → EReal) (si : S50000.Idx → EReal) (b1 : S256.Idx → EReal) (p : Fin 50000) (k : Fin 256) :
    Cert.Spec.hidden (F := Ideal) a si b1 (ix2 p k) = max (a (ix2 p k) * si (ix1 p) + b1 (ix1 k)) (Ideal.ofBits .f32 0x00000000#32) := by
  unfold Cert.Spec.hidden
  rw [maximumf_apply, addf_apply, mulf_apply, rows256_apply, bias256_apply]
  rfl

/-- LAYER TWO: region 1's function of the factors as columns and the bias as a row is the reference's second stage. -/
theorem layer2_eq (a : S50000x256.Idx → EReal) (si : S50000.Idx → EReal) (b1 : S256.Idx → EReal) (w2 : S256x40.Idx → EReal)
    (so : S50000.Idx → EReal) (h h' : S50000.ShapeCasts S50000x1) (hb : S256.ShapeCasts S1x256) :
    Cert.KernelIdeal.Region1.G1 a (shapeCast S50000x1 si h) (shapeCast S1x256 b1 hb) w2 (shapeCast S50000x1 so h')
      = Cert.Spec.layer2 (F := Ideal) a si b1 w2 so := by
  funext i
  obtain ⟨p, q, rfl⟩ : ∃ (p : Fin 50000) (q : Fin 40), i = ix2 p q := ⟨i 0, i 1, eq_ix2 i⟩
  show (∑ k : Fin 256, max (a (ix2 p k) * shapeCast S50000x1 si h (ix2 p (0 : Fin 1)) + shapeCast S1x256 b1 hb (ix2 (0 : Fin 1) k)) (Ideal.ofBits .f32 0x00000000#32)
        * w2 (ix2 k q)) * shapeCast S50000x1 so h' (ix2 p (0 : Fin 1))
    = Host.dotGeneral (F := Ideal) dot_S50000x256_S256x40_S50000x40_1_0_0_1_n_n none (Cert.Spec.hidden (F := Ideal) a si b1) w2 (ix2 p q) * Cert.Spec.rows40 (F := Ideal) so (ix2 p q)
  rw [dot2_apply, rows40_apply, shapeCast_a_a1_apply, shapeCast_a_a1_apply]
  congr 1
  refine Finset.sum_congr rfl fun k _ => ?_
  rw [shapeCast_a_1a_apply]
  exact congrArg (· * w2 (ix2 k q)) (hidden_apply a si b1 p k).symm

/-- The class scores at an entry. -/
theorem scores_apply (a : S50000x40.Idx → EReal) (si : S50000.Idx → EReal) (b2 : S40.Idx → EReal) (p : Fin 50000) (k : Fin 40) :
    Cert.Spec.scores (F := Ideal) a si b2 (ix2 p k) = rowV (fun k => a (ix2 p k)) (si (ix1 p)) (fun k => b2 (ix1 k)) k := by
  unfold Cert.Spec.scores rowV
  rw [maximumf_apply, addf_apply, mulf_apply, rows40_apply, bias40_apply]
  rfl

/-- A reduced row index with column `k` put back is `(p, k)`. -/
theorem lift_row (h : S50000x40.Reduces [1] S50000) (p : Fin 50000) (k : Fin (S50000x40.size 1)) :
    h.lift (ix1 p) k = ix2 p (⟨k.val, k.isLt⟩ : Fin 40) := by
  funext c; apply Fin.ext
  fin_cases c <;> rfl

/-- The host's row maximum from minus infinity, with the further maximum against minus infinity, is the fold of `max`. -/
theorem hostmax_apply (v : S50000x40.Idx → EReal) (p : Fin 50000) :
    Cert.Spec.rowMaxArr (F := Ideal) v (ix1 p) = rowMax (fun k => v (ix2 p k)) := by
  have h : S50000x40.Reduces [1] S50000 := by decide
  unfold Cert.Spec.rowMaxArr
  rw [maximumf_apply]
  refine (congrArg (max _) (Host.reduce_eq_fold_single (FloatOps.maximumf (F := Ideal) (φ := .f32)) v _
    reducesTo_S50000x40_S50000_d1 h h_S_ (ix1 p))).trans ?_
  refine (max_ninf _).trans ?_
  unfold rowMax
  exact congrArg (fun f => Finset.fold max (Ideal.ofBits .f32 0xFF800000#32) f (Finset.univ : Finset (Fin 40)))
    (funext fun k => congrArg v (lift_row h p k))

/-- The host's row sum from zero is the sum over the 40 columns. -/
theorem hostsum_apply (e : S50000x40.Idx → EReal) (p : Fin 50000) :
    Host.reduceAdd (F := Ideal) (φ := .f32) e (Cert.Spec.zero0 (F := Ideal)) reducesTo_S50000x40_S50000_d1 h_S_ (ix1 p) = ∑ k : Fin 40, e (ix2 p k) := by
  have h : S50000x40.Reduces [1] S50000 := by decide
  show Ideal.hostReduceAdd reducesTo_S50000x40_S50000_d1 e (Ideal.ofBits .f32 0x00000000#32) (ix1 p) = _
  rw [Ideal.hostReduceAdd_single reducesTo_S50000x40_S50000_d1 h, Ideal.ofBits_zero_f32, zero_add]
  exact Finset.sum_congr rfl fun k _ => congrArg e (lift_row h p k)

/-- A row less its maximum, at an entry. -/
theorem shifted_apply (v : S50000x40.Idx → EReal) (p : Fin 50000) (k : Fin 40) :
    Cert.Spec.shifted (F := Ideal) v (ix2 p k) = v (ix2 p k) - rowMax (fun k => v (ix2 p k)) := by
  unfold Cert.Spec.shifted
  rw [subf_apply, rows40_apply, hostmax_apply]

/-- The host's logarithm and exponential of an array, at an entry. -/
theorem hostlog_apply {s : Shape} (x : s.Idx → EReal) (i : s.Idx) : Host.log (F := Ideal) (φ := .f32) x i = Ideal.log (x i) := rfl
theorem hostexp_apply {s : Shape} (x : s.Idx → EReal) (i : s.Idx) : Host.exp (F := Ideal) (φ := .f32) x i = Ideal.exp (x i) := rfl

/-- The reference's log-softmax at an entry is the row's. -/
theorem logSoftmax_apply (v : S50000x40.Idx → EReal) (p : Fin 50000) (q : Fin 40) :
    Cert.Spec.logSoftmax (F := Ideal) v (ix2 p q) = lsm (fun k => v (ix2 p k)) q := by
  unfold Cert.Spec.logSoftmax Cert.Spec.lessLogSumExp lsm
  rw [subf_apply, shifted_apply]
  refine congrArg (fun t => (v (ix2 p q) - rowMax (fun k => v (ix2 p k))) - t) ?_
  refine (broadcastInDim_apply _ bcast_S50000x1_S50000x40_0_1 _ (ix2 p q) (ix2 p (0 : Fin 1)) (fun a => ?_)).trans ?_
  · match a with
    | ⟨0, _⟩ => rfl
    | ⟨1, _⟩ => rfl
  · rw [hostlog_apply]
    refine congrArg Ideal.log ((broadcastInDim_apply _ bcast_S50000_S50000x1_0
      (Host.reduceAdd (F := Ideal) (φ := .f32) (Host.exp (F := Ideal) (Cert.Spec.shifted (F := Ideal) v)) (Cert.Spec.zero0 (F := Ideal))
        reducesTo_S50000x40_S50000_d1 h_S_) (ix2 p (0 : Fin 1)) (ix1 p) (fun a => ?_)).trans ?_)
    · match a with
      | ⟨0, _⟩ => rfl
    · rw [hostsum_apply]
      refine Finset.sum_congr rfl fun k _ => ?_
      rw [hostexp_apply, shifted_apply]

/-- LAYER THREE: region 2's function of the in-degree factor as a column and the bias as a row is the reference's last stage. -/
theorem layer3_eq (a : S50000x40.Idx → EReal) (si : S50000.Idx → EReal) (b2 : S40.Idx → EReal) (h : S50000.ShapeCasts S50000x1)
    (hb : S40.ShapeCasts S1x40) :
    Cert.KernelIdeal.Region2.G2 a (shapeCast S50000x1 si h) (shapeCast S1x40 b2 hb) = Cert.Spec.layer3 (F := Ideal) a si b2 := by
  funext i
  obtain ⟨p, q, rfl⟩ : ∃ (p : Fin 50000) (q : Fin 40), i = ix2 p q := ⟨i 0, i 1, eq_ix2 i⟩
  show lsm (rowV (fun k => a (ix2 p k)) (shapeCast S50000x1 si h (ix2 p (0 : Fin 1))) (fun k => shapeCast S1x40 b2 hb (ix2 (0 : Fin 1) k))) q
    = Cert.Spec.logSoftmax (F := Ideal) (Cert.Spec.scores (F := Ideal) a si b2) (ix2 p q)
  rw [logSoftmax_apply, shapeCast_a_a1_apply]
  refine congrArg (fun f => lsm f q) (funext fun k => ?_)
  rw [scores_apply]
  show max (a (ix2 p k) * si (ix1 p) + shapeCast S1x40 b2 hb (ix2 (0 : Fin 1) k)) (Ideal.ofBits .f32 0x00000000#32)
    = max (a (ix2 p k) * si (ix1 p) + b2 (ix1 k)) (Ideal.ofBits .f32 0x00000000#32)
  rw [shapeCast_a_1a_apply]

/-- THE DEGREES: counted in integers and converted, or summed in floats, they are the same array. -/
theorem degK_eq (e : (⟨S800000, .i32⟩ : BufTy).Contents (Elt Ideal)) :
    Cert.KernelIdeal.KValue.degK e = Cert.Spec.degree (F := Ideal) e :=
  Idealize.ShloMosaic.ScatterCount.sitofp_scatter_eq_scatterAdd scatter_S50000_S800000x1_S800000_n_0_0_1 _ _ _
    (fun _ => rfl) (fun _ => rfl) _ _ (fun _ => Ideal.ofBits_zero_f32) (fun _ => Ideal.ofBits_one_f32) (by decide)

/-- So the degree factors agree. -/
theorem invSqrtK_eq (e : (⟨S800000, .i32⟩ : BufTy).Contents (Elt Ideal)) :
    Cert.KernelIdeal.KValue.invSqrtK e = Cert.Spec.invSqrt (F := Ideal) (Cert.Spec.degree (F := Ideal) e) := by
  unfold Cert.KernelIdeal.KValue.invSqrtK
  rw [degK_eq]
  rfl

/-- THE KERNEL PROGRAM'S RESULT is the network of its arguments, as the reference computes it. -/
theorem kOut_eq (m : (ℓ : Loc Cert.KernelIdeal.nD Cert.KernelIdeal.τ Cert.KernelIdeal.sig) → Buf (Elt Ideal) ℓ) (c : Dev Cert.KernelIdeal.nD) :
    Cert.KernelIdeal.KValue.kOut m c
      = Cert.Spec.out (F := Ideal) (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5))
          (m ((c.tc : Thread Cert.KernelIdeal.nD Cert.KernelIdeal.τ).loc Cert.KernelIdeal.main_arg6)) := by
  unfold Cert.KernelIdeal.KValue.kOut
  rw [layer1_eq, layer2_eq, layer3_eq, invSqrtK_eq, invSqrtK_eq]
  rfl

end Cert.Bridge

end
-- ==== Proof.lean ====
/-
  Two-layer graph convolution with degree normalisation and a row-wise log-softmax: the Pallas program against its
  jnp reference, over the extended reals.

  At the ideal float values both programs compute, from the node features `x`, the edge ends `src`, `dst` and the two
  layers' weights and biases, the array

    log_softmax (relu (A (relu (A ((x · W1) ∘ s_out) ∘ s_in + b1) · W2 ∘ s_out) ∘ s_in + b2))

  where `A` sums rows over the edges (row `dst e` gathers row `src e`) and `s_out`, `s_in` are the inverse square roots of
  the out- and in-degrees (zero where the degree is zero). The kernel program runs three grids of 25 row blocks
  between host gathers and scatters; the reference is one line of host operations. They differ in three ways, none
  of which changes a value at the ideal instance: the kernel counts the degrees in 32-bit integers and converts, the
  reference sums float ones (the same number, there being fewer than 2^31 edges); the kernel lays the degree factors
  and the biases out as columns and rows by reshapes where the reference broadcasts; and the kernel's products,
  lane maxima and lane sums are the host's products, maximum-reduces and sums, as sums and folds over one coordinate.
  No law used needs the inputs finite, so the precondition is never opened.
-/
import proofs.«142990_j15659450761582_2_alg».proof.Defs
import proofs.«142990_j15659450761582_2_alg».proof.Proof.Gen.Kernel
import proofs.«142990_j15659450761582_2_alg».proof.Proof.Gen.Kernel.Skeleton
import proofs.«142990_j15659450761582_2_alg».proof.Proof.Gen.Kernel.Launch
import proofs.«142990_j15659450761582_2_alg».proof.Proof.Gen.Kernel.Points
import proofs.«142990_j15659450761582_2_alg».proof.Proof.Gen.Kernel.Frame
import proofs.«142990_j15659450761582_2_alg».proof.Proof.Gen.KernelIdeal
import proofs.«142990_j15659450761582_2_alg».proof.Proof.Gen.KernelIdeal.Skeleton
import proofs.«142990_j15659450761582_2_alg».proof.Proof.Gen.KernelIdeal.Launch
import proofs.«142990_j15659450761582_2_alg».proof.Proof.Gen.KernelIdeal.Points
import proofs.«142990_j15659450761582_2_alg».proof.Proof.Gen.KernelIdeal.Frame
import proofs.«142990_j15659450761582_2_alg».proof.Proof.Gen.ReferenceIdeal
import proofs.«142990_j15659450761582_2_alg».proof.Proof.Gen.Pre_finite_inputs
import proofs.«142990_j15659450761582_2_alg».proof.Proof.KRun
import proofs.«142990_j15659450761582_2_alg».proof.Proof.KValue
import proofs.«142990_j15659450761582_2_alg».proof.Proof.RefRun
import proofs.«142990_j15659450761582_2_alg».proof.Proof.Bridge
import Idealize.ShloMosaic.Adequacy
import Idealize.ShloMosaic.Init

noncomputable section

namespace Cert.Proof

open Idealize.ShloMosaic Idealize.SL.Sem

/-- The word-level kernel program runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.HandRun.run (F := Ideal) m ρ)

/-- The ideal pass rewrote nothing. -/
theorem preserves : Cert.preserves_Kernel_KernelIdeal := trivial

/-- From memories agreeing on the arguments both programs end with the network of the arguments in their result
    buffers: the kernel program's run read back through its three regions, the reference's run, and the identity
    between the two functions. -/
theorem algebraic : Cert.algebraic_KernelIdeal_ReferenceIdeal := by
  intro m ρ m' ρ' _ hagree
  refine ⟨fun c => Cert.KernelIdeal.KValue.kOut m c, ?_, ?_⟩
  · exact (θ_run Cert.KernelIdeal.defs _ _).mono
      (fun r h c => ⟨(h c).1.trans (Cert.KernelIdeal.KValue.value m ρ c), (h c).2⟩)
      (Cert.KernelIdeal.HandRun.run (F := Ideal) m ρ)
  · refine (θ_run Cert.ReferenceIdeal.defs _ _).mono (fun _ h c => ⟨(h c).1.trans ?_, (h c).2⟩)
      (Cert.ReferenceIdeal.HandRun.run (F := Ideal) m' ρ')
    obtain ⟨h0, h1, h2, h3, h4, h5, h6⟩ := hagree c
    show Cert.ReferenceIdeal.HandRun.result m' c = Cert.KernelIdeal.KValue.kOut m c
    rw [Cert.Bridge.kOut_eq]
    unfold Cert.ReferenceIdeal.HandRun.result
    rw [h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
